-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v31)) (v2 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_v73) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S4096x3 : Shape := ⟨2, ![4096, 3]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : IVec S4096 32) (main_arg2 : IVec S4096x3 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S4096x512 : Shape := ⟨2, ![4096, 512]⟩
abbrev S4096 : Shape := ⟨1, ![4096]⟩
abbrev S4096x3 : Shape := ⟨2, ![4096, 3]⟩
abbrev S_ : Shape := ⟨0, ![]⟩
abbrev S4096x1 : Shape := ⟨2, ![4096, 1]⟩
abbrev S1x4096 : Shape := ⟨2, ![1, 4096]⟩
abbrev S512x1 : Shape := ⟨2, ![512, 1]⟩
abbrev S512x512 : Shape := ⟨2, ![512, 512]⟩
abbrev S2048x512 : Shape := ⟨2, ![2048, 512]⟩
abbrev S512x2048 : Shape := ⟨2, ![512, 2048]⟩
abbrev S1x512 : Shape := ⟨2, ![1, 512]⟩
abbrev S1x2048 : Shape := ⟨2, ![1, 2048]⟩
abbrev S512 : Shape := ⟨1, ![512]⟩

abbrev nBuf : Space → Nat
  | .hbm => 115
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x3, .i32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x512, .f32⟩
  | .hbm, ⟨12, _⟩ => ⟨S4096x512, .f32⟩
  | .hbm, ⟨13, _⟩ => ⟨S4096x512, .bf16⟩
  | .hbm, ⟨14, _⟩ => ⟨S1x4096, .i32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .i1⟩
  | .hbm, ⟨33, _⟩ => ⟨S4096, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S_, .i32⟩
  | .hbm, ⟨45, _⟩ => ⟨S_, .i32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S4096x1, .i32⟩
  | .hbm, ⟨51, _⟩ => ⟨S4096, .i32⟩
  | .hbm, ⟨52, _⟩ => ⟨S4096x1, .i32⟩
  | .hbm, ⟨53, _⟩ => ⟨S4096, .i32⟩
  | .hbm, ⟨54, _⟩ => ⟨S4096x1, .i32⟩
  | .hbm, ⟨55, _⟩ => ⟨S4096, .i32⟩
  | .hbm, ⟨56, _⟩ => ⟨S_, .i32⟩
  | .hbm, ⟨57, _⟩ => ⟨S4096, .i32⟩
  | .hbm, ⟨58, _⟩ => ⟨S4096, .i1⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S4096, .i32⟩
  | .hbm, ⟨63, _⟩ => ⟨S4096x1, .i32⟩
  | .hbm, ⟨64, _⟩ => ⟨S4096x512, .f32⟩
  | .hbm, ⟨65, _⟩ => ⟨S_, .i32⟩
  | .hbm, ⟨66, _⟩ => ⟨S4096, .i32⟩
  | .hbm, ⟨67, _⟩ => ⟨S4096, .i1⟩
  | .hbm, ⟨68, _⟩ => ⟨S_, .i32⟩
  | .hbm, ⟨69, _⟩ => ⟨S4096, .i32⟩
  | .hbm, ⟨70, _⟩ => ⟨S4096, .i32⟩
  | .hbm, ⟨71, _⟩ => ⟨S4096, .i32⟩
  | .hbm, ⟨72, _⟩ => ⟨S4096x1, .i32⟩
  | .hbm, ⟨73, _⟩ => ⟨S4096x512, .f32⟩
  | .hbm, ⟨74, _⟩ => ⟨S_, .i32⟩
  | .hbm, ⟨75, _⟩ => ⟨S4096, .i32⟩
  | .hbm, ⟨76, _⟩ => ⟨S4096, .i1⟩
  | .hbm, ⟨77, _⟩ => ⟨S_, .i32⟩
  | .hbm, ⟨78, _⟩ => ⟨S4096, .i32⟩
  | .hbm, ⟨79, _⟩ => ⟨S4096, .i32⟩
  | .hbm, ⟨80, _⟩ => ⟨S4096, .i32⟩
  | .hbm, ⟨81, _⟩ => ⟨S4096x1, .i32⟩
  | .hbm, ⟨82, _⟩ => ⟨S4096x512, .f32⟩
  | .hbm, ⟨83, _⟩ => ⟨S4096x512, .f32⟩
  | .hbm, ⟨84, _⟩ => ⟨S_, .f32⟩
  | .hbm, ⟨85, _⟩ => ⟨S4096x512, .f32⟩
  | .hbm, ⟨86, _⟩ => ⟨S4096x512, .f32⟩
  | .hbm, ⟨87, _⟩ => ⟨S4096x512, .f32⟩
  | .hbm, ⟨88, _⟩ => ⟨S_, .f32⟩
  | .hbm, ⟨89, _⟩ => ⟨S4096, .f32⟩
  | .hbm, ⟨90, _⟩ => ⟨S4096, .f32⟩
  | .hbm, ⟨91, _⟩ => ⟨S4096x512, .f32⟩
  | .hbm, ⟨92, _⟩ => ⟨S_, .f32⟩
  | .hbm, ⟨93, _⟩ => ⟨S4096x512, .f32⟩
  | .hbm, ⟨94, _⟩ => ⟨S4096x512, .f32⟩
  | .hbm, ⟨95, _⟩ => ⟨S4096x512, .f32⟩
  | .hbm, ⟨96, _⟩ => ⟨S_, .f32⟩
  | .hbm, ⟨97, _⟩ => ⟨S4096, .f32⟩
  | .hbm, ⟨98, _⟩ => ⟨S4096, .f32⟩
  | .hbm, ⟨99, _⟩ => ⟨S4096, .f32⟩
  | .hbm, ⟨100, _⟩ => ⟨S_, .f32⟩
  | .hbm, ⟨101, _⟩ => ⟨S4096, .f32⟩
  | .hbm, ⟨102, _⟩ => ⟨S4096, .f32⟩
  | .hbm, ⟨103, _⟩ => ⟨S_, .f32⟩
  | .hbm, ⟨104, _⟩ => ⟨S4096, .f32⟩
  | .hbm, ⟨105, _⟩ => ⟨S4096, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .local _ .vmem, ⟨0, _⟩ => ⟨S4096x512, .bf16⟩
  | .local _ .vmem, ⟨1, _⟩ => ⟨S1x4096, .i32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_cst_5 : Ref sig .tc := ⟨.hbm, 38, rfl⟩
abbrev main_call0_v0 : Ref sig .tc := ⟨.hbm, 39, rfl⟩
abbrev main_call0_v1 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_v38 : Ref sig .tc := ⟨.hbm, 57, rfl⟩
abbrev main_v39 : Ref sig .tc := ⟨.hbm, 58, rfl⟩
abbrev main_c_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_11 : Ref sig .tc := ⟨.hbm, 65, rfl⟩
abbrev main_v45 : Ref sig .tc := ⟨.hbm, 66, rfl⟩
abbrev main_v46 : Ref sig .tc := ⟨.hbm, 67, rfl⟩
abbrev main_c_12 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_13 : Ref sig .tc := ⟨.hbm, 74, rfl⟩
abbrev main_v52 : Ref sig .tc := ⟨.hbm, 75, rfl⟩
abbrev main_v53 : Ref sig .tc := ⟨.hbm, 76, rfl⟩
abbrev main_c_14 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_15 : Ref sig .tc := ⟨.hbm, 84, rfl⟩
abbrev main_v60 : Ref sig .tc := ⟨.hbm, 85, rfl⟩
abbrev main_v61 : Ref sig .tc := ⟨.hbm, 86, rfl⟩
abbrev main_call2_v0 : Ref sig .tc := ⟨.hbm, 87, rfl⟩
abbrev main_call2_cst : Ref sig .tc := ⟨.hbm, 88, rfl⟩
abbrev main_call2_v1 : Ref sig .tc := ⟨.hbm, 89, rfl⟩
abbrev main_v62 : Ref sig .tc := ⟨.hbm, 90, rfl⟩
abbrev main_v63 : Ref sig .tc := ⟨.hbm, 91, rfl⟩
abbrev main_cst_16 : Ref sig .tc := ⟨.hbm, 92, rfl⟩
abbrev main_v64 : Ref sig .tc := ⟨.hbm, 93, rfl⟩
abbrev main_v65 : Ref sig .tc := ⟨.hbm, 94, rfl⟩
abbrev main_call3_v0 : Ref sig .tc := ⟨.hbm, 95, rfl⟩
abbrev main_call3_cst : Ref sig .tc := ⟨.hbm, 96, rfl⟩
abbrev main_call3_v1 : Ref sig .tc := ⟨.hbm, 97, rfl⟩
abbrev main_v66 : Ref sig .tc := ⟨.hbm, 98, rfl⟩
abbrev main_v67 : Ref sig .tc := ⟨.hbm, 99, rfl⟩
abbrev main_cst_17 : Ref sig .tc := ⟨.hbm, 100, rfl⟩
abbrev main_v68 : Ref sig .tc := ⟨.hbm, 101, rfl⟩
abbrev main_v69 : Ref sig .tc := ⟨.hbm, 102, rfl⟩
abbrev main_cst_18 : Ref sig .tc := ⟨.hbm, 103, rfl⟩
abbrev main_v70 : Ref sig .tc := ⟨.hbm, 104, rfl⟩
abbrev main_v71 : Ref sig .tc := ⟨.hbm, 105, rfl⟩
abbrev main_cst_19 : Ref sig .tc := ⟨.hbm, 106, rfl⟩
abbrev main_v72 : Ref sig .tc := ⟨.hbm, 107, rfl⟩
abbrev main_cst_20 : Ref sig .tc := ⟨.hbm, 108, rfl⟩
abbrev main_v73 : Ref sig .tc := ⟨.hbm, 109, rfl⟩
abbrev main_cst_21 : Ref sig .tc := ⟨.hbm, 110, rfl⟩
abbrev main_v74 : Ref sig .tc := ⟨.hbm, 111, rfl⟩
abbrev main_cst_22 : Ref sig .tc := ⟨.hbm, 112, rfl⟩
abbrev main_v75 : Ref sig .tc := ⟨.hbm, 113, rfl⟩
abbrev main_v76 : Ref sig .tc := ⟨.hbm, 114, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_mult2 (i : grid0.Coords) : BitVec 32 :=
  let arg1 : BitVec 32 := BitVec.ofNat 32 (i 1).val
  let c2048_i32 : BitVec 32 := 2048#32
  let v2 : BitVec 32 := Scalar.muli arg1 c2048_i32
  v2
def k0_off1 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v4 : Index := Scalar.indexCast v1
  let c0 : Index := 0#32
  ![v4.toNat, 0]
def k0_off2 (i : grid0.Coords) : Fin 2 → Nat :=
  let arg1 : BitVec 32 := BitVec.ofNat 32 (i 1).val
  let c2048_i32 : BitVec 32 := 2048#32
  let v2 : BitVec 32 := Scalar.muli arg1 c2048_i32
  let v3 : BitVec 32 := v2
  let v7 : Index := Scalar.indexCast v3
  let c0_0 : Index := 0#32
  ![v7.toNat, 0]
def k0_off3 (i : grid0.Coords) : Fin 2 → Nat :=
  let c0_2 : Index := 0#32
  let arg0 : BitVec 32 := BitVec.ofNat 32 (i 0).val
  let c512_i32 : BitVec 32 := 512#32
  let v0 : BitVec 32 := Scalar.muli arg0 c512_i32
  let v1 : BitVec 32 := v0
  let v14 : Index := Scalar.indexCast v1
  ![0, v14.toNat]
def k0_off4 (i : grid0.Coords) : Fin 2 → Nat :=
  let c0_3 : Index := 0#32
  let arg1 : BitVec 32 := BitVec.ofNat 32 (i 1).val
  let c2048_i32 : BitVec 32 := 2048#32
  let v2 : BitVec 32 := Scalar.muli arg1 c2048_i32
  let v3 : BitVec 32 := v2
  let v18 : Index := Scalar.indexCast v3
  ![0, v18.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bitsLt_bf16_f32 : FTy.bits .bf16 < FTy.bits .f32
  shapeCasts_S4096_S1x4096 : S4096.ShapeCasts S1x4096
  h_S512x512 : 0 < S512x512.numel
  shapeCasts_S512x512_S512x512 : S512x512.ShapeCasts S512x512
  h_S2048x512 : 0 < S2048x512.numel
  shapeCasts_S2048x512_S2048x512 : S2048x512.ShapeCasts S2048x512
  transposes_S2048x512_p1_0_S512x2048 : S2048x512.Transposes [1, 0] S512x2048
  h_S1x512 : 0 < S1x512.numel
  shapeCasts_S1x512_S1x512 : S1x512.ShapeCasts S1x512
  transposes_S1x512_p1_0_S512x1 : S1x512.Transposes [1, 0] S512x1
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  iota_S512x1_d0_w32 : S512x1.Iotas .tc 32 [0]
  iota_S1x2048_d1_w32 : S1x2048.Iotas .tc 32 [1]
  reduces_S512x2048_S512 : S512x2048.Reduces [1] S512
  shapeCasts_S512_S512x1 : S512.ShapeCasts S512x1
  natLt_1_32 : 1 < 32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S4096x1_S4096 : S4096x1.ShapeCasts S4096
  bcast_S_S4096 : S_.BroadcastsInDim S4096 (![] : Fin 0 → Fin S4096.rank)
  reducesTo_S4096_S_d0 : S4096.ReducesTo [0] S_
  slices_S4096x3_S4096x1_0_0 : S4096x3.Slices ![0, 0] S4096x1
  slices_S4096x3_S4096x1_0_1 : S4096x3.Slices ![0, 1] S4096x1
  slices_S4096x3_S4096x1_0_2 : S4096x3.Slices ![0, 2] S4096x1
  bcast_S_S4096x512 : S_.BroadcastsInDim S4096x512 (![] : Fin 0 → Fin S4096x512.rank)
  dot_S512x512_S512x2048_S512x2048_1_0_0_1_n_n_wf : DotDims.WF S512x512 S512x2048 S512x2048 [1] [0] [0] [1] [] []
  gather_S4096x512_S4096x1_S4096x512_1_0_n_n_0_1_1512_wf : GatherDims.WF S4096x512 S4096x1 S4096x512 [1] [0] [] [0] [] 1 ![1, 512]
  hrank0 : 0 < grid0.rank
  k0_mult1_dvd : ∀ i : grid0.Coords, 512 ∣ (k0_mult1 i).toNat
  k0_mult2_dvd : ∀ i : grid0.Coords, 2048 ∣ (k0_mult2 i).toNat
  k0_off1_inb : ∀ i : grid0.Coords, ∀ a, (k0_off1 i) a + S512x512.size a ≤ S4096x512.size a
  k0_off2_inb : ∀ i : grid0.Coords, ∀ a, (k0_off2 i) a + S2048x512.size a ≤ S4096x512.size a
  k0_off3_inb : ∀ i : grid0.Coords, ∀ a, (k0_off3 i) a + S1x512.size a ≤ S1x4096.size a
  k0_off4_inb : ∀ i : grid0.Coords, ∀ a, (k0_off4 i) a + S1x2048.size a ≤ S1x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x512.size a
  hwx0_0 : ∀ i : grid0.Coords, EltTy.bits .bf16 = 32 ∨ (Rect.block (s := S4096x512) S4096x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .i32 = 32 ∨ (Rect.block (s := S1x4096) S1x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def gather_S4096x512_S4096x1_S4096x512_1_0_n_n_0_1_1512 : GatherDims S4096x512 S4096x1 S4096x512 where
  offsetDims := [1]
  collapsedSliceDims := [0]
  operandBatchingDims := []
  startIndicesBatchingDims := []
  startIndexMap := [0]
  indexVectorDim := 1
  sliceSizes := ![1, 512]
  wf := gather_S4096x512_S4096x1_S4096x512_1_0_n_n_0_1_1512_wf

abbrev win0_0 : Pipeline.Window sig grid0 :=
  Pipeline.Window.ofSpec (Memref.whole main_v8) S4096x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10_0) S512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10_1) S512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_2) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096 : Shape := ⟨1, ![4096]⟩
abbrev S4096x3 : Shape := ⟨2, ![4096, 3]⟩
abbrev S_ : Shape := ⟨0, ![]⟩
abbrev S4096x1 : Shape := ⟨2, ![4096, 1]⟩
abbrev S512x4096 : Shape := ⟨2, ![512, 4096]⟩
abbrev S4096x4096 : Shape := ⟨2, ![4096, 4096]⟩
abbrev S1x4096 : Shape := ⟨2, ![1, 4096]⟩

abbrev nBuf : Space → Nat
  | .hbm => 137
  | .vmem => 0
  | .smem => 0
  | _ => 0

abbrev hbmTy0_0 (i : Nat) : BufTy := match i % 128 with
  | 0 => ⟨S4096x512, .f32⟩
  | 1 => ⟨S4096, .i32⟩
  | 2 => ⟨S4096x3, .i32⟩
  | 3 => ⟨S4096x512, .f32⟩
  | 4 => ⟨S_, .f32⟩
  | 5 => ⟨S4096, .f32⟩
  | 6 => ⟨S4096x1, .f32⟩
  | 7 => ⟨S4096x1, .f32⟩
  | 8 => ⟨S_, .f32⟩
  | 9 => ⟨S4096x1, .f32⟩
  | 10 => ⟨S4096x1, .f32⟩
  | 11 => ⟨S4096x512, .f32⟩
  | 12 => ⟨S4096x512, .f32⟩
  | 13 => ⟨S512x4096, .f32⟩
  | 14 => ⟨S4096x4096, .f32⟩
  | 15 => ⟨S_, .f32⟩
  | 16 => ⟨S4096x4096, .f32⟩
  | 17 => ⟨S4096x4096, .f32⟩
  | 18 => ⟨S4096x1, .i32⟩
  | 19 => ⟨S1x4096, .i32⟩
  | 20 => ⟨S4096x4096, .i32⟩
  | 21 => ⟨S4096x4096, .i32⟩
  | 22 => ⟨S4096x4096, .i1⟩
  | 23 => ⟨S4096x4096, .f32⟩
  | 24 => ⟨S4096x4096, .i32⟩
  | 25 => ⟨S4096x4096, .i32⟩
  | 26 => ⟨S_, .i32⟩
  | 27 => ⟨S4096x4096, .i32⟩
  | 28 => ⟨S4096x4096, .i32⟩
  | 29 => ⟨S4096x4096, .i1⟩
  | 30 => ⟨S4096x4096, .f32⟩
  | 31 => ⟨S_, .f32⟩
  | 32 => ⟨S4096x4096, .f32⟩
  | 33 => ⟨S4096x4096, .f32⟩
  | 34 => ⟨S4096x4096, .f32⟩
  | 35 => ⟨S4096x4096, .f32⟩
  | 36 => ⟨S4096x4096, .f32⟩
  | 37 => ⟨S_, .f32⟩
  | 38 => ⟨S4096, .f32⟩
  | 39 => ⟨S_, .f32⟩
  | 40 => ⟨S4096, .f32⟩
  | 41 => ⟨S_, .f32⟩
  | 42 => ⟨S4096, .f32⟩
  | 43 => ⟨S4096, .f32⟩
  | 44 => ⟨S4096, .f32⟩
  | 45 => ⟨S_, .f32⟩
  | 46 => ⟨S4096, .f32⟩
  | 47 => ⟨S4096, .f32⟩
  | 48 => ⟨S4096, .f32⟩
  | 49 => ⟨S4096, .f32⟩
  | 50 => ⟨S_, .f32⟩
  | 51 => ⟨S4096, .f32⟩
  | 52 => ⟨S_, .f32⟩
  | 53 => ⟨S4096, .f32⟩
  | 54 => ⟨S4096, .i1⟩
  | 55 => ⟨S4096, .i32⟩
  | 56 => ⟨S_, .i32⟩
  | 57 => ⟨S_, .i32⟩
  | 58 => ⟨S_, .i32⟩
  | 59 => ⟨S_, .i1⟩
  | 60 => ⟨S_, .f32⟩
  | 61 => ⟨S_, .f32⟩
  | 62 => ⟨S4096, .f32⟩
  | 63 => ⟨S4096, .f32⟩
  | 64 => ⟨S_, .f32⟩
  | 65 => ⟨S_, .f32⟩
  | 66 => ⟨S_, .i32⟩
  | 67 => ⟨S_, .i32⟩
  | 68 => ⟨S_, .f32⟩
  | 69 => ⟨S_, .f32⟩
  | 70 => ⟨S_, .f32⟩
  | 71 => ⟨S_, .f32⟩
  | 72 => ⟨S4096x1, .i32⟩
  | 73 => ⟨S4096, .i32⟩
  | 74 => ⟨S_, .i32⟩
  | 75 => ⟨S4096, .i32⟩
  | 76 => ⟨S4096, .i1⟩
  | 77 => ⟨S_, .i32⟩
  | 78 => ⟨S4096, .i32⟩
  | 79 => ⟨S4096, .i32⟩
  | 80 => ⟨S4096, .i32⟩
  | 81 => ⟨S4096x1, .i32⟩
  | 82 => ⟨S4096x512, .f32⟩
  | 83 => ⟨S4096x1, .i32⟩
  | 84 => ⟨S4096, .i32⟩
  | 85 => ⟨S_, .i32⟩
  | 86 => ⟨S4096, .i32⟩
  | 87 => ⟨S4096, .i1⟩
  | 88 => ⟨S_, .i32⟩
  | 89 => ⟨S4096, .i32⟩
  | 90 => ⟨S4096, .i32⟩
  | 91 => ⟨S4096, .i32⟩
  | 92 => ⟨S4096x1, .i32⟩
  | 93 => ⟨S4096x512, .f32⟩
  | 94 => ⟨S4096x1, .i32⟩
  | 95 => ⟨S4096, .i32⟩
  | 96 => ⟨S_, .i32⟩
  | 97 => ⟨S4096, .i32⟩
  | 98 => ⟨S4096, .i1⟩
  | 99 => ⟨S_, .i32⟩
  | 100 => ⟨S4096, .i32⟩
  | 101 => ⟨S4096, .i32⟩
  | 102 => ⟨S4096, .i32⟩
  | 103 => ⟨S4096x1, .i32⟩
  | 104 => ⟨S4096x512, .f32⟩
  | 105 => ⟨S4096x512, .f32⟩
  | 106 => ⟨S_, .f32⟩
  | 107 => ⟨S4096x512, .f32⟩
  | 108 => ⟨S4096x512, .f32⟩
  | 109 => ⟨S4096x512, .f32⟩
  | 110 => ⟨S_, .f32⟩
  | 111 => ⟨S4096, .f32⟩
  | 112 => ⟨S4096, .f32⟩
  | 113 => ⟨S4096x512, .f32⟩
  | 114 => ⟨S_, .f32⟩
  | 115 => ⟨S4096x512, .f32⟩
  | 116 => ⟨S4096x512, .f32⟩
  | 117 => ⟨S4096x512, .f32⟩
  | 118 => ⟨S_, .f32⟩
  | 119 => ⟨S4096, .f32⟩
  | 120 => ⟨S4096, .f32⟩
  | 121 => ⟨S4096, .f32⟩
  | 122 => ⟨S_, .f32⟩
  | 123 => ⟨S4096, .f32⟩
  | 124 => ⟨S4096, .f32⟩
  | 125 => ⟨S_, .f32⟩
  | 126 => ⟨S4096, .f32⟩
  | 127 => ⟨S4096, .f32⟩
  | _ => ⟨S4096x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_c_9 : Ref sig .tc := ⟨.hbm, 58, rfl⟩
abbrev main_v40 : Ref sig .tc := ⟨.hbm, 59, rfl⟩
abbrev main_cst_10 : Ref sig .tc := ⟨.hbm, 60, rfl⟩
abbrev main_call1_v0 : Ref sig .tc := ⟨.hbm, 61, rfl⟩
abbrev main_call1_v1 : Ref sig .tc := ⟨.hbm, 62, rfl⟩
abbrev main_v41 : Ref sig .tc := ⟨.hbm, 63, rfl⟩
abbrev main_cst_11 : Ref sig .tc := ⟨.hbm, 64, rfl⟩
abbrev main_v42 : Ref sig .tc := ⟨.hbm, 65, rfl⟩
abbrev main_c_12 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_13 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_14 : Ref sig .tc := ⟨.hbm, 74, rfl⟩
abbrev main_v49 : Ref sig .tc := ⟨.hbm, 75, rfl⟩
abbrev main_v50 : Ref sig .tc := ⟨.hbm, 76, rfl⟩
abbrev main_c_15 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_16 : Ref sig .tc := ⟨.hbm, 85, rfl⟩
abbrev main_v58 : Ref sig .tc := ⟨.hbm, 86, rfl⟩
abbrev main_v59 : Ref sig .tc := ⟨.hbm, 87, rfl⟩
abbrev main_c_17 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_18 : Ref sig .tc := ⟨.hbm, 96, rfl⟩
abbrev main_v67 : Ref sig .tc := ⟨.hbm, 97, rfl⟩
abbrev main_v68 : Ref sig .tc := ⟨.hbm, 98, rfl⟩
abbrev main_c_19 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_20 : Ref sig .tc := ⟨.hbm, 106, rfl⟩
abbrev main_v75 : Ref sig .tc := ⟨.hbm, 107, rfl⟩
abbrev main_v76 : Ref sig .tc := ⟨.hbm, 108, rfl⟩
abbrev main_call3_v0 : Ref sig .tc := ⟨.hbm, 109, rfl⟩
abbrev main_call3_cst : Ref sig .tc := ⟨.hbm, 110, rfl⟩
abbrev main_call3_v1 : Ref sig .tc := ⟨.hbm, 111, rfl⟩
abbrev main_v77 : Ref sig .tc := ⟨.hbm, 112, rfl⟩
abbrev main_v78 : Ref sig .tc := ⟨.hbm, 113, rfl⟩
abbrev main_cst_21 : Ref sig .tc := ⟨.hbm, 114, rfl⟩
abbrev main_v79 : Ref sig .tc := ⟨.hbm, 115, rfl⟩
abbrev main_v80 : Ref sig .tc := ⟨.hbm, 116, rfl⟩
abbrev main_call4_v0 : Ref sig .tc := ⟨.hbm, 117, rfl⟩
abbrev main_call4_cst : Ref sig .tc := ⟨.hbm, 118, rfl⟩
abbrev main_call4_v1 : Ref sig .tc := ⟨.hbm, 119, rfl⟩
abbrev main_v81 : Ref sig .tc := ⟨.hbm, 120, rfl⟩
abbrev main_v82 : Ref sig .tc := ⟨.hbm, 121, rfl⟩
abbrev main_cst_22 : Ref sig .tc := ⟨.hbm, 122, rfl⟩
abbrev main_v83 : Ref sig .tc := ⟨.hbm, 123, rfl⟩
abbrev main_v84 : Ref sig .tc := ⟨.hbm, 124, rfl⟩
abbrev main_cst_23 : Ref sig .tc := ⟨.hbm, 125, rfl⟩
abbrev main_v85 : Ref sig .tc := ⟨.hbm, 126, rfl⟩
abbrev main_v86 : Ref sig .tc := ⟨.hbm, 127, rfl⟩
abbrev main_cst_24 : Ref sig .tc := ⟨.hbm, 128, rfl⟩
abbrev main_v87 : Ref sig .tc := ⟨.hbm, 129, rfl⟩
abbrev main_cst_25 : Ref sig .tc := ⟨.hbm, 130, rfl⟩
abbrev main_v88 : Ref sig .tc := ⟨.hbm, 131, rfl⟩
abbrev main_cst_26 : Ref sig .tc := ⟨.hbm, 132, rfl⟩
abbrev main_v89 : Ref sig .tc := ⟨.hbm, 133, rfl⟩
abbrev main_cst_27 : Ref sig .tc := ⟨.hbm, 134, rfl⟩
abbrev main_v90 : Ref sig .tc := ⟨.hbm, 135, rfl⟩
abbrev main_v91 : Ref sig .tc := ⟨.hbm, 136, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  transposes_S4096x512_S512x4096_1_0 : S4096x512.Transposes [1, 0] S512x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  bcast_S_S4096 : S_.BroadcastsInDim S4096 (![] : Fin 0 → Fin S4096.rank)
  natLt_1_32 : 1 < 32
  reducesTo_S4096_S_d0 : S4096.ReducesTo [0] S_
  slices_S4096x3_S4096x1_0_0 : S4096x3.Slices ![0, 0] S4096x1
  shapeCasts_S4096x1_S4096 : S4096x1.ShapeCasts S4096
  slices_S4096x3_S4096x1_0_1 : S4096x3.Slices ![0, 1] S4096x1
  slices_S4096x3_S4096x1_0_2 : S4096x3.Slices ![0, 2] S4096x1
  bcast_S_S4096x512 : S_.BroadcastsInDim S4096x512 (![] : Fin 0 → Fin S4096x512.rank)
  dot_S4096x512_S512x4096_S4096x4096_1_0_0_1_n_n_wf : DotDims.WF S4096x512 S512x4096 S4096x4096 [1] [0] [0] [1] [] []
  gather_S4096x512_S4096x1_S4096x512_1_0_n_n_0_1_1512_wf : GatherDims.WF S4096x512 S4096x1 S4096x512 [1] [0] [] [0] [] 1 ![1, 512]

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def gather_S4096x512_S4096x1_S4096x512_1_0_n_n_0_1_1512 : GatherDims S4096x512 S4096x1 S4096x512 where
  offsetDims := [1]
  collapsedSliceDims := [0]
  operandBatchingDims := []
  startIndicesBatchingDims := []
  startIndexMap := [0]
  indexVectorDim := 1
  sliceSizes := ![1, 512]
  wf := gather_S4096x512_S4096x1_S4096x512_1_0_n_n_0_1_1512_wf

class Facts : Prop extends Facts₀ where

variable [Facts]
-- ==== Proof.KKit.lean ====
import proofs.«101721_j13683765805398_2_alg».proof.Proof.Gen.Kernel.Launch
import proofs.«101721_j13683765805398_2_alg».proof.Proof.Gen.Kernel.Skeleton
import proofs.«101721_j13683765805398_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations that follow the region, in order. -/
abbrev tailOps : List (List (HloOp τ sig (Elt F))) :=
  [hostOps1, hostOps1_1, hostOps1_2, hostOps1_3, hostOps1_4, hostOps1_5, hostOps1_6, hostOps1_7, hostOps1_8]

/-- Core `c`'s TensorCore buffer contents when the region is entered, as a valuation: after the host operations
    before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- The references whose contents the host operations must leave alone: the three arguments (never written at all)
    and the five arrays the region's windows stage (written by no operation after the region). -/
abbrev kept : List (Ref sig .tc) := [main_arg0, main_arg1, main_arg2, main_v8, main_v9, main_v10_0, main_v10_1, main_v10_2]

/-- No operation before the region writes an argument: each writes only its own result. -/
theorem hostOps0_keeps : (hostOps0 : List (HloOp τ sig (Elt F))).Forall fun op =>
    ∀ r ∈ ([main_arg0, main_arg1, main_arg2] : List (Ref sig .tc)), Proc.devRef (τ := τ) .tc r ∉ op.writes := by
  simp only [List.Forall, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  refine ⟨?_, ?_, ?_, ?_, ?_, ?_, ?_, ?_, ?_, ?_, ?_, ?_⟩ <;> refine ⟨?_, ?_, ?_⟩ <;> exact StableHlo.devRef_ne_of_ne (by decide)
/-- No operation of this stretch writes an argument or an array of the region: each writes only its own result. -/
theorem hostOps1_keeps : (hostOps1 : List (HloOp τ sig (Elt F))).Forall fun op =>
    ∀ r ∈ (kept : List (Ref sig .tc)), Proc.devRef (τ := τ) .tc r ∉ op.writes := by
  simp only [List.Forall, kept, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  refine ⟨?_, ?_, ?_, ?_, ?_, ?_, ?_, ?_, ?_, ?_, ?_, ?_, ?_, ?_, ?_, ?_, ?_, ?_, ?_, ?_, ?_⟩ <;> refine ⟨?_, ?_, ?_, ?_, ?_, ?_, ?_, ?_⟩ <;> exact StableHlo.devRef_ne_of_ne (by decide)
/-- No operation of this stretch writes an argument or an array of the region: each writes only its own result. -/
theorem hostOps1_1_keeps : (hostOps1_1 : List (HloOp τ sig (Elt F))).Forall fun op =>
    ∀ r ∈ (kept : List (Ref sig .tc)), Proc.devRef (τ := τ) .tc r ∉ op.writes := by
  simp only [List.Forall, kept, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  refine ⟨?_, ?_, ?_⟩ <;> refine ⟨?_, ?_, ?_, ?_, ?_, ?_, ?_, ?_⟩ <;> exact StableHlo.devRef_ne_of_ne (by decide)
/-- No operation of this stretch writes an argument or an array of the region: each writes only its own result. -/
theorem hostOps1_2_keeps : (hostOps1_2 : List (HloOp τ sig (Elt F))).Forall fun op =>
    ∀ r ∈ (kept : List (Ref sig .tc)), Proc.devRef (τ := τ) .tc r ∉ op.writes := by
  simp only [List.Forall, kept, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  refine ⟨?_, ?_, ?_, ?_, ?_, ?_, ?_⟩ <;> refine ⟨?_, ?_, ?_, ?_, ?_, ?_, ?_, ?_⟩ <;> exact StableHlo.devRef_ne_of_ne (by decide)
/-- No operation of this stretch writes an argument or an array of the region: each writes only its own result. -/
theorem hostOps1_3_keeps : (hostOps1_3 : List (HloOp τ sig (Elt F))).Forall fun op =>
    ∀ r ∈ (kept : List (Ref sig .tc)), Proc.devRef (τ := τ) .tc r ∉ op.writes := by
  simp only [List.Forall, kept, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  refine ⟨?_, ?_, ?_, ?_, ?_, ?_, ?_, ?_⟩ <;> exact StableHlo.devRef_ne_of_ne (by decide)
/-- No operation of this stretch writes an argument or an array of the region: each writes only its own result. -/
theorem hostOps1_4_keeps : (hostOps1_4 : List (HloOp τ sig (Elt F))).Forall fun op =>
    ∀ r ∈ (kept : List (Ref sig .tc)), Proc.devRef (τ := τ) .tc r ∉ op.writes := by
  simp only [List.Forall, kept, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> refine ⟨?_, ?_, ?_, ?_, ?_, ?_, ?_, ?_⟩ <;> exact StableHlo.devRef_ne_of_ne (by decide)
/-- No operation of this stretch writes an argument or an array of the region: each writes only its own result. -/
theorem hostOps1_5_keeps : (hostOps1_5 : List (HloOp τ sig (Elt F))).Forall fun op =>
    ∀ r ∈ (kept : List (Ref sig .tc)), Proc.devRef (τ := τ) .tc r ∉ op.writes := by
  simp only [List.Forall, kept, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  refine ⟨?_, ?_, ?_, ?_⟩ <;> refine ⟨?_, ?_, ?_, ?_, ?_, ?_, ?_, ?_⟩ <;> exact StableHlo.devRef_ne_of_ne (by decide)
/-- No operation of this stretch writes an argument or an array of the region: each writes only its own result. -/
theorem hostOps1_6_keeps : (hostOps1_6 : List (HloOp τ sig (Elt F))).Forall fun op =>
    ∀ r ∈ (kept : List (Ref sig .tc)), Proc.devRef (τ := τ) .tc r ∉ op.writes := by
  simp only [List.Forall, kept, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  refine ⟨?_, ?_, ?_, ?_⟩ <;> refine ⟨?_, ?_, ?_, ?_, ?_, ?_, ?_, ?_⟩ <;> exact StableHlo.devRef_ne_of_ne (by decide)
/-- No operation of this stretch writes an argument or an array of the region: each writes only its own result. -/
theorem hostOps1_7_keeps : (hostOps1_7 : List (HloOp τ sig (Elt F))).Forall fun op =>
    ∀ r ∈ (kept : List (Ref sig .tc)), Proc.devRef (τ := τ) .tc r ∉ op.writes := by
  simp only [List.Forall, kept, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  refine ⟨?_, ?_, ?_, ?_⟩ <;> refine ⟨?_, ?_, ?_, ?_, ?_, ?_, ?_, ?_⟩ <;> exact StableHlo.devRef_ne_of_ne (by decide)
/-- No operation of this stretch writes an argument or an array of the region: each writes only its own result. -/
theorem hostOps1_8_keeps : (hostOps1_8 : List (HloOp τ sig (Elt F))).Forall fun op =>
    ∀ r ∈ (kept : List (Ref sig .tc)), Proc.devRef (τ := τ) .tc r ∉ op.writes := by
  simp only [List.Forall, kept, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  refine ⟨?_, ?_, ?_, ?_, ?_, ?_, ?_, ?_, ?_, ?_, ?_, ?_, ?_, ?_, ?_, ?_⟩ <;> refine ⟨?_, ?_, ?_, ?_, ?_, ?_, ?_, ?_⟩ <;> exact StableHlo.devRef_ne_of_ne (by decide)

/-- Every array a window stages is one of the five kept ones. -/
theorem arr_mem_kept (w : Fin 5) : Pipeline.arrRef spec0 w ∈ (kept : List (Ref sig .tc)) := by
  fin_cases w <;> decide

/-- @main around the region: the host operations before it, the region, the host stretches after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (show List.Forall _ [hostOps0] from hostOps0_sub)
    (show List.Forall _ [hostOps0] from hostOps0_fresh) main_chain

/-- The stretches after the region touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
/-- No operation after the region writes a kept reference. -/
theorem sfx_keeps_ref : ∀ ops ∈ (tailOps : List (List (HloOp τ sig (Elt F)))), ∀ op ∈ ops,
    ∀ r ∈ (kept : List (Ref sig .tc)), Proc.devRef (τ := τ) .tc r ∉ op.writes := by
  intro ops hops op hop
  simp only [tailOps, List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
/-- And so they write no array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop w => sfx_keeps_ref ops hops op hop _ (arr_mem_kept w)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- After the whole of @main a kept reference that is no array of the region holds its launch contents: no
    operation before or after the region writes it, and the region's write-backs go to its arrays only. -/
theorem afterTail_arg (dats : (p : Fin 1) → (c : Dev nD) → Dat τ (Elt F) Unit ℕ (UR sig nD τ) ℕ (cfgs p) c)
    (c : Dev nD) (b : Ref sig .tc) (hb : b ∈ ([main_arg0, main_arg1, main_arg2] : List (Ref sig .tc)))
    (hk : b ∈ (kept : List (Ref sig .tc))) (harr : ∀ w, Pipeline.arrRef spec0 w ≠ b) :
    Pipeline.afterTail₀ cfgs dats 0 (V0 m) tailOps c b = m ((c.tc : Thread nD τ).loc b) := by
  unfold Pipeline.afterTail₀
  rw [StableHlo.after_of_forall_not_mem _ _ fun op hop => by
        obtain ⟨ops, hops, hop'⟩ := List.mem_flatten.mp hop
        exact sfx_keeps_ref ops hops op hop' b hk,
    Pipeline.withArrays_of_ne _ c _ _ b harr]
  show StableHlo.after (List.flatten [hostOps0]) (fun b => m (c, b)) (Proc.devRef .tc b) = _
  rw [StableHlo.after_of_forall_not_mem _ _ fun op hop => by
        simp only [List.flatten_cons, List.flatten_nil, List.append_nil] at hop
        exact (List.forall_iff_forall_mem.mp hostOps0_keeps) op hop b hb]

/-- THE FRAME from a frame run: each argument is an array no window stages, read by the post's second clause at
    the contents after the last host stretch, which are its launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans
        (afterTail_arg m dats c main_arg0 (by decide) (by decide) (by decide)),
      ((h c).2 main_arg1 (Pipeline.mem_restRefs_of main_arg1 (by decide) (by decide))).trans
        (afterTail_arg m dats c main_arg1 (by decide) (by decide) (by decide)),
      ((h c).2 main_arg2 (Pipeline.mem_restRefs_of main_arg2 (by decide) (by decide))).trans
        (afterTail_arg m dats c main_arg2 (by decide) (by decide) (by decide))⟩) h

/-! ## The body's branch condition -/

/-- The condition of the body's `scf.if`: the inner grid coordinate is zero. -/
abbrev cond0_0 (i : grid0.Coords) : Prop := (Scalar.cmpi .ne (Scalar.extui (Scalar.cmpi .eq (BitVec.ofNat 32 (i 1).val) 0#32)) 0#32) = 1#1
/-- It holds at the even points (the inner axis has two steps) — decided over the grid. -/
theorem hcond0_0 : ∀ t : Fin cfg0.N, cond0_0 (grid0.coords t) ↔ t.val % 2 = 0 :=
  (by decide +kernel : ∀ t : Fin grid0.N, cond0_0 (grid0.coords t) ↔ t.val % 2 = 0)

/-- No window is ever idle: each is read or stored at every point. -/
theorem liveAt0 : ∀ (w : Fin cfg0.W) (t : Fin cfg0.N), cfg0.idle w (grid0.coords t) = false := by decide +kernel

/-! ## The kernel body on any staging memrefs -/

/-- One staging buffer of each output window, through which its contents are stated. -/
abbrev VO0_2 : View sig .tc .vmem S512x1 .f32 := (Memref.whole cc0_stg2_0 : Memref sig .tc .vmem S512x1 .f32).view
abbrev VO0_3 : View sig .tc .vmem S512x1 .f32 := (Memref.whole cc0_stg3_0 : Memref sig .tc .vmem S512x1 .f32).view
abbrev VO0_4 : View sig .tc .vmem S512x1 .f32 := (Memref.whole cc0_stg4_0 : Memref sig .tc .vmem S512x1 .f32).view
/-- Each window's current staging memref at point `t`, spelled as the pipeline passes it, and its wholeness. -/
abbrev ms0_0 (t : Fin cfg0.N) : Memref sig .tc .vmem S4096x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)

end Cert.Kernel.Hand

end
-- ==== Proof.KRunA.lean ====
import proofs.«101721_j13683765805398_2_alg».proof.Proof.KKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging memref, as pieces (last first), at a point whose inner
    coordinate is zero (the `scf.if` taken): on whole staging memrefs — the two inputs' at their contents, the three
    outputs' at anything (each is zeroed before it is read back) — the body runs to the continuation holding the
    inputs' as they were and each output's buffer with its pieces written. -/
noncomputable def kernelRun0_A (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i)
    (x0 : Vec F S4096x512 .bf16) (x1 : Vec F S1x4096 .i32) :
    Σ' (L2 : List (View.Piece (Elt F) S512x1 .f32)) (L3 : List (View.Piece (Elt F) S512x1 .f32)), { L4 : List (View.Piece (Elt F) S512x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0_kernel i arg2 harg2 arg3 harg3 arg4 harg4 arg5 harg5 arg6 harg6) K } := by
  refine ⟨?_, ?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.Kernel.Hand

end
-- ==== Proof.KRunB.lean ====
import proofs.«101721_j13683765805398_2_alg».proof.Proof.KRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging memref, as pieces (last first), at a point whose inner
    coordinate is not zero (the `scf.if` not taken): on whole staging memrefs — the two inputs' at their contents, the
    three outputs' at their running contents `xo2 xo3 xo4` (each is read before it is covered) — the body runs to the
    continuation holding the inputs' as they were and each output's buffer with its pieces written. -/
noncomputable def kernelRun0_B (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i)
    (x0 : Vec F S4096x512 .bf16) (x1 : Vec F S1x4096 .i32) (xo2 : Vec F S512x1 .f32) (xo3 : Vec F S512x1 .f32) (xo4 : Vec F S512x1 .f32) :
    Σ' (L2 : List (View.Piece (Elt F) S512x1 .f32)) (L3 : List (View.Piece (Elt F) S512x1 .f32)), { L4 : List (View.Piece (Elt F) S512x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3 ∗ owns (c : Thread nD τ) arg6 fullShare xo4
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0_kernel i arg2 harg2 arg3 harg3 arg4 harg4 arg5 harg5 arg6 harg6) K } := by
  refine ⟨?_, ?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.Kernel.Hand

end
-- ==== Proof.KFrame.lean ====
import proofs.«101721_j13683765805398_2_alg».proof.Proof.KRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the outputs -/

/-- Case A's pieces for output 2 tile its block, so they cover it. -/
theorem cover0_A_2 (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i)
    (x0 : Vec F S4096x512 .bf16) (x1 : Vec F S1x4096 .i32) (y : S512x1.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S512x1.size (by sl_kernel_rfl) y

/-- What case A leaves in output 2's staging buffer: its pieces read back over junk. -/
def out0_A_2 (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i)
    (x0 : Vec F S4096x512 .bf16) (x1 : Vec F S1x4096 .i32) : Vec F S512x1 .f32 :=
  VO0_2.read (Elt F) (VO0_2.writes (Elt F) VO0_2.junk (kernelRun0_A c i arg2 harg2 arg3 harg3 arg4 harg4 arg5 harg5 arg6 harg6 hc0 x0 x1).1)

/-- Case A's pieces for output 3 tile its block, so they cover it. -/
theorem cover0_A_3 (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i)
    (x0 : Vec F S4096x512 .bf16) (x1 : Vec F S1x4096 .i32) (y : S512x1.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S512x1.size (by sl_kernel_rfl) y

/-- What case A leaves in output 3's staging buffer: its pieces read back over junk. -/
def out0_A_3 (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i)
    (x0 : Vec F S4096x512 .bf16) (x1 : Vec F S1x4096 .i32) : Vec F S512x1 .f32 :=
  VO0_3.read (Elt F) (VO0_3.writes (Elt F) VO0_3.junk (kernelRun0_A c i arg2 harg2 arg3 harg3 arg4 harg4 arg5 harg5 arg6 harg6 hc0 x0 x1).2.1)

/-- Case A's pieces for output 4 tile its block, so they cover it. -/
theorem cover0_A_4 (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i)
    (x0 : Vec F S4096x512 .bf16) (x1 : Vec F S1x4096 .i32) (y : S512x1.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S512x1.size (by sl_kernel_rfl) y

/-- What case A leaves in output 4's staging buffer: its pieces read back over junk. -/
def out0_A_4 (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i)
    (x0 : Vec F S4096x512 .bf16) (x1 : Vec F S1x4096 .i32) : Vec F S512x1 .f32 :=
  VO0_4.read (Elt F) (VO0_4.writes (Elt F) VO0_4.junk (kernelRun0_A c i arg2 harg2 arg3 harg3 arg4 harg4 arg5 harg5 arg6 harg6 hc0 x0 x1).2.2.1)

/-- Case B's pieces for output 2 tile its block, so they cover it. -/
theorem cover0_B_2 (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i)
    (x0 : Vec F S4096x512 .bf16) (x1 : Vec F S1x4096 .i32) (xo2 : Vec F S512x1 .f32) (xo3 : Vec F S512x1 .f32) (xo4 : Vec F S512x1 .f32) (y : S512x1.Idx) :
    ∃ pc ∈ (kernelRun0_B c i arg2 harg2 arg3 harg3 arg4 harg4 arg5 harg5 arg6 harg6 hc0 x0 x1 xo2 xo3 xo4).1, y ∈ pc.1.set :=
  View.cover_of_tiledL (kernelRun0_B c i arg2 harg2 arg3 harg3 arg4 harg4 arg5 harg5 arg6 harg6 hc0 x0 x1 xo2 xo3 xo4).1 S512x1.size (by sl_kernel_rfl) y

/-- What case B leaves in output 2's staging buffer: its pieces read back over junk. -/
def out0_B_2 (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i)
    (x0 : Vec F S4096x512 .bf16) (x1 : Vec F S1x4096 .i32) (xo2 : Vec F S512x1 .f32) (xo3 : Vec F S512x1 .f32) (xo4 : Vec F S512x1 .f32) : Vec F S512x1 .f32 :=
  VO0_2.read (Elt F) (VO0_2.writes (Elt F) VO0_2.junk (kernelRun0_B c i arg2 harg2 arg3 harg3 arg4 harg4 arg5 harg5 arg6 harg6 hc0 x0 x1 xo2 xo3 xo4).1)

/-- Case B's pieces for output 3 tile its block, so they cover it. -/
theorem cover0_B_3 (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i)
    (x0 : Vec F S4096x512 .bf16) (x1 : Vec F S1x4096 .i32) (xo2 : Vec F S512x1 .f32) (xo3 : Vec F S512x1 .f32) (xo4 : Vec F S512x1 .f32) (y : S512x1.Idx) :
    ∃ pc ∈ (kernelRun0_B c i arg2 harg2 arg3 harg3 arg4 harg4 arg5 harg5 arg6 harg6 hc0 x0 x1 xo2 xo3 xo4).2.1, y ∈ pc.1.set :=
  View.cover_of_tiledL (kernelRun0_B c i arg2 harg2 arg3 harg3 arg4 harg4 arg5 harg5 arg6 harg6 hc0 x0 x1 xo2 xo3 xo4).2.1 S512x1.size (by sl_kernel_rfl) y

/-- What case B leaves in output 3's staging buffer: its pieces read back over junk. -/
def out0_B_3 (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i)
    (x0 : Vec F S4096x512 .bf16) (x1 : Vec F S1x4096 .i32) (xo2 : Vec F S512x1 .f32) (xo3 : Vec F S512x1 .f32) (xo4 : Vec F S512x1 .f32) : Vec F S512x1 .f32 :=
  VO0_3.read (Elt F) (VO0_3.writes (Elt F) VO0_3.junk (kernelRun0_B c i arg2 harg2 arg3 harg3 arg4 harg4 arg5 harg5 arg6 harg6 hc0 x0 x1 xo2 xo3 xo4).2.1)

/-- Case B's pieces for output 4 tile its block, so they cover it. -/
theorem cover0_B_4 (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i)
    (x0 : Vec F S4096x512 .bf16) (x1 : Vec F S1x4096 .i32) (xo2 : Vec F S512x1 .f32) (xo3 : Vec F S512x1 .f32) (xo4 : Vec F S512x1 .f32) (y : S512x1.Idx) :
    ∃ pc ∈ (kernelRun0_B c i arg2 harg2 arg3 harg3 arg4 harg4 arg5 harg5 arg6 harg6 hc0 x0 x1 xo2 xo3 xo4).2.2.1, y ∈ pc.1.set :=
  View.cover_of_tiledL (kernelRun0_B c i arg2 harg2 arg3 harg3 arg4 harg4 arg5 harg5 arg6 harg6 hc0 x0 x1 xo2 xo3 xo4).2.2.1 S512x1.size (by sl_kernel_rfl) y

/-- What case B leaves in output 4's staging buffer: its pieces read back over junk. -/
def out0_B_4 (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i)
    (x0 : Vec F S4096x512 .bf16) (x1 : Vec F S1x4096 .i32) (xo2 : Vec F S512x1 .f32) (xo3 : Vec F S512x1 .f32) (xo4 : Vec F S512x1 .f32) : Vec F S512x1 .f32 :=
  VO0_4.read (Elt F) (VO0_4.writes (Elt F) VO0_4.junk (kernelRun0_B c i arg2 harg2 arg3 harg3 arg4 harg4 arg5 harg5 arg6 harg6 hc0 x0 x1 xo2 xo3 xo4).2.2.1)

/-! ## What the outputs hold after each point -/

/-- THE ACCUMULATION. What the three outputs' staging buffers hold after the body at position `n`: at an even
    position (inner coordinate zero) the block's sums started afresh; at an odd one the sums of this column tile added to
    what the position before left (the buffers are not written back between). -/
def outsAt0 (c : Dev nD) : (n : ℕ) → n < cfg0.N → Vec F S512x1 .f32 × Vec F S512x1 .f32 × Vec F S512x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩),
       out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩),
       out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩))
  | n + 1, hn =>
    if h0 : (n + 1) % 2 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2)

/-- `outsAt0` at an even point: the sums started afresh. -/
theorem outsAt0_A (c : Dev nD) (t : Fin cfg0.N) (h0 : t.val % 2 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
       out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
       out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)) := by
  obtain ⟨n, hn⟩ := t
  cases n with
  | zero => exact rfl
  | succ n => exact (dif_pos h0).trans rfl

/-- `outsAt0` at an odd point: this tile's sums over what the point before left. -/
theorem outsAt0_B (c : Dev nD) (t : Fin cfg0.N) (h0 : ¬t.val % 2 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
       out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
       out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point
    `t` each input's buffer at its block and the outputs' at `outsAt0`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At an odd point output 2's current staging buffer holds what the body left at the point before: the point is not
    the first, and the buffer was not written back between (write-backs happen after odd points only). -/
theorem before0_2_B (c : Dev nD) (t : Fin cfg0.N) (h0 : ¬t.val % 2 = 0) (d) :
    (dats m 0 c).before 2 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]
/-- At an odd point output 3's current staging buffer holds what the body left at the point before: the point is not
    the first, and the buffer was not written back between (write-backs happen after odd points only). -/
theorem before0_3_B (c : Dev nD) (t : Fin cfg0.N) (h0 : ¬t.val % 2 = 0) (d) :
    (dats m 0 c).before 3 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]
/-- At an odd point output 4's current staging buffer holds what the body left at the point before: the point is not
    the first, and the buffer was not written back between (write-backs happen after odd points only). -/
theorem before0_4_B (c : Dev nD) (t : Fin cfg0.N) (h0 : ¬t.val % 2 = 0) (d) :
    (dats m 0 c).before 4 t d = (outsAt0 m c (t.val - 1) (Nat.lt_of_le_of_lt (Nat.sub_le _ _) t.isLt)).2.2 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' memrefs hold their blocks; the parity of the point says which case it is in; at
    an odd point each output holds what the point before left; so the run applies; the invariant passes through unread;
    the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 16 := lt_of_lt_of_eq t.isLt (show cfg0.N = 16 from N_0)
  by_cases h0 : t.val % 2 = 0
  · rw [outsAt0_A m c t h0]
    unfold out0_A_2 out0_A_3 out0_A_4; (try dsimp only)
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 (F := F) c _ _ _ _ _ _ _ _ _ _ _ _ _ _)
    isplitl [H3]
    · unfold owns; iexists _; isplitr
      swap; · iexact H3
      ipureintro; exact View.read_writes_of_cover _ _ _ _ _ (cover0_A_3 (F := F) c _ _ _ _ _ _ _ _ _ _ _ _ _ _)
    unfold owns; iexists _; isplitr
    swap; · iexact H4
    ipureintro; exact View.read_writes_of_cover _ _ _ _ _ (cover0_A_4 (F := F) c _ _ _ _ _ _ _ _ _ _ _ _ _ _)
  · rw [outsAt0_B m c t h0]
    simp only [before0_2_B m c t h0, before0_3_B m c t h0, before0_4_B m c t h0]
    unfold out0_B_2 out0_B_3 out0_B_4; (try dsimp only)
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) _ _ _).2.2.2 Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 (F := F) c _ _ _ _ _ _ _ _ _ _ _ _ _ _ _ _ _)
    isplitl [H3]
    · unfold owns; iexists _; isplitr
      swap; · iexact H3
      ipureintro; exact View.read_writes_of_cover _ _ _ _ _ (cover0_B_3 (F := F) c _ _ _ _ _ _ _ _ _ _ _ _ _ _ _ _ _)
    unfold owns; iexists _; isplitr
    swap; · iexact H4
    ipureintro; exact View.read_writes_of_cover _ _ _ _ _ (cover0_B_4 (F := F) c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  simp only [Dat.leavesExact, liveAt0]
  exact sound_body m c t

/-! ## The run and the frame -/

set_option backward.isDefEq.respectTransparency.types false in
/-- At the compiled mesh, for any values, from any memory with zero counters: every weakly fair execution of @main on
    the TensorCores terminates, and every final state has every array of the pipeline at what the library computes from
    the proof data and every other unscoped buffer as the host stretches after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME: the program runs and its three argument arrays end unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Hand

end
-- ==== Proof.KIKit.lean ====
import proofs.«101721_j13683765805398_2_alg».proof.Proof.Gen.KernelIdeal.Launch
import proofs.«101721_j13683765805398_2_alg».proof.Proof.Gen.KernelIdeal.Skeleton
import proofs.«101721_j13683765805398_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations that follow the region, in order. -/
abbrev tailOps : List (List (HloOp τ sig (Elt F))) :=
  [hostOps1, hostOps1_1, hostOps1_2, hostOps1_3, hostOps1_4, hostOps1_5, hostOps1_6, hostOps1_7, hostOps1_8]

/-- Core `c`'s TensorCore buffer contents when the region is entered, as a valuation: after the host operations
    before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- The references whose contents the host operations must leave alone: the three arguments (never written at all)
    and the five arrays the region's windows stage (written by no operation after the region). -/
abbrev kept : List (Ref sig .tc) := [main_arg0, main_arg1, main_arg2, main_v8, main_v9, main_v10_0, main_v10_1, main_v10_2]

/-- No operation before the region writes an argument: each writes only its own result. -/
theorem hostOps0_keeps : (hostOps0 : List (HloOp τ sig (Elt F))).Forall fun op =>
    ∀ r ∈ ([main_arg0, main_arg1, main_arg2] : List (Ref sig .tc)), Proc.devRef (τ := τ) .tc r ∉ op.writes := by
  simp only [List.Forall, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  refine ⟨?_, ?_, ?_, ?_, ?_, ?_, ?_, ?_, ?_, ?_, ?_, ?_⟩ <;> refine ⟨?_, ?_, ?_⟩ <;> exact StableHlo.devRef_ne_of_ne (by decide)
/-- No operation of this stretch writes an argument or an array of the region: each writes only its own result. -/
theorem hostOps1_keeps : (hostOps1 : List (HloOp τ sig (Elt F))).Forall fun op =>
    ∀ r ∈ (kept : List (Ref sig .tc)), Proc.devRef (τ := τ) .tc r ∉ op.writes := by
  simp only [List.Forall, kept, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  refine ⟨?_, ?_, ?_, ?_, ?_, ?_, ?_, ?_, ?_, ?_, ?_, ?_, ?_, ?_, ?_, ?_, ?_, ?_, ?_, ?_, ?_⟩ <;> refine ⟨?_, ?_, ?_, ?_, ?_, ?_, ?_, ?_⟩ <;> exact StableHlo.devRef_ne_of_ne (by decide)
/-- No operation of this stretch writes an argument or an array of the region: each writes only its own result. -/
theorem hostOps1_1_keeps : (hostOps1_1 : List (HloOp τ sig (Elt F))).Forall fun op =>
    ∀ r ∈ (kept : List (Ref sig .tc)), Proc.devRef (τ := τ) .tc r ∉ op.writes := by
  simp only [List.Forall, kept, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  refine ⟨?_, ?_, ?_⟩ <;> refine ⟨?_, ?_, ?_, ?_, ?_, ?_, ?_, ?_⟩ <;> exact StableHlo.devRef_ne_of_ne (by decide)
/-- No operation of this stretch writes an argument or an array of the region: each writes only its own result. -/
theorem hostOps1_2_keeps : (hostOps1_2 : List (HloOp τ sig (Elt F))).Forall fun op =>
    ∀ r ∈ (kept : List (Ref sig .tc)), Proc.devRef (τ := τ) .tc r ∉ op.writes := by
  simp only [List.Forall, kept, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  refine ⟨?_, ?_, ?_, ?_, ?_, ?_, ?_⟩ <;> refine ⟨?_, ?_, ?_, ?_, ?_, ?_, ?_, ?_⟩ <;> exact StableHlo.devRef_ne_of_ne (by decide)
/-- No operation of this stretch writes an argument or an array of the region: each writes only its own result. -/
theorem hostOps1_3_keeps : (hostOps1_3 : List (HloOp τ sig (Elt F))).Forall fun op =>
    ∀ r ∈ (kept : List (Ref sig .tc)), Proc.devRef (τ := τ) .tc r ∉ op.writes := by
  simp only [List.Forall, kept, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  refine ⟨?_, ?_, ?_, ?_, ?_, ?_, ?_, ?_⟩ <;> exact StableHlo.devRef_ne_of_ne (by decide)
/-- No operation of this stretch writes an argument or an array of the region: each writes only its own result. -/
theorem hostOps1_4_keeps : (hostOps1_4 : List (HloOp τ sig (Elt F))).Forall fun op =>
    ∀ r ∈ (kept : List (Ref sig .tc)), Proc.devRef (τ := τ) .tc r ∉ op.writes := by
  simp only [List.Forall, kept, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> refine ⟨?_, ?_, ?_, ?_, ?_, ?_, ?_, ?_⟩ <;> exact StableHlo.devRef_ne_of_ne (by decide)
/-- No operation of this stretch writes an argument or an array of the region: each writes only its own result. -/
theorem hostOps1_5_keeps : (hostOps1_5 : List (HloOp τ sig (Elt F))).Forall fun op =>
    ∀ r ∈ (kept : List (Ref sig .tc)), Proc.devRef (τ := τ) .tc r ∉ op.writes := by
  simp only [List.Forall, kept, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  refine ⟨?_, ?_, ?_, ?_⟩ <;> refine ⟨?_, ?_, ?_, ?_, ?_, ?_, ?_, ?_⟩ <;> exact StableHlo.devRef_ne_of_ne (by decide)
/-- No operation of this stretch writes an argument or an array of the region: each writes only its own result. -/
theorem hostOps1_6_keeps : (hostOps1_6 : List (HloOp τ sig (Elt F))).Forall fun op =>
    ∀ r ∈ (kept : List (Ref sig .tc)), Proc.devRef (τ := τ) .tc r ∉ op.writes := by
  simp only [List.Forall, kept, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  refine ⟨?_, ?_, ?_, ?_⟩ <;> refine ⟨?_, ?_, ?_, ?_, ?_, ?_, ?_, ?_⟩ <;> exact StableHlo.devRef_ne_of_ne (by decide)
/-- No operation of this stretch writes an argument or an array of the region: each writes only its own result. -/
theorem hostOps1_7_keeps : (hostOps1_7 : List (HloOp τ sig (Elt F))).Forall fun op =>
    ∀ r ∈ (kept : List (Ref sig .tc)), Proc.devRef (τ := τ) .tc r ∉ op.writes := by
  simp only [List.Forall, kept, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  refine ⟨?_, ?_, ?_, ?_⟩ <;> refine ⟨?_, ?_, ?_, ?_, ?_, ?_, ?_, ?_⟩ <;> exact StableHlo.devRef_ne_of_ne (by decide)
/-- No operation of this stretch writes an argument or an array of the region: each writes only its own result. -/
theorem hostOps1_8_keeps : (hostOps1_8 : List (HloOp τ sig (Elt F))).Forall fun op =>
    ∀ r ∈ (kept : List (Ref sig .tc)), Proc.devRef (τ := τ) .tc r ∉ op.writes := by
  simp only [List.Forall, kept, List.forall_mem_cons, List.not_mem_nil, false_imp_iff, implies_true, and_true, StableHlo.nullary_writes, StableHlo.unary_writes, StableHlo.binary_writes, StableHlo.ternary_writes, StableHlo.quaternary_writes, StableHlo.reshape_writes, StableHlo.binaryIndexed_writes, Finset.mem_singleton]
  refine ⟨?_, ?_, ?_, ?_, ?_, ?_, ?_, ?_, ?_, ?_, ?_, ?_, ?_, ?_, ?_, ?_⟩ <;> refine ⟨?_, ?_, ?_, ?_, ?_, ?_, ?_, ?_⟩ <;> exact StableHlo.devRef_ne_of_ne (by decide)

/-- Every array a window stages is one of the five kept ones. -/
theorem arr_mem_kept (w : Fin 5) : Pipeline.arrRef spec0 w ∈ (kept : List (Ref sig .tc)) := by
  fin_cases w <;> decide

/-- @main around the region: the host operations before it, the region, the host stretches after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (show List.Forall _ [hostOps0] from hostOps0_sub)
    (show List.Forall _ [hostOps0] from hostOps0_fresh) main_chain

/-- The stretches after the region touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
/-- No operation after the region writes a kept reference. -/
theorem sfx_keeps_ref : ∀ ops ∈ (tailOps : List (List (HloOp τ sig (Elt F)))), ∀ op ∈ ops,
    ∀ r ∈ (kept : List (Ref sig .tc)), Proc.devRef (τ := τ) .tc r ∉ op.writes := by
  intro ops hops op hop
  simp only [tailOps, List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
/-- And so they write no array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop w => sfx_keeps_ref ops hops op hop _ (arr_mem_kept w)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- After the whole of @main a kept reference that is no array of the region holds its launch contents: no
    operation before or after the region writes it, and the region's write-backs go to its arrays only. -/
theorem afterTail_arg (dats : (p : Fin 1) → (c : Dev nD) → Dat τ (Elt F) Unit ℕ (UR sig nD τ) ℕ (cfgs p) c)
    (c : Dev nD) (b : Ref sig .tc) (hb : b ∈ ([main_arg0, main_arg1, main_arg2] : List (Ref sig .tc)))
    (hk : b ∈ (kept : List (Ref sig .tc))) (harr : ∀ w, Pipeline.arrRef spec0 w ≠ b) :
    Pipeline.afterTail₀ cfgs dats 0 (V0 m) tailOps c b = m ((c.tc : Thread nD τ).loc b) := by
  unfold Pipeline.afterTail₀
  rw [StableHlo.after_of_forall_not_mem _ _ fun op hop => by
        obtain ⟨ops, hops, hop'⟩ := List.mem_flatten.mp hop
        exact sfx_keeps_ref ops hops op hop' b hk,
    Pipeline.withArrays_of_ne _ c _ _ b harr]
  show StableHlo.after (List.flatten [hostOps0]) (fun b => m (c, b)) (Proc.devRef .tc b) = _
  rw [StableHlo.after_of_forall_not_mem _ _ fun op hop => by
        simp only [List.flatten_cons, List.flatten_nil, List.append_nil] at hop
        exact (List.forall_iff_forall_mem.mp hostOps0_keeps) op hop b hb]

/-- THE FRAME from a frame run: each argument is an array no window stages, read by the post's second clause at
    the contents after the last host stretch, which are its launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans
        (afterTail_arg m dats c main_arg0 (by decide) (by decide) (by decide)),
      ((h c).2 main_arg1 (Pipeline.mem_restRefs_of main_arg1 (by decide) (by decide))).trans
        (afterTail_arg m dats c main_arg1 (by decide) (by decide) (by decide)),
      ((h c).2 main_arg2 (Pipeline.mem_restRefs_of main_arg2 (by decide) (by decide))).trans
        (afterTail_arg m dats c main_arg2 (by decide) (by decide) (by decide))⟩) h

/-! ## The body's branch condition -/

/-- The condition of the body's `scf.if`: the inner grid coordinate is zero. -/
abbrev cond0_0 (i : grid0.Coords) : Prop := (Scalar.cmpi .ne (Scalar.extui (Scalar.cmpi .eq (BitVec.ofNat 32 (i 1).val) 0#32)) 0#32) = 1#1
/-- It holds at the even points (the inner axis has two steps) — decided over the grid. -/
theorem hcond0_0 : ∀ t : Fin cfg0.N, cond0_0 (grid0.coords t) ↔ t.val % 2 = 0 :=
  (by decide +kernel : ∀ t : Fin grid0.N, cond0_0 (grid0.coords t) ↔ t.val % 2 = 0)

/-- No window is ever idle: each is read or stored at every point. -/
theorem liveAt0 : ∀ (w : Fin cfg0.W) (t : Fin cfg0.N), cfg0.idle w (grid0.coords t) = false := by decide +kernel

/-! ## The kernel body on any staging memrefs -/

/-- One staging buffer of each output window, through which its contents are stated. -/
abbrev VO0_2 : View sig .tc .vmem S512x1 .f32 := (Memref.whole cc0_stg2_0 : Memref sig .tc .vmem S512x1 .f32).view
abbrev VO0_3 : View sig .tc .vmem S512x1 .f32 := (Memref.whole cc0_stg3_0 : Memref sig .tc .vmem S512x1 .f32).view
abbrev VO0_4 : View sig .tc .vmem S512x1 .f32 := (Memref.whole cc0_stg4_0 : Memref sig .tc .vmem S512x1 .f32).view
/-- Each window's current staging memref at point `t`, spelled as the pipeline passes it, and its wholeness. -/
abbrev ms0_0 (t : Fin cfg0.N) : Memref sig .tc .vmem S4096x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)

end Cert.KernelIdeal.Hand

end
-- ==== Proof.KIRunA.lean ====
import proofs.«101721_j13683765805398_2_alg».proof.Proof.KIKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging memref, as pieces (last first), at a point whose inner
    coordinate is zero (the `scf.if` taken): on whole staging memrefs — the two inputs' at their contents, the three
    outputs' at anything (each is zeroed before it is read back) — the body runs to the continuation holding the
    inputs' as they were and each output's buffer with its pieces written. -/
noncomputable def kernelRun0_A (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i)
    (x0 : Vec F S4096x512 .bf16) (x1 : Vec F S1x4096 .i32) :
    Σ' (L2 : List (View.Piece (Elt F) S512x1 .f32)) (L3 : List (View.Piece (Elt F) S512x1 .f32)), { L4 : List (View.Piece (Elt F) S512x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0_kernel i arg2 harg2 arg3 harg3 arg4 harg4 arg5 harg5 arg6 harg6) K } := by
  refine ⟨?_, ?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.KernelIdeal.Hand

end
-- ==== Proof.KIRunB.lean ====
import proofs.«101721_j13683765805398_2_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging memref, as pieces (last first), at a point whose inner
    coordinate is not zero (the `scf.if` not taken): on whole staging memrefs — the two inputs' at their contents, the
    three outputs' at their running contents `xo2 xo3 xo4` (each is read before it is covered) — the body runs to the
    continuation holding the inputs' as they were and each output's buffer with its pieces written. -/
noncomputable def kernelRun0_B (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i)
    (x0 : Vec F S4096x512 .bf16) (x1 : Vec F S1x4096 .i32) (xo2 : Vec F S512x1 .f32) (xo3 : Vec F S512x1 .f32) (xo4 : Vec F S512x1 .f32) :
    Σ' (L2 : List (View.Piece (Elt F) S512x1 .f32)) (L3 : List (View.Piece (Elt F) S512x1 .f32)), { L4 : List (View.Piece (Elt F) S512x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3 ∗ owns (c : Thread nD τ) arg6 fullShare xo4
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0_kernel i arg2 harg2 arg3 harg3 arg4 harg4 arg5 harg5 arg6 harg6) K } := by
  refine ⟨?_, ?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.KernelIdeal.Hand

end
-- ==== Proof.KIFrame.lean ====
import proofs.«101721_j13683765805398_2_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each case leaves in the outputs -/

/-- Case A's pieces for output 2 tile its block, so they cover it. -/
theorem cover0_A_2 (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i)
    (x0 : Vec F S4096x512 .bf16) (x1 : Vec F S1x4096 .i32) (y : S512x1.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S512x1.size (by sl_kernel_rfl) y

/-- What case A leaves in output 2's staging buffer: its pieces read back over junk. -/
def out0_A_2 (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i)
    (x0 : Vec F S4096x512 .bf16) (x1 : Vec F S1x4096 .i32) : Vec F S512x1 .f32 :=
  VO0_2.read (Elt F) (VO0_2.writes (Elt F) VO0_2.junk (kernelRun0_A c i arg2 harg2 arg3 harg3 arg4 harg4 arg5 harg5 arg6 harg6 hc0 x0 x1).1)

/-- Case A's pieces for output 3 tile its block, so they cover it. -/
theorem cover0_A_3 (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i)
    (x0 : Vec F S4096x512 .bf16) (x1 : Vec F S1x4096 .i32) (y : S512x1.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S512x1.size (by sl_kernel_rfl) y

/-- What case A leaves in output 3's staging buffer: its pieces read back over junk. -/
def out0_A_3 (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i)
    (x0 : Vec F S4096x512 .bf16) (x1 : Vec F S1x4096 .i32) : Vec F S512x1 .f32 :=
  VO0_3.read (Elt F) (VO0_3.writes (Elt F) VO0_3.junk (kernelRun0_A c i arg2 harg2 arg3 harg3 arg4 harg4 arg5 harg5 arg6 harg6 hc0 x0 x1).2.1)

/-- Case A's pieces for output 4 tile its block, so they cover it. -/
theorem cover0_A_4 (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i)
    (x0 : Vec F S4096x512 .bf16) (x1 : Vec F S1x4096 .i32) (y : S512x1.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S512x1.size (by sl_kernel_rfl) y

/-- What case A leaves in output 4's staging buffer: its pieces read back over junk. -/
def out0_A_4 (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i)
    (x0 : Vec F S4096x512 .bf16) (x1 : Vec F S1x4096 .i32) : Vec F S512x1 .f32 :=
  VO0_4.read (Elt F) (VO0_4.writes (Elt F) VO0_4.junk (kernelRun0_A c i arg2 harg2 arg3 harg3 arg4 harg4 arg5 harg5 arg6 harg6 hc0 x0 x1).2.2.1)

/-- Case B's pieces for output 2 tile its block, so they cover it. -/
theorem cover0_B_2 (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i)
    (x0 : Vec F S4096x512 .bf16) (x1 : Vec F S1x4096 .i32) (xo2 : Vec F S512x1 .f32) (xo3 : Vec F S512x1 .f32) (xo4 : Vec F S512x1 .f32) (y : S512x1.Idx) :
    ∃ pc ∈ (kernelRun0_B c i arg2 harg2 arg3 harg3 arg4 harg4 arg5 harg5 arg6 harg6 hc0 x0 x1 xo2 xo3 xo4).1, y ∈ pc.1.set :=
  View.cover_of_tiledL (kernelRun0_B c i arg2 harg2 arg3 harg3 arg4 harg4 arg5 harg5 arg6 harg6 hc0 x0 x1 xo2 xo3 xo4).1 S512x1.size (by sl_kernel_rfl) y

/-- What case B leaves in output 2's staging buffer: its pieces read back over junk. -/
def out0_B_2 (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i)
    (x0 : Vec F S4096x512 .bf16) (x1 : Vec F S1x4096 .i32) (xo2 : Vec F S512x1 .f32) (xo3 : Vec F S512x1 .f32) (xo4 : Vec F S512x1 .f32) : Vec F S512x1 .f32 :=
  VO0_2.read (Elt F) (VO0_2.writes (Elt F) VO0_2.junk (kernelRun0_B c i arg2 harg2 arg3 harg3 arg4 harg4 arg5 harg5 arg6 harg6 hc0 x0 x1 xo2 xo3 xo4).1)

/-- Case B's pieces for output 3 tile its block, so they cover it. -/
theorem cover0_B_3 (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i)
    (x0 : Vec F S4096x512 .bf16) (x1 : Vec F S1x4096 .i32) (xo2 : Vec F S512x1 .f32) (xo3 : Vec F S512x1 .f32) (xo4 : Vec F S512x1 .f32) (y : S512x1.Idx) :
    ∃ pc ∈ (kernelRun0_B c i arg2 harg2 arg3 harg3 arg4 harg4 arg5 harg5 arg6 harg6 hc0 x0 x1 xo2 xo3 xo4).2.1, y ∈ pc.1.set :=
  View.cover_of_tiledL (kernelRun0_B c i arg2 harg2 arg3 harg3 arg4 harg4 arg5 harg5 arg6 harg6 hc0 x0 x1 xo2 xo3 xo4).2.1 S512x1.size (by sl_kernel_rfl) y

/-- What case B leaves in output 3's staging buffer: its pieces read back over junk. -/
def out0_B_3 (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i)
    (x0 : Vec F S4096x512 .bf16) (x1 : Vec F S1x4096 .i32) (xo2 : Vec F S512x1 .f32) (xo3 : Vec F S512x1 .f32) (xo4 : Vec F S512x1 .f32) : Vec F S512x1 .f32 :=
  VO0_3.read (Elt F) (VO0_3.writes (Elt F) VO0_3.junk (kernelRun0_B c i arg2 harg2 arg3 harg3 arg4 harg4 arg5 harg5 arg6 harg6 hc0 x0 x1 xo2 xo3 xo4).2.1)

/-- Case B's pieces for output 4 tile its block, so they cover it. -/
theorem cover0_B_4 (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i)
    (x0 : Vec F S4096x512 .bf16) (x1 : Vec F S1x4096 .i32) (xo2 : Vec F S512x1 .f32) (xo3 : Vec F S512x1 .f32) (xo4 : Vec F S512x1 .f32) (y : S512x1.Idx) :
    ∃ pc ∈ (kernelRun0_B c i arg2 harg2 arg3 harg3 arg4 harg4 arg5 harg5 arg6 harg6 hc0 x0 x1 xo2 xo3 xo4).2.2.1, y ∈ pc.1.set :=
  View.cover_of_tiledL (kernelRun0_B c i arg2 harg2 arg3 harg3 arg4 harg4 arg5 harg5 arg6 harg6 hc0 x0 x1 xo2 xo3 xo4).2.2.1 S512x1.size (by sl_kernel_rfl) y

/-- What case B leaves in output 4's staging buffer: its pieces read back over junk. -/
def out0_B_4 (c : Dev nD) (i : grid0.Coords) (arg2 : Memref sig .tc .vmem S4096x512 .bf16) (harg2 : arg2.IsWhole) (arg3 : Memref sig .tc .vmem S1x4096 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i)
    (x0 : Vec F S4096x512 .bf16) (x1 : Vec F S1x4096 .i32) (xo2 : Vec F S512x1 .f32) (xo3 : Vec F S512x1 .f32) (xo4 : Vec F S512x1 .f32) : Vec F S512x1 .f32 :=
  VO0_4.read (Elt F) (VO0_4.writes (Elt F) VO0_4.junk (kernelRun0_B c i arg2 harg2 arg3 harg3 arg4 harg4 arg5 harg5 arg6 harg6 hc0 x0 x1 xo2 xo3 xo4).2.2.1)

/-! ## What the outputs hold after each point -/

/-- THE ACCUMULATION. What the three outputs' staging buffers hold after the body at position `n`: at an even
    position (inner coordinate zero) the block's sums started afresh; at an odd one the sums of this column tile added to
    what the position before left (the buffers are not written back between). -/
def outsAt0 (c : Dev nD) : (n : ℕ) → n < cfg0.N → Vec F S512x1 .f32 × Vec F S512x1 .f32 × Vec F S512x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩),
       out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩),
       out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩))
  | n + 1, hn =>
    if h0 : (n + 1) % 2 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2)

/-- `outsAt0` at an even point: the sums started afresh. -/
theorem outsAt0_A (c : Dev nD) (t : Fin cfg0.N) (h0 : t.val % 2 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
       out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
       out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)) := by
  obtain ⟨n, hn⟩ := t
  cases n with
  | zero => exact rfl
  | succ n => exact (dif_pos h0).trans rfl

/-- `outsAt0` at an odd point: this tile's sums over what the point before left. -/
theorem outsAt0_B (c : Dev nD) (t : Fin cfg0.N) (h0 : ¬t.val % 2 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
       out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
       out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point
    `t` each input's buffer at its block and the outputs' at `outsAt0`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At an odd point output 2's current staging buffer holds what the body left at the point before: the point is not
    the first, and the buffer was not written back between (write-backs happen after odd points only). -/
theorem before0_2_B (c : Dev nD) (t : Fin cfg0.N) (h0 : ¬t.val % 2 = 0) (d) :
    (dats m 0 c).before 2 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]
/-- At an odd point output 3's current staging buffer holds what the body left at the point before: the point is not
    the first, and the buffer was not written back between (write-backs happen after odd points only). -/
theorem before0_3_B (c : Dev nD) (t : Fin cfg0.N) (h0 : ¬t.val % 2 = 0) (d) :
    (dats m 0 c).before 3 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]
/-- At an odd point output 4's current staging buffer holds what the body left at the point before: the point is not
    the first, and the buffer was not written back between (write-backs happen after odd points only). -/
theorem before0_4_B (c : Dev nD) (t : Fin cfg0.N) (h0 : ¬t.val % 2 = 0) (d) :
    (dats m 0 c).before 4 t d = (outsAt0 m c (t.val - 1) (Nat.lt_of_le_of_lt (Nat.sub_le _ _) t.isLt)).2.2 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' memrefs hold their blocks; the parity of the point says which case it is in; at
    an odd point each output holds what the point before left; so the run applies; the invariant passes through unread;
    the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 16 := lt_of_lt_of_eq t.isLt (show cfg0.N = 16 from N_0)
  by_cases h0 : t.val % 2 = 0
  · rw [outsAt0_A m c t h0]
    unfold out0_A_2 out0_A_3 out0_A_4; (try dsimp only)
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 (F := F) c _ _ _ _ _ _ _ _ _ _ _ _ _ _)
    isplitl [H3]
    · unfold owns; iexists _; isplitr
      swap; · iexact H3
      ipureintro; exact View.read_writes_of_cover _ _ _ _ _ (cover0_A_3 (F := F) c _ _ _ _ _ _ _ _ _ _ _ _ _ _)
    unfold owns; iexists _; isplitr
    swap; · iexact H4
    ipureintro; exact View.read_writes_of_cover _ _ _ _ _ (cover0_A_4 (F := F) c _ _ _ _ _ _ _ _ _ _ _ _ _ _)
  · rw [outsAt0_B m c t h0]
    simp only [before0_2_B m c t h0, before0_3_B m c t h0, before0_4_B m c t h0]
    unfold out0_B_2 out0_B_3 out0_B_4; (try dsimp only)
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) _ _ _).2.2.2 Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 (F := F) c _ _ _ _ _ _ _ _ _ _ _ _ _ _ _ _ _)
    isplitl [H3]
    · unfold owns; iexists _; isplitr
      swap; · iexact H3
      ipureintro; exact View.read_writes_of_cover _ _ _ _ _ (cover0_B_3 (F := F) c _ _ _ _ _ _ _ _ _ _ _ _ _ _ _ _ _)
    unfold owns; iexists _; isplitr
    swap; · iexact H4
    ipureintro; exact View.read_writes_of_cover _ _ _ _ _ (cover0_B_4 (F := F) c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  simp only [Dat.leavesExact, liveAt0]
  exact sound_body m c t

/-! ## The run and the frame -/

set_option backward.isDefEq.respectTransparency.types false in
/-- At the compiled mesh, for any values, from any memory with zero counters: every weakly fair execution of @main on
    the TensorCores terminates, and every final state has every array of the pipeline at what the library computes from
    the proof data and every other unscoped buffer as the host stretches after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME: the program runs and its three argument arrays end unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Hand

end
-- ==== Proof.KCase.lean ====
/-
  What one grid point leaves in the three output blocks, as values: at the first column tile zero plus the tile's
  sums, at the second what the block held plus the tile's sums — each block's one covering store read back, its
  loads reading the resident table and labels at the tile's rows.
-/
import proofs.«101721_j13683765805398_2_alg».proof.Proof.KIFrame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen Cert.KernelIdeal.Hand

variable {F : FTy → Type} [FloatOps F] [Named F]

theorem hz : (![0, 0] : Fin 2 → Nat) = fun _ => 0 := funext fun a => by fin_cases a <;> rfl

/-- The four tiles the body loads at grid point `i`: rows 512·i₀ … of the table and of the labels (the row tile), rows
    2048·i₁ … (the column tile). -/
def rowT (i : grid0.Coords) (x0 : Vec F S4096x512 .bf16) : Vec F S512x512 .bf16 :=
  View.ld x0 (Rect.unit (s := S4096x512) (k0_off1 i) S512x512.size (k0_off1_inb i))
def colT (i : grid0.Coords) (x0 : Vec F S4096x512 .bf16) : Vec F S2048x512 .bf16 :=
  View.ld x0 (Rect.unit (s := S4096x512) (k0_off2 i) S2048x512.size (k0_off2_inb i))
def rowL (i : grid0.Coords) (x1 : Vec F S1x4096 .i32) : Vec F S1x512 .i32 :=
  View.ld x1 (Rect.unit (s := S1x4096) (k0_off3 i) S1x512.size (k0_off3_inb i))
def colL (i : grid0.Coords) (x1 : Vec F S1x4096 .i32) : Vec F S1x2048 .i32 :=
  View.ld x1 (Rect.unit (s := S1x4096) (k0_off4 i) S1x2048.size (k0_off4_inb i))

/-- The tile's three column sums at grid point `i`. -/
def posT (i : grid0.Coords) (x0 : Vec F S4096x512 .bf16) (x1 : Vec F S1x4096 .i32) : Vec F S512x1 .f32 :=
  k0_pay9 i (rowT i x0) (colT i x0) (rowL i x1) (colL i x1)
def totT (i : grid0.Coords) (x0 : Vec F S4096x512 .bf16) : Vec F S512x1 .f32 :=
  k0_pay10 (rowT i x0) (colT i x0)
def cntT (i : grid0.Coords) (x1 : Vec F S1x4096 .i32) : Vec F S512x1 .f32 :=
  k0_pay11 i (rowL i x1) (colL i x1)

/-- The zero block the first column tile's point stores before it accumulates. -/
abbrev zero : Vec F S512x1 .f32 := broadcast S512x1 (Scalar.ofBits .f32 0x00000000#32)

/-- At a point of the second column tile output 2's buffer, holding `xo2`, is left at `xo2` plus the tile's sum. -/
theorem out_B_2 (c : Dev nD) (i : grid0.Coords) (a2 : Memref sig .tc .vmem S4096x512 .bf16) (h2 : a2.IsWhole) (a3 : Memref sig .tc .vmem S1x4096 .i32) (h3 : a3.IsWhole)
    (a4 : Memref sig .tc .vmem S512x1 .f32) (h4 : a4.IsWhole) (a5 : Memref sig .tc .vmem S512x1 .f32) (h5 : a5.IsWhole) (a6 : Memref sig .tc .vmem S512x1 .f32) (h6 : a6.IsWhole)
    (hc : ¬cond0_0 i) (x0 : Vec F S4096x512 .bf16) (x1 : Vec F S1x4096 .i32) (xo2 xo3 xo4 : Vec F S512x1 .f32) :
    out0_B_2 c i a2 h2 a3 h3 a4 h4 a5 h5 a6 h6 hc x0 x1 xo2 xo3 xo4 = addf xo2 (posT i x0 x1) := by
  unfold out0_B_2
  rw [View.read_writes_eq_canon _ _ _ (cover0_B_2 c i a2 h2 a3 h3 a4 h4 a5 h5 a6 h6 hc x0 x1 xo2 xo3 xo4)]
  unfold kernelRun0_B
  dsimp only
  sl_unfold_run_names
  rw [View.canon_unit_zero hz]
  unfold k0_pay4
  simp only [View.readAt_eq_ld, h2.read_unread, h3.read_unread, h4.read_unread, h5.read_unread, h6.read_unread, View.ld_unit_zero (S := S512x1) hz, shapeCast_self]
  rfl

/-- At a point of the second column tile output 3's buffer, holding `xo3`, is left at `xo3` plus the tile's sum. -/
theorem out_B_3 (c : Dev nD) (i : grid0.Coords) (a2 : Memref sig .tc .vmem S4096x512 .bf16) (h2 : a2.IsWhole) (a3 : Memref sig .tc .vmem S1x4096 .i32) (h3 : a3.IsWhole)
    (a4 : Memref sig .tc .vmem S512x1 .f32) (h4 : a4.IsWhole) (a5 : Memref sig .tc .vmem S512x1 .f32) (h5 : a5.IsWhole) (a6 : Memref sig .tc .vmem S512x1 .f32) (h6 : a6.IsWhole)
    (hc : ¬cond0_0 i) (x0 : Vec F S4096x512 .bf16) (x1 : Vec F S1x4096 .i32) (xo2 xo3 xo4 : Vec F S512x1 .f32) :
    out0_B_3 c i a2 h2 a3 h3 a4 h4 a5 h5 a6 h6 hc x0 x1 xo2 xo3 xo4 = addf xo3 (totT i x0) := by
  unfold out0_B_3
  rw [View.read_writes_eq_canon _ _ _ (cover0_B_3 c i a2 h2 a3 h3 a4 h4 a5 h5 a6 h6 hc x0 x1 xo2 xo3 xo4)]
  unfold kernelRun0_B
  dsimp only
  sl_unfold_run_names
  rw [View.canon_unit_zero hz]
  unfold k0_pay5
  simp only [View.readAt_eq_ld, h2.read_unread, h3.read_unread, h4.read_unread, h5.read_unread, h6.read_unread, View.ld_unit_zero (S := S512x1) hz, shapeCast_self]
  rfl

/-- At a point of the second column tile output 4's buffer, holding `xo4`, is left at `xo4` plus the tile's sum. -/
theorem out_B_4 (c : Dev nD) (i : grid0.Coords) (a2 : Memref sig .tc .vmem S4096x512 .bf16) (h2 : a2.IsWhole) (a3 : Memref sig .tc .vmem S1x4096 .i32) (h3 : a3.IsWhole)
    (a4 : Memref sig .tc .vmem S512x1 .f32) (h4 : a4.IsWhole) (a5 : Memref sig .tc .vmem S512x1 .f32) (h5 : a5.IsWhole) (a6 : Memref sig .tc .vmem S512x1 .f32) (h6 : a6.IsWhole)
    (hc : ¬cond0_0 i) (x0 : Vec F S4096x512 .bf16) (x1 : Vec F S1x4096 .i32) (xo2 xo3 xo4 : Vec F S512x1 .f32) :
    out0_B_4 c i a2 h2 a3 h3 a4 h4 a5 h5 a6 h6 hc x0 x1 xo2 xo3 xo4 = addf xo4 (cntT i x1) := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_run_names
  rw [View.canon_unit_zero hz]
  unfold k0_pay6
  simp only [View.readAt_eq_ld, h2.read_unread, h3.read_unread, h4.read_unread, h5.read_unread, h6.read_unread, View.ld_unit_zero (S := S512x1) hz, shapeCast_self]
  rfl

/-- At a point of the first column tile output 2's buffer is zeroed, read back, and left at zero plus the tile's sum. -/
theorem out_A_2 (c : Dev nD) (i : grid0.Coords) (a2 : Memref sig .tc .vmem S4096x512 .bf16) (h2 : a2.IsWhole) (a3 : Memref sig .tc .vmem S1x4096 .i32) (h3 : a3.IsWhole)
    (a4 : Memref sig .tc .vmem S512x1 .f32) (h4 : a4.IsWhole) (a5 : Memref sig .tc .vmem S512x1 .f32) (h5 : a5.IsWhole) (a6 : Memref sig .tc .vmem S512x1 .f32) (h6 : a6.IsWhole)
    (hc : cond0_0 i) (x0 : Vec F S4096x512 .bf16) (x1 : Vec F S1x4096 .i32) :
    out0_A_2 c i a2 h2 a3 h3 a4 h4 a5 h5 a6 h6 hc x0 x1 = addf zero (posT i x0 x1) := by
  unfold out0_A_2
  rw [View.read_writes_eq_canon _ _ _ (cover0_A_2 c i a2 h2 a3 h3 a4 h4 a5 h5 a6 h6 hc x0 x1)]
  unfold kernelRun0_A
  dsimp only
  sl_unfold_run_names
  rw [View.canon_cons_unit_zero (S := S512x1) hz, View.readCov_unit_zero (S := S512x1) _ hz]
  unfold k0_pay4 k0_pay1
  simp only [View.readAt_eq_ld, h2.read_unread, h3.read_unread, View.ld_unit_zero (S := S512x1) hz, shapeCast_self]
  rfl

/-- At a point of the first column tile output 3's buffer is zeroed, read back, and left at zero plus the tile's sum. -/
theorem out_A_3 (c : Dev nD) (i : grid0.Coords) (a2 : Memref sig .tc .vmem S4096x512 .bf16) (h2 : a2.IsWhole) (a3 : Memref sig .tc .vmem S1x4096 .i32) (h3 : a3.IsWhole)
    (a4 : Memref sig .tc .vmem S512x1 .f32) (h4 : a4.IsWhole) (a5 : Memref sig .tc .vmem S512x1 .f32) (h5 : a5.IsWhole) (a6 : Memref sig .tc .vmem S512x1 .f32) (h6 : a6.IsWhole)
    (hc : cond0_0 i) (x0 : Vec F S4096x512 .bf16) (x1 : Vec F S1x4096 .i32) :
    out0_A_3 c i a2 h2 a3 h3 a4 h4 a5 h5 a6 h6 hc x0 x1 = addf zero (totT i x0) := by
  unfold out0_A_3
  rw [View.read_writes_eq_canon _ _ _ (cover0_A_3 c i a2 h2 a3 h3 a4 h4 a5 h5 a6 h6 hc x0 x1)]
  unfold kernelRun0_A
  dsimp only
  sl_unfold_run_names
  rw [View.canon_cons_unit_zero (S := S512x1) hz, View.readCov_unit_zero (S := S512x1) _ hz]
  unfold k0_pay5 k0_pay2
  simp only [View.readAt_eq_ld, h2.read_unread, h3.read_unread, View.ld_unit_zero (S := S512x1) hz, shapeCast_self]
  rfl

/-- At a point of the first column tile output 4's buffer is zeroed, read back, and left at zero plus the tile's sum. -/
theorem out_A_4 (c : Dev nD) (i : grid0.Coords) (a2 : Memref sig .tc .vmem S4096x512 .bf16) (h2 : a2.IsWhole) (a3 : Memref sig .tc .vmem S1x4096 .i32) (h3 : a3.IsWhole)
    (a4 : Memref sig .tc .vmem S512x1 .f32) (h4 : a4.IsWhole) (a5 : Memref sig .tc .vmem S512x1 .f32) (h5 : a5.IsWhole) (a6 : Memref sig .tc .vmem S512x1 .f32) (h6 : a6.IsWhole)
    (hc : cond0_0 i) (x0 : Vec F S4096x512 .bf16) (x1 : Vec F S1x4096 .i32) :
    out0_A_4 c i a2 h2 a3 h3 a4 h4 a5 h5 a6 h6 hc x0 x1 = addf zero (cntT i x1) := by
  unfold out0_A_4
  rw [View.read_writes_eq_canon _ _ _ (cover0_A_4 c i a2 h2 a3 h3 a4 h4 a5 h5 a6 h6 hc x0 x1)]
  unfold kernelRun0_A
  dsimp only
  sl_unfold_run_names
  rw [View.canon_cons_unit_zero (S := S512x1) hz, View.readCov_unit_zero (S := S512x1) _ hz]
  unfold k0_pay6 k0_pay3
  simp only [View.readAt_eq_ld, h2.read_unread, h3.read_unread, View.ld_unit_zero (S := S512x1) hz, shapeCast_self]
  rfl

end Cert.KernelIdeal.KVal

end
-- ==== Proof.KAcc.lean ====
/-
  The three output blocks after a row tile's two grid points. The grid runs the two column tiles of a row tile one after
  the other (points 2·g and 2·g + 1); the blocks are written back after the second. What they hold then is
  (0 + the first tile's sums) + the second tile's sums.
-/
import proofs.«101721_j13683765805398_2_alg».proof.Proof.KCase

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen Cert.KernelIdeal.Hand

variable {F : FTy → Type} [FloatOps F] [Named F]
variable (m : (ℓ : Loc nD τ sig) → Buf (Elt F) ℓ)

/-- The point before `t`. -/
abbrev prev (t : Fin cfg0.N) : Fin cfg0.N := ⟨t.val - 1, Nat.lt_of_le_of_lt (Nat.sub_le _ _) t.isLt⟩

/-- After an odd point (a row tile's second column tile) the three blocks hold zero plus the first tile's sums plus the
    second tile's sums. -/
theorem outs_odd (c : Dev nD) (t : Fin cfg0.N) (h1 : t.val % 2 = 1) :
    outsAt0 m c t.val t.isLt =
      (addf (addf zero (posT (grid0.coords (prev t)) (iblk m c 0 (prev t)) (iblk m c 1 (prev t)))) (posT (grid0.coords t) (iblk m c 0 t) (iblk m c 1 t)),
       addf (addf zero (totT (grid0.coords (prev t)) (iblk m c 0 (prev t)))) (totT (grid0.coords t) (iblk m c 0 t)),
       addf (addf zero (cntT (grid0.coords (prev t)) (iblk m c 1 (prev t)))) (cntT (grid0.coords t) (iblk m c 1 t))) := by
  have hB : ¬t.val % 2 = 0 := by omega
  have hA : (prev t).val % 2 = 0 := by show (t.val - 1) % 2 = 0; omega
  have eA := outsAt0_A m c (prev t) hA
  rw [out_A_2, out_A_3, out_A_4] at eA
  rw [outsAt0_B m c t hB, out_B_2, out_B_3, out_B_4]
  have eA' : outsAt0 m c (t.val - 1) (Nat.lt_of_le_of_lt (Nat.sub_le _ _) t.isLt) = _ := eA
  rw [eA']

end Cert.KernelIdeal.KVal

end
-- ==== Proof.Spec.lean ====
/-
  The three row sums the contrastive stage produces, as functions of the normalised embedding table
  `E` (4096 rows of 512 entries, extended reals) and the label vector `L` (4096 words):
  for a row `r`, with `s r k = (∑ d, E r d · E k d) · invT` the scaled cosine similarity of rows `r` and `k`,
    pos r = ∑ k, [L r = L k ∧ r ≠ k] · exp (s r k)     (the positives of row r: same label, another row)
    tot r = ∑ k, exp (s r k)
    cnt r = ∑ k, [L r = L k ∧ r ≠ k]
  `invT` is the reciprocal of the temperature the reference divides by: the reference's divisor is the
  binary fraction 9395241 / 2^27, so its reciprocal is 134217728 / 9395241 exactly.
-/
import Idealize.ShloMosaic.PureOps.Ideal
import Idealize.ShloMosaic.Lib.ValueIdx

noncomputable section

namespace Cert.Spec

open Idealize.ShloMosaic Idealize.ShloMosaic.ValueIdx
open scoped BigOperators

/-- The table's shape and a row vector's shape. -/
abbrev ST : Shape := ⟨2, ![4096, 512]⟩
abbrev SV : Shape := ⟨1, ![4096]⟩

/-- The reciprocal of the temperature, exactly. -/
def invT : EReal := ((134217728 / 9395241 : ℝ) : EReal)

/-- The inner product of rows `r` and `k` of the table. -/
def dot (E : ST.Idx → EReal) (r k : Fin 4096) : EReal := ∑ d : Fin 512, E (ix2 r d) * E (ix2 k d)

/-- The exponential of the scaled similarity of rows `r` and `k`. -/
def ex (E : ST.Idx → EReal) (r k : Fin 4096) : EReal := Ideal.exp (dot E r k * invT)

/-- The sum over the positives of row `r`. -/
def pos (E : ST.Idx → EReal) (L : SV.Idx → BitVec 32) (r : Fin 4096) : EReal :=
  ∑ k : Fin 4096, if L (ix1 r) = L (ix1 k) ∧ r ≠ k then ex E r k else 0

/-- The sum over every row. -/
def tot (E : ST.Idx → EReal) (r : Fin 4096) : EReal := ∑ k : Fin 4096, ex E r k

/-- The number of positives of row `r`. -/
def cnt (L : SV.Idx → BitVec 32) (r : Fin 4096) : EReal :=
  ∑ k : Fin 4096, if L (ix1 r) = L (ix1 k) ∧ r ≠ k then (1 : EReal) else 0

end Cert.Spec

end
-- ==== Proof.KPay.lean ====
/-
  What one grid point's tile contributes to the three row sums, read at an element, at the extended reals.
  At grid point (gi, gj) the body loads a row tile `R` (512 rows of the table), a column tile `C` (2048 rows of
  the table), the row tile's labels `lr` and the column tile's labels `lc`, and forms for every row `a` of the
  tile the three sums over the 2048 columns `b`:
    Σ_b [lr a = lc b ∧ 512·gi + a ≠ 2048·gj + b] · exp ((Σ_d R a d · C b d) · invT),
    Σ_b exp ((Σ_d R a d · C b d) · invT),   Σ_b [lr a = lc b ∧ 512·gi + a ≠ 2048·gj + b].
  The matrix product contracts the table's 512 columns; the transposed column tile is read back at the
  swapped index; the scale is the named reciprocal temperature.
-/
import proofs.«101721_j13683765805398_2_alg».proof.Proof.Gen.KernelIdeal.Skeleton
import proofs.«101721_j13683765805398_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.KVal

open Cert.KernelIdeal Cert.KernelIdeal.Gen Idealize.ShloMosaic Idealize.ShloMosaic.ValueIdx
open scoped BigOperators

/-- The named scale is the reciprocal temperature. -/
theorem inv_temp_eq : Named.named (F := Ideal) Cert.KernelIdeal.κ "inv_temp" (φ := .f32) 0x41649249#32 = Cert.Spec.invT :=
  IdealRules.named_const.ideal_named_scalar _ _ _ _ rfl

local notation "DD" => dot_S512x512_S512x2048_S512x2048_1_0_0_1_n_n

theorem lhs0 (i : S512x2048.Idx) (q : (dot_S512x512_S512x2048_S512x2048_1_0_0_1_n_n).contr.Idx) :
    ((dot_S512x512_S512x2048_S512x2048_1_0_0_1_n_n).lhsIdx i q 0).val = (i 0).val := by
  unfold DotDims.lhsIdx
  rw [dif_neg (show ¬(0 : Fin S512x512.rank) ∈ (dot_S512x512_S512x2048_S512x2048_1_0_0_1_n_n).lhsBatch by decide), dif_pos (show (0 : Fin S512x512.rank) ∈ (dot_S512x512_S512x2048_S512x2048_1_0_0_1_n_n).lhsNonContracting by decide)]
  rfl
theorem lhs1 (i : S512x2048.Idx) (q : (dot_S512x512_S512x2048_S512x2048_1_0_0_1_n_n).contr.Idx) :
    ((dot_S512x512_S512x2048_S512x2048_1_0_0_1_n_n).lhsIdx i q 1).val = (q ⟨0, by decide⟩).val :=
  (dot_S512x512_S512x2048_S512x2048_1_0_0_1_n_n).lhsIdx_val_of_single rfl i q
theorem rhs0 (i : S512x2048.Idx) (q : (dot_S512x512_S512x2048_S512x2048_1_0_0_1_n_n).contr.Idx) :
    ((dot_S512x512_S512x2048_S512x2048_1_0_0_1_n_n).rhsIdx i q 0).val = (q ⟨0, by decide⟩).val :=
  (dot_S512x512_S512x2048_S512x2048_1_0_0_1_n_n).rhsIdx_val_of_single rfl i q
theorem rhs1 (i : S512x2048.Idx) (q : (dot_S512x512_S512x2048_S512x2048_1_0_0_1_n_n).contr.Idx) :
    ((dot_S512x512_S512x2048_S512x2048_1_0_0_1_n_n).rhsIdx i q 1).val = (i 1).val := by
  unfold DotDims.rhsIdx
  rw [dif_neg (show ¬(1 : Fin S512x2048.rank) ∈ (dot_S512x512_S512x2048_S512x2048_1_0_0_1_n_n).rhsBatch by decide), dif_pos (show (1 : Fin S512x2048.rank) ∈ (dot_S512x512_S512x2048_S512x2048_1_0_0_1_n_n).rhsNonContracting by decide)]
  rfl

/-- The tile's matrix product at (a, b): the inner product of row `a` of the row tile with row `b` of the column tile. -/
theorem prod_apply (R : FVec Ideal S512x512 .bf16) (Ct : FVec Ideal S512x2048 .bf16) (a : Fin 512) (b : Fin 2048) :
    matmul (F := Ideal) dot_S512x512_S512x2048_S512x2048_1_0_0_1_n_n none R Ct (constant S512x2048 .f32 0x00000000#32) (ix2 a b)
      = ∑ d : Fin 512, R (ix2 a d) * Ct (ix2 d b) := by
  simp only [matmul]
  rw [Ideal.matmul_constant_zero_apply, ← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : (dot_S512x512_S512x2048_S512x2048_1_0_0_1_n_n).lhsIdx (ix2 a b) ((contrEquiv1 dot_S512x512_S512x2048_S512x2048_1_0_0_1_n_n 512 rfl rfl).symm k) = ix2 a k := funext fun c => Fin.ext (by
    match c with
    | ⟨0, _⟩ => exact lhs0 _ _
    | ⟨1, _⟩ => exact (lhs1 _ _).trans hk)
  have er : (dot_S512x512_S512x2048_S512x2048_1_0_0_1_n_n).rhsIdx (ix2 a b) ((contrEquiv1 dot_S512x512_S512x2048_S512x2048_1_0_0_1_n_n 512 rfl rfl).symm k) = ix2 k b := funext fun c => Fin.ext (by
    match c with
    | ⟨0, _⟩ => exact (rhs0 _ _).trans hk
    | ⟨1, _⟩ => exact rhs1 _ _)
  rw [el, er]

/-- The exponential of the scaled similarity of row `a` of the row tile and row `b` of the column tile. -/
theorem pay8_apply (R : Vec Ideal S512x512 .bf16) (C : Vec Ideal S2048x512 .bf16) (a : Fin 512) (b : Fin 2048) :
    k0_pay8 (F := Ideal) R C (ix2 a b) = Ideal.exp ((∑ d : Fin 512, R (ix2 a d) * C (ix2 b d)) * Cert.Spec.invT) := by
  unfold k0_pay8
  show Ideal.exp (matmul (F := Ideal) dot_S512x512_S512x2048_S512x2048_1_0_0_1_n_n none (shapeCast S512x512 R shapeCasts_S512x512_S512x512)
      (transpose S512x2048 [1, 0] (shapeCast S2048x512 C shapeCasts_S2048x512_S2048x512) transposes_S2048x512_p1_0_S512x2048)
      (constant S512x2048 .f32 0x00000000#32) (ix2 a b) * Named.named (F := Ideal) κ "inv_temp" (φ := .f32) 0x41649249#32) = _
  rw [prod_apply, inv_temp_eq, shapeCast_self, shapeCast_self]
  refine congrArg (fun z => Ideal.exp (z * Cert.Spec.invT)) (Finset.sum_congr rfl fun d _ => ?_)
  rw [transpose_ix2_apply]

/-! ## The mask -/

/-- Two words built from small naturals are equal exactly when the naturals are. -/
theorem ofNat32_inj {x y : Nat} (hx : x < 4294967296) (hy : y < 4294967296) :
    BitVec.ofNat 32 x = BitVec.ofNat 32 y ↔ x = y := by
  constructor
  · intro h
    have := congrArg BitVec.toNat h
    simp only [BitVec.toNat_ofNat] at this
    rw [Nat.mod_eq_of_lt (by simpa using hx), Nat.mod_eq_of_lt (by simpa using hy)] at this
    exact this
  · intro h; rw [h]

/-- The global row number of row `a` of row tile `gi`, as the word the body forms. -/
theorem row_word (gi : Nat) (hgi : gi < 8) (a : Fin 512) :
    IntOp.addi (Scalar.muli (BitVec.ofNat 32 gi) 512#32) (BitVec.ofNat 32 a.val) = BitVec.ofNat 32 (512 * gi + a.val) := by
  show BitVec.ofNat 32 gi * 512#32 + BitVec.ofNat 32 a.val = _
  apply BitVec.eq_of_toNat_eq
  have ha := a.isLt
  simp only [BitVec.toNat_add, BitVec.toNat_mul, BitVec.toNat_ofNat]
  omega

/-- The global row number of row `b` of column tile `gj`, as the word the body forms. -/
theorem col_word (gj : Nat) (hgj : gj < 2) (b : Fin 2048) :
    IntOp.addi (Scalar.muli (BitVec.ofNat 32 gj) 2048#32) (BitVec.ofNat 32 b.val) = BitVec.ofNat 32 (2048 * gj + b.val) := by
  show BitVec.ofNat 32 gj * 2048#32 + BitVec.ofNat 32 b.val = _
  apply BitVec.eq_of_toNat_eq
  have hb := b.isLt
  simp only [BitVec.toNat_add, BitVec.toNat_mul, BitVec.toNat_ofNat]
  omega

/-- A word comparison for equality is the one-bit truth value of the equality. -/
theorem cmpi_eq_word (x y : BitVec 32) : IntOp.cmpi .eq x y = if x = y then 1#1 else 0#1 := by
  unfold IntOp.cmpi
  by_cases h : x = y
  · rw [if_pos h]; subst h; simp
  · rw [if_neg h, beq_eq_false_iff_ne.mpr h]; rfl

/-- A word comparison for inequality is the one-bit truth value of the inequality. -/
theorem cmpi_ne_word (x y : BitVec 32) : IntOp.cmpi .ne x y = if x ≠ y then 1#1 else 0#1 := by
  unfold IntOp.cmpi
  by_cases h : x = y
  · rw [if_neg (not_not.mpr h)]; subst h; simp
  · rw [if_pos h, bne_iff_ne.mpr h]; rfl

/-- The mask at (a, b): the two rows carry one label and are different rows of the table. -/
theorem pay7_apply (i : grid0.Coords) (lr : Vec Ideal S1x512 .i32) (lc : Vec Ideal S1x2048 .i32) (a : Fin 512) (b : Fin 2048) :
    k0_pay7 (F := Ideal) i lr lc (ix2 a b)
      = if lr (ix2 (0 : Fin 1) a) = lc (ix2 (0 : Fin 1) b) ∧ 512 * (i 0).val + a.val ≠ 2048 * (i 1).val + b.val then 1#1 else 0#1 := by
  have hgi : (i 0).val < 8 := (i 0).isLt
  have hgj : (i 1).val < 2 := (i 1).isLt
  unfold k0_pay7
  show IntOp.andi (IntOp.cmpi .eq
        (broadcastTo S512x2048 (transpose S512x1 [1, 0] (shapeCast S1x512 lr shapeCasts_S1x512_S1x512) transposes_S1x512_p1_0_S512x1) broadcasts_S512x1_S512x2048 (ix2 a b))
        (broadcastTo S512x2048 (shapeCast S1x2048 lc shapeCasts_S1x2048_S1x2048) broadcasts_S1x2048_S512x2048 (ix2 a b)))
      (IntOp.cmpi .ne
        (broadcastTo S512x2048 (addi (broadcast S512x1 (Scalar.muli (BitVec.ofNat 32 (i 0).val) 512#32)) (iota .tc S512x1 32 [0] iota_S512x1_d0_w32)) broadcasts_S512x1_S512x2048 (ix2 a b))
        (broadcastTo S512x2048 (addi (broadcast S1x2048 (Scalar.muli (BitVec.ofNat 32 (i 1).val) 2048#32)) (iota .tc S1x2048 32 [1] iota_S1x2048_d1_w32)) broadcasts_S1x2048_S512x2048 (ix2 a b))) = _
  rw [shapeCast_self, shapeCast_self]
  rw [broadcastTo_apply _ broadcasts_S512x1_S512x2048 (ix2 a b) (ix2 a (0 : Fin 1)) (fun c => by match c with | ⟨0, _⟩ => rfl | ⟨1, _⟩ => rfl)]
  rw [broadcastTo_apply _ broadcasts_S1x2048_S512x2048 (ix2 a b) (ix2 (0 : Fin 1) b) (fun c => by match c with | ⟨0, _⟩ => rfl | ⟨1, _⟩ => rfl)]
  rw [broadcastTo_apply _ broadcasts_S512x1_S512x2048 (ix2 a b) (ix2 a (0 : Fin 1)) (fun c => by match c with | ⟨0, _⟩ => rfl | ⟨1, _⟩ => rfl)]
  rw [broadcastTo_apply _ broadcasts_S1x2048_S512x2048 (ix2 a b) (ix2 (0 : Fin 1) b) (fun c => by match c with | ⟨0, _⟩ => rfl | ⟨1, _⟩ => rfl)]
  rw [transpose_ix2_apply]
  show IntOp.andi (IntOp.cmpi .eq (lr (ix2 0 a)) (lc (ix2 0 b)))
      (IntOp.cmpi .ne (IntOp.addi (Scalar.muli (BitVec.ofNat 32 (i 0).val) 512#32) (iota .tc S512x1 32 [0] iota_S512x1_d0_w32 (ix2 a 0)))
        (IntOp.addi (Scalar.muli (BitVec.ofNat 32 (i 1).val) 2048#32) (iota .tc S1x2048 32 [1] iota_S1x2048_d1_w32 (ix2 0 b)))) = _
  rw [iota_single_apply, iota_single_apply]
  show IntOp.andi (IntOp.cmpi .eq (lr (ix2 0 a)) (lc (ix2 0 b)))
      (IntOp.cmpi .ne (IntOp.addi (Scalar.muli (BitVec.ofNat 32 (i 0).val) 512#32) (BitVec.ofNat 32 a.val))
        (IntOp.addi (Scalar.muli (BitVec.ofNat 32 (i 1).val) 2048#32) (BitVec.ofNat 32 b.val))) = _
  rw [row_word _ hgi, col_word _ hgj]
  have hne : (BitVec.ofNat 32 (512 * (i 0).val + a.val) ≠ BitVec.ofNat 32 (2048 * (i 1).val + b.val)) ↔ 512 * (i 0).val + a.val ≠ 2048 * (i 1).val + b.val :=
    not_congr (ofNat32_inj (by have := a.isLt; omega) (by have := b.isLt; omega))
  rw [cmpi_eq_word, cmpi_ne_word, if_congr hne rfl rfl]
  by_cases hp : lr (ix2 0 a) = lc (ix2 0 b)
  · by_cases hr : 512 * (i 0).val + a.val ≠ 2048 * (i 1).val + b.val
    · rw [if_pos hp, if_pos hr, if_pos ⟨hp, hr⟩]; rfl
    · rw [if_pos hp, if_neg hr, if_neg (show ¬(lr (ix2 0 a) = lc (ix2 0 b) ∧ 512 * (i 0).val + a.val ≠ 2048 * (i 1).val + b.val) from fun h => hr h.2)]; rfl
  · rw [if_neg hp, if_neg (show ¬(lr (ix2 0 a) = lc (ix2 0 b) ∧ 512 * (i 0).val + a.val ≠ 2048 * (i 1).val + b.val) from fun h => hp h.1)]
    by_cases hr : 512 * (i 0).val + a.val ≠ 2048 * (i 1).val + b.val
    · rw [if_pos hr]; rfl
    · rw [if_neg hr]; rfl

/-! ## The three sums over the tile's columns -/

/-- A column vector cast from a row-indexed vector reads, at (a, 0), the vector at a. -/
theorem col_cast_apply (x : FVec Ideal S512 .f32) (a : Fin 512) :
    shapeCast S512x1 x shapeCasts_S512_S512x1 (ix2 a (0 : Fin 1)) = x (ix1 a) :=
  shapeCast_apply x shapeCasts_S512_S512x1 _ _ (by
    rw [Shape.rowMajor_val_two, Shape.rowMajor_val_one]
    show a.val = a.val * 1 + 0
    omega)

/-- The lane sum of a tile, kept as a column: at (a, 0) the sum of row a over the 2048 columns. -/
theorem rowsum_apply (src : FVec Ideal S512x2048 .f32) (hacc : (0x00000000#32 : BitVec 32) = 0x00000000#32) (a : Fin 512) :
    shapeCast S512x1 (multiReduction .add [1] S512 src 0x00000000#32 reduces_S512x2048_S512 (.inl rfl) hacc) shapeCasts_S512_S512x1 (ix2 a (0 : Fin 1))
      = ∑ b : Fin 2048, src (ix2 a b) := by
  rw [col_cast_apply]
  refine (Ideal.multiReduction_add_single src 0x00000000#32 reduces_S512x2048_S512 (.inl rfl) hacc (ix1 a)).trans ?_
  refine Finset.sum_congr rfl fun k _ => congrArg src ?_
  funext c
  match c with
  | ⟨0, _⟩ => rfl
  | ⟨1, _⟩ => rfl

/-- The tile's sum over the positives of row a. -/
theorem pay9_apply (i : grid0.Coords) (R : Vec Ideal S512x512 .bf16) (C : Vec Ideal S2048x512 .bf16) (lr : Vec Ideal S1x512 .i32) (lc : Vec Ideal S1x2048 .i32) (a : Fin 512) :
    k0_pay9 (F := Ideal) i R C lr lc (ix2 a (0 : Fin 1))
      = ∑ b : Fin 2048, if lr (ix2 (0 : Fin 1) a) = lc (ix2 (0 : Fin 1) b) ∧ 512 * (i 0).val + a.val ≠ 2048 * (i 1).val + b.val
          then Ideal.exp ((∑ d : Fin 512, R (ix2 a d) * C (ix2 b d)) * Cert.Spec.invT) else 0 := by
  unfold k0_pay9
  refine (rowsum_apply _ rfl a).trans (Finset.sum_congr rfl fun b _ => ?_)
  show Scalar.select (k0_pay7 (F := Ideal) i lr lc (ix2 a b)) (k0_pay8 (F := Ideal) R C (ix2 a b)) (Ideal.ofBits .f32 0x00000000#32) = _
  rw [pay7_apply, pay8_apply, Ideal.ofBits_zero_f32]
  split_ifs with h
  · exact select_one _ _
  · exact select_zero _ _

/-- The tile's sum over every column of row a. -/
theorem pay10_apply (R : Vec Ideal S512x512 .bf16) (C : Vec Ideal S2048x512 .bf16) (a : Fin 512) :
    k0_pay10 (F := Ideal) R C (ix2 a (0 : Fin 1))
      = ∑ b : Fin 2048, Ideal.exp ((∑ d : Fin 512, R (ix2 a d) * C (ix2 b d)) * Cert.Spec.invT) := by
  unfold k0_pay10
  refine (rowsum_apply _ rfl a).trans (Finset.sum_congr rfl fun b _ => ?_)
  exact pay8_apply R C a b

/-- The tile's number of positives of row a. -/
theorem pay11_apply (i : grid0.Coords) (lr : Vec Ideal S1x512 .i32) (lc : Vec Ideal S1x2048 .i32) (a : Fin 512) :
    k0_pay11 (F := Ideal) i lr lc (ix2 a (0 : Fin 1))
      = ∑ b : Fin 2048, if lr (ix2 (0 : Fin 1) a) = lc (ix2 (0 : Fin 1) b) ∧ 512 * (i 0).val + a.val ≠ 2048 * (i 1).val + b.val
          then (1 : EReal) else 0 := by
  unfold k0_pay11
  refine (rowsum_apply _ rfl a).trans (Finset.sum_congr rfl fun b _ => ?_)
  show FloatOps.sitofp (F := Ideal) .f32 ((k0_pay7 (F := Ideal) i lr lc (ix2 a b)).setWidth 32) = _
  rw [pay7_apply]
  split_ifs with h
  · show (((((1#1 : BitVec 1).setWidth 32).toInt : ℝ)) : EReal) = 1
    have e : ((1#1 : BitVec 1).setWidth 32).toInt = 1 := by decide
    rw [e]; norm_num
  · show (((((0#1 : BitVec 1).setWidth 32).toInt : ℝ)) : EReal) = 0
    have e : ((0#1 : BitVec 1).setWidth 32).toInt = 0 := by decide
    rw [e]; norm_num

end Cert.KernelIdeal.KVal

end
-- ==== Proof.KTile.lean ====
/-
  The tiles, read at an element: row `a` of the row tile at grid point `i` is row 512·i₀ + a of the resident table (and of
  the labels), row `b` of the column tile is row 2048·i₁ + b; both input windows' blocks are their whole arrays at every
  point. So the tile sums of a point are sums over 2048 consecutive rows of the table, and a row tile's two points
  together sum over all 4096 rows.
-/
import proofs.«101721_j13683765805398_2_alg».proof.Proof.KAcc
import proofs.«101721_j13683765805398_2_alg».proof.Proof.KPay

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.KVal

open Cert.KernelIdeal Cert.KernelIdeal.Gen Cert.KernelIdeal.Hand

/-- The row tile starts at row 512·i₀. -/
theorem off_row (i : grid0.Coords) : (BitVec.ofNat 32 (i 0).val * 512#32).toNat = 512 * (i 0).val := by
  have h : (i 0).val < 8 := (i 0).isLt
  simp only [BitVec.toNat_mul, BitVec.toNat_ofNat]
  omega
/-- The column tile starts at row 2048·i₁. -/
theorem off_col (i : grid0.Coords) : (BitVec.ofNat 32 (i 1).val * 2048#32).toNat = 2048 * (i 1).val := by
  have h : (i 1).val < 2 := (i 1).isLt
  simp only [BitVec.toNat_mul, BitVec.toNat_ofNat]
  omega

section Tiles
variable {F : FTy → Type} [FloatOps F] [Named F]

theorem rowT_apply (i : grid0.Coords) (X : Vec F S4096x512 .bf16) (a : Fin 512) (d : Fin 512) :
    rowT i X (ix2 a d) = X (ix2 (⟨512 * (i 0).val + a.val, by have := (i 0).isLt; have h : (i 0).val < 8 := this; have := a.isLt; omega⟩ : Fin 4096) d) := by
  unfold rowT
  show X ((Rect.unit (s := S4096x512) (k0_off1 i) S512x512.size (k0_off1_inb i)).emb (ix2 a d)) = _
  refine congrArg X (funext fun ax => Fin.ext ?_)
  match ax with
  | ⟨0, _⟩ => show (BitVec.ofNat 32 (i 0).val * 512#32).toNat + 1 * a.val = 512 * (i 0).val + a.val; rw [off_row]; omega
  | ⟨1, _⟩ => show 0 + 1 * d.val = d.val; omega

theorem colT_apply (i : grid0.Coords) (X : Vec F S4096x512 .bf16) (b : Fin 2048) (d : Fin 512) :
    colT i X (ix2 b d) = X (ix2 (⟨2048 * (i 1).val + b.val, by have h : (i 1).val < 2 := (i 1).isLt; have := b.isLt; omega⟩ : Fin 4096) d) := by
  unfold colT
  show X ((Rect.unit (s := S4096x512) (k0_off2 i) S2048x512.size (k0_off2_inb i)).emb (ix2 b d)) = _
  refine congrArg X (funext fun ax => Fin.ext ?_)
  match ax with
  | ⟨0, _⟩ => show (BitVec.ofNat 32 (i 1).val * 2048#32).toNat + 1 * b.val = 2048 * (i 1).val + b.val; rw [off_col]; omega
  | ⟨1, _⟩ => show 0 + 1 * d.val = d.val; omega

theorem rowL_apply (i : grid0.Coords) (Y : Vec F S1x4096 .i32) (a : Fin 512) :
    rowL i Y (ix2 (0 : Fin 1) a) = Y (ix2 (0 : Fin 1) (⟨512 * (i 0).val + a.val, by have h : (i 0).val < 8 := (i 0).isLt; have := a.isLt; omega⟩ : Fin 4096)) := by
  unfold rowL
  show Y ((Rect.unit (s := S1x4096) (k0_off3 i) S1x512.size (k0_off3_inb i)).emb (ix2 0 a)) = _
  refine congrArg Y (funext fun ax => Fin.ext ?_)
  match ax with
  | ⟨0, _⟩ => show 0 + 1 * 0 = 0; omega
  | ⟨1, _⟩ => show (BitVec.ofNat 32 (i 0).val * 512#32).toNat + 1 * a.val = 512 * (i 0).val + a.val; rw [off_row]; omega

theorem colL_apply (i : grid0.Coords) (Y : Vec F S1x4096 .i32) (b : Fin 2048) :
    colL i Y (ix2 (0 : Fin 1) b) = Y (ix2 (0 : Fin 1) (⟨2048 * (i 1).val + b.val, by have h : (i 1).val < 2 := (i 1).isLt; have := b.isLt; omega⟩ : Fin 4096)) := by
  unfold colL
  show Y ((Rect.unit (s := S1x4096) (k0_off4 i) S1x2048.size (k0_off4_inb i)).emb (ix2 0 b)) = _
  refine congrArg Y (funext fun ax => Fin.ext ?_)
  match ax with
  | ⟨0, _⟩ => show 0 + 1 * 0 = 0; omega
  | ⟨1, _⟩ => show (BitVec.ofNat 32 (i 1).val * 2048#32).toNat + 1 * b.val = 2048 * (i 1).val + b.val; rw [off_col]; omega

end Tiles

end Cert.KernelIdeal.KVal

end
-- ==== Proof.KSum.lean ====
/-
  A row tile's two grid points together: zero, plus the sums over the table's first 2048 rows, plus the sums over its
  last 2048 rows, is the sum over all 4096 rows — the three row sums of the specification at row 512·g + a.
-/
import proofs.«101721_j13683765805398_2_alg».proof.Proof.KTile

set_option maxRecDepth 16384

noncomputable section

open Idealize.ShloMosaic Idealize.ShloMosaic.TcCoe Idealize.SL.Sem Idealize.ShloMosaic.ValueIdx
open scoped BigOperators

namespace Cert.KernelIdeal.KVal

open Cert.KernelIdeal Cert.KernelIdeal.Gen Cert.KernelIdeal.Hand

/-- The label row vector [1, 4096] as a vector over the rows. -/
def Lrow (Lb : Vec Ideal S1x4096 .i32) : Cert.Spec.SV.Idx → BitVec 32 := fun q => Lb (ix2 (0 : Fin 1) (q 0))

/-- A sum over 4096 rows is zero plus the sum over the first 2048 plus the sum over the last 2048. -/
theorem sum_two_tiles (g : Fin 4096 → EReal) :
    (0 + ∑ b : Fin 2048, g ⟨2048 * 0 + b.val, by have := b.isLt; omega⟩) + ∑ b : Fin 2048, g ⟨2048 * 1 + b.val, by have := b.isLt; omega⟩
      = ∑ k : Fin 4096, g k := by
  have h := Fin.sum_univ_add (M := EReal) (a := 2048) (b := 2048) (fun k : Fin (2048 + 2048) => g k)
  rw [zero_add]
  refine Eq.trans ?_ h.symm
  refine congrArg₂ (· + ·) (Finset.sum_congr rfl fun b _ => congrArg g (Fin.ext ?_)) (Finset.sum_congr rfl fun b _ => congrArg g (Fin.ext ?_))
  · show 2048 * 0 + b.val = b.val; omega
  · show 2048 * 1 + b.val = 2048 + b.val; omega

/-- The zero block is zero. -/
theorem zero_apply (y : S512x1.Idx) : (zero (F := Ideal)) y = 0 := Ideal.ofBits_zero_f32

variable (E : Vec Ideal S4096x512 .bf16) (Lb : Vec Ideal S1x4096 .i32)

/-- One point's sum over its positives, as a sum over the column tile's 2048 rows of the table. -/
theorem posT_apply (i : grid0.Coords) (a : Fin 512) (r : Fin 4096) (hr : r.val = 512 * (i 0).val + a.val) :
    posT (F := Ideal) i E Lb (ix2 a (0 : Fin 1))
      = ∑ b : Fin 2048, (fun k : Fin 4096 => if Lrow Lb (ix1 r) = Lrow Lb (ix1 k) ∧ r ≠ k then Cert.Spec.ex (E : Cert.Spec.ST.Idx → EReal) r k else 0)
          ⟨2048 * (i 1).val + b.val, by have h : (i 1).val < 2 := (i 1).isLt; have := b.isLt; omega⟩ := by
  unfold posT
  rw [pay9_apply]
  refine Finset.sum_congr rfl fun b _ => ?_
  obtain ⟨rv, hrv⟩ := r
  simp only at hr
  subst hr
  rw [rowL_apply, colL_apply]
  simp only [rowT_apply, colT_apply]
  refine if_congr (and_congr Iff.rfl ?_) rfl rfl
  simp only [ne_eq, Fin.mk.injEq]

/-- One point's sum over every column, as a sum over the column tile's 2048 rows of the table. -/
theorem totT_apply (i : grid0.Coords) (a : Fin 512) (r : Fin 4096) (hr : r.val = 512 * (i 0).val + a.val) :
    totT (F := Ideal) i E (ix2 a (0 : Fin 1))
      = ∑ b : Fin 2048, (fun k : Fin 4096 => Cert.Spec.ex (E : Cert.Spec.ST.Idx → EReal) r k)
          ⟨2048 * (i 1).val + b.val, by have h : (i 1).val < 2 := (i 1).isLt; have := b.isLt; omega⟩ := by
  unfold totT
  rw [pay10_apply]
  refine Finset.sum_congr rfl fun b _ => ?_
  obtain ⟨rv, hrv⟩ := r
  simp only at hr
  subst hr
  simp only [rowT_apply, colT_apply]
  rfl

/-- One point's number of positives, as a sum over the column tile's 2048 rows. -/
theorem cntT_apply (i : grid0.Coords) (a : Fin 512) (r : Fin 4096) (hr : r.val = 512 * (i 0).val + a.val) :
    cntT (F := Ideal) i Lb (ix2 a (0 : Fin 1))
      = ∑ b : Fin 2048, (fun k : Fin 4096 => if Lrow Lb (ix1 r) = Lrow Lb (ix1 k) ∧ r ≠ k then (1 : EReal) else 0)
          ⟨2048 * (i 1).val + b.val, by have h : (i 1).val < 2 := (i 1).isLt; have := b.isLt; omega⟩ := by
  unfold cntT
  rw [pay11_apply]
  refine Finset.sum_congr rfl fun b _ => ?_
  obtain ⟨rv, hrv⟩ := r
  simp only at hr
  subst hr
  rw [rowL_apply, colL_apply]
  refine if_congr (and_congr Iff.rfl ?_) rfl rfl
  simp only [ne_eq, Fin.mk.injEq]

/-- The two points of row tile `g` (column tiles 0 and 1) leave the specification's sums at row 512·g + a. -/
theorem pos_two (i0 i1 : grid0.Coords) (h00 : (i0 0).val = (i1 0).val) (h01 : (i0 1).val = 0) (h11 : (i1 1).val = 1)
    (a : Fin 512) (r : Fin 4096) (hr : r.val = 512 * (i1 0).val + a.val) :
    (zero (F := Ideal) (ix2 a (0 : Fin 1)) + posT (F := Ideal) i0 E Lb (ix2 a (0 : Fin 1))) + posT (F := Ideal) i1 E Lb (ix2 a (0 : Fin 1))
      = Cert.Spec.pos (E : Cert.Spec.ST.Idx → EReal) (Lrow Lb) r := by
  rw [zero_apply, posT_apply E Lb i0 a r (by rw [h00]; exact hr), posT_apply E Lb i1 a r hr]
  simp only [h01, h11]
  exact sum_two_tiles (fun k : Fin 4096 => if Lrow Lb (ix1 r) = Lrow Lb (ix1 k) ∧ r ≠ k then Cert.Spec.ex (E : Cert.Spec.ST.Idx → EReal) r k else 0)

theorem tot_two (i0 i1 : grid0.Coords) (h00 : (i0 0).val = (i1 0).val) (h01 : (i0 1).val = 0) (h11 : (i1 1).val = 1)
    (a : Fin 512) (r : Fin 4096) (hr : r.val = 512 * (i1 0).val + a.val) :
    (zero (F := Ideal) (ix2 a (0 : Fin 1)) + totT (F := Ideal) i0 E (ix2 a (0 : Fin 1))) + totT (F := Ideal) i1 E (ix2 a (0 : Fin 1))
      = Cert.Spec.tot (E : Cert.Spec.ST.Idx → EReal) r := by
  rw [zero_apply, totT_apply E i0 a r (by rw [h00]; exact hr), totT_apply E i1 a r hr]
  simp only [h01, h11]
  exact sum_two_tiles (fun k : Fin 4096 => Cert.Spec.ex (E : Cert.Spec.ST.Idx → EReal) r k)

theorem cnt_two (i0 i1 : grid0.Coords) (h00 : (i0 0).val = (i1 0).val) (h01 : (i0 1).val = 0) (h11 : (i1 1).val = 1)
    (a : Fin 512) (r : Fin 4096) (hr : r.val = 512 * (i1 0).val + a.val) :
    (zero (F := Ideal) (ix2 a (0 : Fin 1)) + cntT (F := Ideal) i0 Lb (ix2 a (0 : Fin 1))) + cntT (F := Ideal) i1 Lb (ix2 a (0 : Fin 1))
      = Cert.Spec.cnt (Lrow Lb) r := by
  rw [zero_apply, cntT_apply Lb i0 a r (by rw [h00]; exact hr), cntT_apply Lb i1 a r hr]
  simp only [h01, h11]
  exact sum_two_tiles (fun k : Fin 4096 => if Lrow Lb (ix1 r) = Lrow Lb (ix1 k) ∧ r ≠ k then (1 : EReal) else 0)

end Cert.KernelIdeal.KVal

end
-- ==== Proof.KFinal.lean ====
/-
  The three result arrays of the region. Each odd grid point 2·g + 1 writes back the three blocks of row tile g, holding
  the specification's row sums at rows 512·g … 512·g + 511; the eight odd points cover the 4096 rows, so each array ends
  at the specification's row vector of the resident table and labels.
-/
import proofs.«101721_j13683765805398_2_alg».proof.Proof.KSum

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.KVal

open Cert.KernelIdeal Cert.KernelIdeal.Gen Cert.KernelIdeal.Hand

variable (m : (ℓ : Loc nD τ sig) → Buf (Elt Ideal) ℓ)

/-- A grid point's coordinates: the row tile and the column tile. -/
theorem hcoords : ∀ t : Fin cfg0.N, (grid0.coords t 0).val = t.val / 2 ∧ (grid0.coords t 1).val = t.val % 2 :=
  (by decide +kernel : ∀ t : Fin grid0.N, (grid0.coords t 0).val = t.val / 2 ∧ (grid0.coords t 1).val = t.val % 2)

/-- The output windows' block index at a point is its row tile. -/
theorem hidx2 : ∀ t : Fin cfg0.N, win0_2.index t (0 : Fin 2) = t.val / 2 ∧ win0_2.index t (1 : Fin 2) = 0 :=
  (by decide +kernel : ∀ t : Fin grid0.N, win0_2.index t (0 : Fin 2) = t.val / 2 ∧ win0_2.index t (1 : Fin 2) = 0)
theorem hidx3 : ∀ t : Fin cfg0.N, win0_3.index t (0 : Fin 2) = t.val / 2 ∧ win0_3.index t (1 : Fin 2) = 0 :=
  (by decide +kernel : ∀ t : Fin grid0.N, win0_3.index t (0 : Fin 2) = t.val / 2 ∧ win0_3.index t (1 : Fin 2) = 0)
theorem hidx4 : ∀ t : Fin cfg0.N, win0_4.index t (0 : Fin 2) = t.val / 2 ∧ win0_4.index t (1 : Fin 2) = 0 :=
  (by decide +kernel : ∀ t : Fin grid0.N, win0_4.index t (0 : Fin 2) = t.val / 2 ∧ win0_4.index t (1 : Fin 2) = 0)
/-- The input windows' block index never moves. -/
theorem hidx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem hidx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- The resident table and labels as the region finds them. -/
abbrev tab (c : Dev nD) : Vec Ideal S4096x512 .bf16 := V m c main_v8
abbrev lab (c : Dev nD) : Vec Ideal S1x4096 .i32 := V m c main_v9

/-- The table's window holds the whole table at every point. -/
theorem iblk0 (c : Dev nD) (t : Fin cfg0.N) : (iblk m c 0 t : Vec Ideal S4096x512 .bf16) = tab m c := by
  obtain ⟨e0, e1⟩ := hidx0 t
  funext y
  unfold iblk
  rw [View.read_apply]
  show V m c main_v8 (((cfg0.win 0).blk t).view.emb y) = V m c main_v8 y
  refine congrArg (V m c main_v8) (funext fun ax => Fin.ext ?_)
  match ax with
  | ⟨0, _⟩ => show win0_0.index t (0 : Fin 2) * 4096 + 1 * (y 0).val = (y 0).val; rw [e0]; omega
  | ⟨1, _⟩ => show win0_0.index t (1 : Fin 2) * 512 + 1 * (y 1).val = (y 1).val; rw [e1]; omega

/-- The labels' window holds all the labels at every point. -/
theorem iblk1 (c : Dev nD) (t : Fin cfg0.N) : (iblk m c 1 t : Vec Ideal S1x4096 .i32) = lab m c := by
  obtain ⟨e0, e1⟩ := hidx1 t
  funext y
  unfold iblk
  rw [View.read_apply]
  show V m c main_v9 (((cfg0.win 1).blk t).view.emb y) = V m c main_v9 y
  refine congrArg (V m c main_v9) (funext fun ax => Fin.ext ?_)
  match ax with
  | ⟨0, _⟩ => show win0_1.index t (0 : Fin 2) * 1 + 1 * (y 0).val = (y 0).val; rw [e0]; omega
  | ⟨1, _⟩ => show win0_1.index t (1 : Fin 2) * 4096 + 1 * (y 1).val = (y 1).val; rw [e1]; omega

/-- The three result arrays: the specification's row sums of the resident table and labels, as [4096, 1] columns. -/
def G2 (c : Dev nD) : S4096x1.Idx → EReal := fun j => Cert.Spec.pos (tab m c : Cert.Spec.ST.Idx → EReal) (Lrow (lab m c)) ⟨(j 0).val, (j 0).isLt⟩
def G3 (c : Dev nD) : S4096x1.Idx → EReal := fun j => Cert.Spec.tot (tab m c : Cert.Spec.ST.Idx → EReal) ⟨(j 0).val, (j 0).isLt⟩
def G4 (c : Dev nD) : S4096x1.Idx → EReal := fun j => Cert.Spec.cnt (Lrow (lab m c)) ⟨(j 0).val, (j 0).isLt⟩

/-- What an odd point writes back of output 2 is its block of the specification's row vector. -/
theorem flushed2_eq (c : Dev nD) (t : Fin cfg0.N) (hf : (cfg0.win 2).flush t = true) :
    (dats m 0 c).flushed 2 t = ((cfg0.win 2).blk t).view.read (Elt Ideal) (G2 m c) := by
  have h1 : t.val % 2 = 1 := (flush0_2 t).mp hf
  show (cfg0.win 2).cut (grid0.coords t) ((dats m 0 c).after 2 t) = _
  rw [after0_2, outs_odd m c t h1]
  funext y
  obtain ⟨a, u, rfl⟩ : ∃ (a : Fin 512) (u : Fin 1), y = ix2 a u := ⟨y 0, y 1, eq_ix2 y⟩
  obtain rfl : u = 0 := Subsingleton.elim _ _
  obtain ⟨ht0, ht1⟩ := hcoords t
  obtain ⟨hp0, hp1⟩ := hcoords (prev t)
  obtain ⟨hi0, hi1⟩ := hidx2 t
  have hN : t.val < 16 := lt_of_lt_of_eq t.isLt (show cfg0.N = 16 from N_0)
  have hpv : (prev t).val = t.val - 1 := rfl
  show (zero (F := Ideal) (ix2 a 0) + posT (F := Ideal) (grid0.coords (prev t)) (iblk m c 0 (prev t)) (iblk m c 1 (prev t)) (ix2 a 0)) + posT (F := Ideal) (grid0.coords t) (iblk m c 0 t) (iblk m c 1 t) (ix2 a 0)
      = G2 m c (((cfg0.win 2).blk t).view.emb (ix2 a 0))
  rw [iblk0, iblk1, iblk0, iblk1]
  refine pos_two (tab m c) (lab m c) (grid0.coords (prev t)) (grid0.coords t) (by rw [hp0, ht0, hpv]; omega) (by rw [hp1, hpv]; omega) (by rw [ht1]; exact h1) a _ ?_
  show win0_2.index t (0 : Fin 2) * 512 + 1 * a.val = 512 * (grid0.coords t 0).val + a.val
  rw [hi0, ht0]; omega

/-- What an odd point writes back of output 3 is its block of the specification's row vector. -/
theorem flushed3_eq (c : Dev nD) (t : Fin cfg0.N) (hf : (cfg0.win 3).flush t = true) :
    (dats m 0 c).flushed 3 t = ((cfg0.win 3).blk t).view.read (Elt Ideal) (G3 m c) := by
  have h1 : t.val % 2 = 1 := (flush0_3 t).mp hf
  show (cfg0.win 3).cut (grid0.coords t) ((dats m 0 c).after 3 t) = _
  rw [after0_3, outs_odd m c t h1]
  funext y
  obtain ⟨a, u, rfl⟩ : ∃ (a : Fin 512) (u : Fin 1), y = ix2 a u := ⟨y 0, y 1, eq_ix2 y⟩
  obtain rfl : u = 0 := Subsingleton.elim _ _
  obtain ⟨ht0, ht1⟩ := hcoords t
  obtain ⟨hp0, hp1⟩ := hcoords (prev t)
  obtain ⟨hi0, hi1⟩ := hidx3 t
  have hN : t.val < 16 := lt_of_lt_of_eq t.isLt (show cfg0.N = 16 from N_0)
  have hpv : (prev t).val = t.val - 1 := rfl
  show (zero (F := Ideal) (ix2 a 0) + totT (F := Ideal) (grid0.coords (prev t)) (iblk m c 0 (prev t)) (ix2 a 0)) + totT (F := Ideal) (grid0.coords t) (iblk m c 0 t) (ix2 a 0)
      = G3 m c (((cfg0.win 3).blk t).view.emb (ix2 a 0))
  rw [iblk0, iblk0]
  refine tot_two (tab m c) (grid0.coords (prev t)) (grid0.coords t) (by rw [hp0, ht0, hpv]; omega) (by rw [hp1, hpv]; omega) (by rw [ht1]; exact h1) a _ ?_
  show win0_3.index t (0 : Fin 2) * 512 + 1 * a.val = 512 * (grid0.coords t 0).val + a.val
  rw [hi0, ht0]; omega

/-- What an odd point writes back of output 4 is its block of the specification's row vector. -/
theorem flushed4_eq (c : Dev nD) (t : Fin cfg0.N) (hf : (cfg0.win 4).flush t = true) :
    (dats m 0 c).flushed 4 t = ((cfg0.win 4).blk t).view.read (Elt Ideal) (G4 m c) := by
  have h1 : t.val % 2 = 1 := (flush0_4 t).mp hf
  show (cfg0.win 4).cut (grid0.coords t) ((dats m 0 c).after 4 t) = _
  rw [after0_4, outs_odd m c t h1]
  funext y
  obtain ⟨a, u, rfl⟩ : ∃ (a : Fin 512) (u : Fin 1), y = ix2 a u := ⟨y 0, y 1, eq_ix2 y⟩
  obtain rfl : u = 0 := Subsingleton.elim _ _
  obtain ⟨ht0, ht1⟩ := hcoords t
  obtain ⟨hp0, hp1⟩ := hcoords (prev t)
  obtain ⟨hi0, hi1⟩ := hidx4 t
  have hN : t.val < 16 := lt_of_lt_of_eq t.isLt (show cfg0.N = 16 from N_0)
  have hpv : (prev t).val = t.val - 1 := rfl
  show (zero (F := Ideal) (ix2 a 0) + cntT (F := Ideal) (grid0.coords (prev t)) (iblk m c 1 (prev t)) (ix2 a 0)) + cntT (F := Ideal) (grid0.coords t) (iblk m c 1 t) (ix2 a 0)
      = G4 m c (((cfg0.win 4).blk t).view.emb (ix2 a 0))
  rw [iblk1, iblk1]
  refine cnt_two (lab m c) (grid0.coords (prev t)) (grid0.coords t) (by rw [hp0, ht0, hpv]; omega) (by rw [hp1, hpv]; omega) (by rw [ht1]; exact h1) a _ ?_
  show win0_4.index t (0 : Fin 2) * 512 + 1 * a.val = 512 * (grid0.coords t 0).val + a.val
  rw [hi0, ht0]; omega

/-- Every row of output 2's array lies in the block some odd point writes back. -/
theorem cover2 (c : Dev nD) (i : S4096x1.Idx) : ∃ t : Fin cfg0.N, (cfg0.win 2).flush t = true ∧ i ∈ ((cfg0.win 2).blk t).view.set := by
  have hi0 : (i 0).val < 4096 := (i 0).isLt
  have hi1 : (i 1).val < 1 := (i 1).isLt
  have hN : cfg0.N = 16 := N_0
  let t : Fin cfg0.N := ⟨2 * ((i 0).val / 512) + 1, by rw [hN]; omega⟩
  obtain ⟨q0, q1⟩ := hidx2 t
  refine ⟨t, (flush0_2 t).mpr (by show (2 * ((i 0).val / 512) + 1) % 2 = 1; omega), ?_⟩
  show i ∈ ((View.whole main_v10_0).slice (win0_2.rect t)).set
  rw [View.set_slice_whole, Rect.mem_set_unit]
  intro ax
  have hv : t.val = 2 * ((i 0).val / 512) + 1 := rfl
  match ax with
  | ⟨0, _⟩ => show win0_2.index t (0 : Fin 2) * 512 ≤ (i 0).val ∧ (i 0).val < win0_2.index t (0 : Fin 2) * 512 + 512
              rw [q0, hv]; omega
  | ⟨1, _⟩ => show win0_2.index t (1 : Fin 2) * 1 ≤ (i 1).val ∧ (i 1).val < win0_2.index t (1 : Fin 2) * 1 + 1
              rw [q1]; omega

/-- So output 2's array ends holding the specification's row vector. -/
theorem final2 (c : Dev nD) : (dats m 0 c).arrAt 2 cfg0.N = G2 m c :=
  (dats m 0 c).arrAt_eq_of_cover 2 (G2 m c) (flushed2_eq m c) (cover2 c)

/-- Every row of output 3's array lies in the block some odd point writes back. -/
theorem cover3 (c : Dev nD) (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  have hN : cfg0.N = 16 := N_0
  let t : Fin cfg0.N := ⟨2 * ((i 0).val / 512) + 1, by rw [hN]; omega⟩
  obtain ⟨q0, q1⟩ := hidx3 t
  refine ⟨t, (flush0_3 t).mpr (by show (2 * ((i 0).val / 512) + 1) % 2 = 1; omega), ?_⟩
  show i ∈ ((View.whole main_v10_1).slice (win0_3.rect t)).set
  rw [View.set_slice_whole, Rect.mem_set_unit]
  intro ax
  have hv : t.val = 2 * ((i 0).val / 512) + 1 := rfl
  match ax with
  | ⟨0, _⟩ => show win0_3.index t (0 : Fin 2) * 512 ≤ (i 0).val ∧ (i 0).val < win0_3.index t (0 : Fin 2) * 512 + 512
              rw [q0, hv]; omega
  | ⟨1, _⟩ => show win0_3.index t (1 : Fin 2) * 1 ≤ (i 1).val ∧ (i 1).val < win0_3.index t (1 : Fin 2) * 1 + 1
              rw [q1]; omega

/-- So output 3's array ends holding the specification's row vector. -/
theorem final3 (c : Dev nD) : (dats m 0 c).arrAt 3 cfg0.N = G3 m c :=
  (dats m 0 c).arrAt_eq_of_cover 3 (G3 m c) (flushed3_eq m c) (cover3 c)

/-- Every row of output 4's array lies in the block some odd point writes back. -/
theorem cover4 (c : Dev nD) (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 16 := N_0
  let t : Fin cfg0.N := ⟨2 * ((i 0).val / 512) + 1, by rw [hN]; omega⟩
  obtain ⟨q0, q1⟩ := hidx4 t
  refine ⟨t, (flush0_4 t).mpr (by show (2 * ((i 0).val / 512) + 1) % 2 = 1; omega), ?_⟩
  show i ∈ ((View.whole main_v10_2).slice (win0_4.rect t)).set
  rw [View.set_slice_whole, Rect.mem_set_unit]
  intro ax
  have hv : t.val = 2 * ((i 0).val / 512) + 1 := rfl
  match ax with
  | ⟨0, _⟩ => show win0_4.index t (0 : Fin 2) * 512 ≤ (i 0).val ∧ (i 0).val < win0_4.index t (0 : Fin 2) * 512 + 512
              rw [q0, hv]; omega
  | ⟨1, _⟩ => show win0_4.index t (1 : Fin 2) * 1 ≤ (i 1).val ∧ (i 1).val < win0_4.index t (1 : Fin 2) * 1 + 1
              rw [q1]; omega

/-- So output 4's array ends holding the specification's row vector. -/
theorem final4 (c : Dev nD) : (dats m 0 c).arrAt 4 cfg0.N = G4 m c :=
  (dats m 0 c).arrAt_eq_of_cover 4 (G4 m c) (flushed4_eq m c) (cover4 c)

end Cert.KernelIdeal.KVal

end
-- ==== Proof.KPre.lean ====
/-
  The kernel program's host operations before the region, at the ideal instance. They compute, from the
  embedding table, the same normalised table as the reference's first stages (x / max (sqrt (Σ x²), eps),
  then a narrowing of the float format, which is the identity on extended reals), and a [1,4096] copy of
  the label vector whose entry (0,k) is label k. No operation writes an argument.
-/
import proofs.«101721_j13683765805398_2_alg».proof.Proof.Gen.KernelIdeal.Launch
import proofs.«101721_j13683765805398_2_alg».proof.Proof.RefRead
import proofs.«101721_j13683765805398_2_alg».proof.Proof.Spec
import proofs.«101721_j13683765805398_2_alg».proof.Proof.KIKit
import Idealize.ShloMosaic.Lib.StableHlo.Run
import Idealize.ShloMosaic.Lib.ValueLayout

noncomputable section

namespace Cert.KernelIdeal.KPre

open Cert.KernelIdeal Cert.KernelIdeal.Gen
open Idealize.ShloMosaic Idealize.ShloMosaic.TcCoe Idealize.ShloMosaic.ValueIdx
open Idealize.SL.Sem

/-- The table argument is untouched by the operations before the region. -/
theorem pre_arg0 (W : Valuation τ sig (Elt Ideal)) :
    StableHlo.after (List.flatten [hostOps0 (F := Ideal)]) W (Proc.devRef .tc main_arg0)
      = W (Proc.devRef .tc main_arg0) := by
  simp only [hostOps0, List.flatten_cons, List.flatten_nil, List.append_nil]
  after_results <;> rfl

/-- The label argument is untouched by the operations before the region. -/
theorem pre_arg1 (W : Valuation τ sig (Elt Ideal)) :
    StableHlo.after (List.flatten [hostOps0 (F := Ideal)]) W (Proc.devRef .tc main_arg1)
      = W (Proc.devRef .tc main_arg1) := by
  simp only [hostOps0, List.flatten_cons, List.flatten_nil, List.append_nil]
  after_results <;> rfl

/-- The third argument is untouched by the operations before the region. -/
theorem pre_arg2 (W : Valuation τ sig (Elt Ideal)) :
    StableHlo.after (List.flatten [hostOps0 (F := Ideal)]) W (Proc.devRef .tc main_arg2)
      = W (Proc.devRef .tc main_arg2) := by
  simp only [hostOps0, List.flatten_cons, List.flatten_nil, List.append_nil]
  after_results <;> rfl

/-- The table the region reads is the reference's normalised table of the table argument. -/
theorem pre_table (W : Valuation τ sig (Elt Ideal)) :
    (StableHlo.after (List.flatten [hostOps0 (F := Ideal)]) W (Proc.devRef .tc main_v8) : Cert.Spec.ST.Idx → EReal)
      = Cert.ReferenceIdeal.Read.val_main_v4 (F := Ideal) (W (Proc.devRef .tc main_arg0)) := by
  simp only [hostOps0, List.flatten_cons, List.flatten_nil, List.append_nil]
  after_results
  rfl

/-- The label row the region reads holds, at (0,k), label k. -/
theorem pre_labels (W : Valuation τ sig (Elt Ideal)) (k : Fin 4096) :
    StableHlo.after (List.flatten [hostOps0 (F := Ideal)]) W (Proc.devRef .tc main_v9) (ix2 (0 : Fin 1) k)
      = W (Proc.devRef .tc main_arg1) (ix1 k) := by
  simp only [hostOps0, List.flatten_cons, List.flatten_nil, List.append_nil]
  after_results
  exact shapeCast_a_1a_apply _ _ 0 k

/-! ## The same facts about the contents the region finds on core c, from launch contents m -/

variable (m : (ℓ : Loc nD τ sig) → Buf (Elt Ideal) ℓ)

/-- The region's table is the reference's normalised table of the launch table. -/
theorem V_table (c : Dev nD) :
    (Hand.V m c main_v8 : Cert.Spec.ST.Idx → EReal)
      = Cert.ReferenceIdeal.Read.val_main_v4 (F := Ideal) (m ((c.tc : Thread nD τ).loc main_arg0)) :=
  pre_table (fun b => m (c, b))

/-- The region's label row holds, at (0,k), the launch label k. -/
theorem V_labels (c : Dev nD) (k : Fin 4096) :
    Hand.V m c main_v9 (ix2 (0 : Fin 1) k) = m ((c.tc : Thread nD τ).loc main_arg1) (ix1 k) :=
  pre_labels (fun b => m (c, b)) k

/-- The arguments are at their launch contents when the region is entered. -/
theorem V0_arg0 (c : Dev nD) :
    Hand.V0 m c (Proc.devRef .tc main_arg0) = m ((c.tc : Thread nD τ).loc main_arg0) :=
  pre_arg0 (fun b => m (c, b))

theorem V0_arg1 (c : Dev nD) :
    Hand.V0 m c (Proc.devRef .tc main_arg1) = m ((c.tc : Thread nD τ).loc main_arg1) :=
  pre_arg1 (fun b => m (c, b))

theorem V0_arg2 (c : Dev nD) :
    Hand.V0 m c (Proc.devRef .tc main_arg2) = m ((c.tc : Thread nD τ).loc main_arg2) :=
  pre_arg2 (fun b => m (c, b))

end Cert.KernelIdeal.KPre

end
-- ==== Proof.RefConsts.lean ====
/-
  The float literals the reference's contrastive stage spells, as the extended reals they denote, and the
  two facts about words the masks need: a one-bit comparison converted to a float is 0 or 1, and two row
  numbers below 4096 are equal as 32-bit words exactly when they are equal.
-/
import Idealize.ShloMosaic.PureOps.Ideal
import Idealize.ShloMosaic.PureOps.Ideal.Laws

noncomputable section

namespace Cert.RefSide

open Idealize.ShloMosaic

/-- The temperature literal 0.07 (as a binary32 word) denotes the binary fraction 9395241 / 2^27. -/
theorem ofBits_temp : Ideal.ofBits .f32 0x3D8F5C29#32 = ((9395241 / 134217728 : ℝ) : EReal) := by
  simp [Ideal.ofBits, Ideal.ieee, -EReal.coe_mul]; norm_num

/-- The literal 1.0 denotes 1. -/
theorem ofBits_one : Ideal.ofBits .f32 0x3F800000#32 = 1 := by
  simp [Ideal.ofBits, Ideal.ieee, -EReal.coe_mul]; norm_num

/-- Dividing by the temperature is multiplying by its reciprocal 2^27 / 9395241, on every extended real. -/
theorem div_temp (x : EReal) :
    Ideal.div x (Ideal.ofBits .f32 0x3D8F5C29#32) = x * ((134217728 / 9395241 : ℝ) : EReal) := by
  rw [ofBits_temp, Ideal.div_coe (by norm_num)]
  congr 2
  norm_num

/-- The bit of an equality test, converted to a float, is 1 when the words are equal and 0 otherwise. -/
theorem uitofp_cmpi_eq (a b : BitVec 32) :
    FloatOps.uitofp (F := Ideal) .f32 (IntOp.cmpi .eq a b) = if a = b then (1 : EReal) else 0 := by
  show (((IntOp.cmpi .eq a b).toNat : ℝ) : EReal) = _
  unfold IntOp.cmpi
  by_cases h : a = b
  · simp [h]
  · simp [h]

/-- Two row numbers below 4096, as 32-bit words (the first with the word 0 added), are equal exactly when
    the numbers are. -/
theorem iota_eq_iff (r k : Fin 4096) :
    IntOp.addi (BitVec.ofNat 32 r.val) 0#32 = BitVec.ofNat 32 k.val ↔ r = k := by
  unfold IntOp.addi
  rw [BitVec.add_zero]
  constructor
  · intro h
    have e := congrArg BitVec.toNat h
    simp only [BitVec.toNat_ofNat, Nat.reducePow] at e
    have hr := r.isLt
    have hk := k.isLt
    exact Fin.ext (by omega)
  · rintro rfl; rfl

/-- In the extended reals, 1 − 1 = 0 and 1 − 0 = 1. -/
theorem one_sub_one : (1 : EReal) - 1 = 0 := by
  rw [← EReal.coe_one, ← EReal.coe_sub, sub_self, EReal.coe_zero]

theorem one_sub_zero : (1 : EReal) - 0 = 1 := sub_zero 1

end Cert.RefSide

end
-- ==== Proof.RefSim.lean ====
/-
  The reference's scaled similarity and its exponential, read at an entry (row r, column k):
  the [4096,4096] product of the normalised table E with its transpose is the inner product of rows r and k,
  and the division by the temperature 9395241 / 2^27 is the product with its reciprocal on every extended
  real, so   sim (r,k) = (∑ d, E r d · E k d) · invT   and   exp (sim (r,k)) = ex E r k.
-/
import proofs.«101721_j13683765805398_2_alg».proof.Proof.RefRead
import proofs.«101721_j13683765805398_2_alg».proof.Proof.Spec
import proofs.«101721_j13683765805398_2_alg».proof.Proof.RefConsts

noncomputable section

namespace Cert.RefSide

open Cert.ReferenceIdeal Cert.ReferenceIdeal.Read Idealize.ShloMosaic Idealize.ShloMosaic.ValueIdx
open scoped BigOperators

/-- The product matrix at (r,k): the inner product of rows r and k of the normalised table. -/
theorem prod_at (x0 : (⟨S4096x512, .f32⟩ : BufTy).Contents (Elt Ideal)) (r k : Fin 4096) :
    val_main_v6 (F := Ideal) x0 (ix2 r k) = Cert.Spec.dot (val_main_v4 (F := Ideal) x0) r k := by
  have el : ∀ d : Fin 512, lidx_main_v6 (ix2 r k) d = ix2 r d := fun d =>
    funext fun a => Fin.ext (by match a with | ⟨0, _⟩ => rfl | ⟨1, _⟩ => rfl)
  have er : ∀ d : Fin 512, idx_main_v5 (ridx_main_v6 (ix2 r k) d) = ix2 k d := fun d =>
    funext fun a => Fin.ext (by match a with | ⟨0, _⟩ => rfl | ⟨1, _⟩ => rfl)
  rw [val_main_v6_apply]
  unfold Cert.Spec.dot
  refine Finset.sum_congr rfl fun d _ => ?_
  rw [val_main_v5_apply, el, er]

/-- The scaled similarity at (r,k). -/
theorem sim (x0 : (⟨S4096x512, .f32⟩ : BufTy).Contents (Elt Ideal)) (r k : Fin 4096) :
    val_main_v8 (F := Ideal) x0 (ix2 r k)
      = Cert.Spec.dot (val_main_v4 (F := Ideal) x0) r k * Cert.Spec.invT := by
  rw [val_main_v8_apply, val_main_v7_apply, val_main_cst_0_apply, prod_at, Ideal.hostDivf_def,
    Ideal.ofBits_def, div_temp, Cert.Spec.invT]

/-- The exponential of the scaled similarity at (r,k). -/
theorem exp_at (x0 : (⟨S4096x512, .f32⟩ : BufTy).Contents (Elt Ideal)) (r k : Fin 4096) :
    val_main_v24 (F := Ideal) x0 (ix2 r k) = Cert.Spec.ex (val_main_v4 (F := Ideal) x0) r k := by
  unfold Cert.Spec.ex
  rw [val_main_v24_apply, Ideal.hostUnary_exp_def, sim]

end Cert.RefSide

end
-- ==== Proof.RefMask.lean ====
/-
  The reference's mask of positives, read at an entry (row r, column k): the product of the float of
  "labels equal" and of 1 − (the float of "row number = column number"). Each factor is 0 or 1, so the
  mask is 1 exactly when the labels of rows r and k agree and r ≠ k, and 0 otherwise.
-/
import proofs.«101721_j13683765805398_2_alg».proof.Proof.RefRead
import proofs.«101721_j13683765805398_2_alg».proof.Proof.Spec
import proofs.«101721_j13683765805398_2_alg».proof.Proof.RefConsts

noncomputable section

namespace Cert.RefSide

open Cert.ReferenceIdeal Cert.ReferenceIdeal.Read Idealize.ShloMosaic Idealize.ShloMosaic.ValueIdx
open scoped BigOperators

/-- "Labels equal" as a float, at (r,k). -/
theorem same_at (x1 : (⟨S4096, .i32⟩ : BufTy).Contents (Elt Ideal)) (r k : Fin 4096) :
    val_main_v14 (F := Ideal) x1 (ix2 r k) = if x1 (ix1 r) = x1 (ix1 k) then (1 : EReal) else 0 := by
  have e1 : idx_main_v9 (idx_main_v11 (ix2 r k)) = ix1 r :=
    funext fun a => Fin.ext (by match a with | ⟨0, _⟩ => rfl)
  have e2 : idx_main_v10 (idx_main_v12 (ix2 r k)) = ix1 k :=
    funext fun a => Fin.ext (by match a with | ⟨0, _⟩ => rfl)
  rw [val_main_v14_apply, val_main_v13_apply, val_main_v11_apply, val_main_v9_apply, val_main_v12_apply,
    val_main_v10_apply, e1, e2]
  exact uitofp_cmpi_eq _ _

/-- 1 − (the float of "row number = column number"), at (r,k). -/
theorem offdiag_at (r k : Fin 4096) :
    val_main_v22 (F := Ideal) (ix2 r k) = if r = k then (0 : EReal) else 1 := by
  rw [val_main_v22_apply, val_main_v21_apply, val_main_cst_1_apply, val_main_v20_apply, val_main_v19_apply,
    val_main_v18_apply, val_main_v15_apply, val_main_v17_apply, val_main_c_apply, val_main_v16_apply,
    Ideal.subf_def, Ideal.ofBits_def, ofBits_one]
  show (1 : EReal) - FloatOps.uitofp (F := Ideal) .f32
      (IntOp.cmpi .eq (IntOp.addi (BitVec.ofNat 32 r.val) 0#32) (BitVec.ofNat 32 k.val)) = _
  rw [uitofp_cmpi_eq, if_congr (iota_eq_iff r k) rfl rfl]
  by_cases h : r = k
  · rw [if_pos h, if_pos h, one_sub_one]
  · rw [if_neg h, if_neg h, one_sub_zero]

/-- The mask of positives at (r,k). -/
theorem mask_at (x1 : (⟨S4096, .i32⟩ : BufTy).Contents (Elt Ideal)) (r k : Fin 4096) :
    val_main_v23 (F := Ideal) x1 (ix2 r k)
      = if x1 (ix1 r) = x1 (ix1 k) ∧ r ≠ k then (1 : EReal) else 0 := by
  rw [val_main_v23_apply, same_at, offdiag_at, Ideal.mulf_def]
  by_cases h1 : x1 (ix1 r) = x1 (ix1 k)
  · by_cases h2 : r = k
    · rw [if_pos h1, if_pos h2, if_neg (fun h => h.2 h2), mul_zero]
    · rw [if_pos h1, if_neg h2, if_pos ⟨h1, h2⟩, mul_one]
  · rw [if_neg h1, zero_mul, if_neg (fun h => h1 h.1)]

end Cert.RefSide

end
-- ==== Proof.RefPos.lean ====
/-
  The reference's three row sums, read at a row: each is a sum from the zero constant over the columns k
  of the row's entries, and 0 + Σ = Σ. With the mask 0 or 1, exp · mask is the exponential on the
  positives and 0 elsewhere (x · 1 = x and x · 0 = 0 on every extended real).
-/
import proofs.«101721_j13683765805398_2_alg».proof.Proof.RefSim
import proofs.«101721_j13683765805398_2_alg».proof.Proof.RefMask

noncomputable section

namespace Cert.RefSide

open Cert.ReferenceIdeal Cert.ReferenceIdeal.Read Idealize.ShloMosaic Idealize.ShloMosaic.ValueIdx
open scoped BigOperators

/-- The sum over the positives of row r. -/
theorem ref_pos_at (x0 : (⟨S4096x512, .f32⟩ : BufTy).Contents (Elt Ideal))
    (x1 : (⟨S4096, .i32⟩ : BufTy).Contents (Elt Ideal)) (r : Fin 4096) :
    val_main_v26 (F := Ideal) x0 x1 (ix1 r) = Cert.Spec.pos (val_main_v4 (F := Ideal) x0) x1 r := by
  rw [val_main_v26_apply, val_main_cst_2_apply, Ideal.ofBits_def, Ideal.ofBits_zero_f32, zero_add]
  unfold Cert.Spec.pos
  refine Finset.sum_congr rfl fun k _ => ?_
  have e : idx_main_v26 (ix1 r) k = ix2 r k :=
    funext fun a => Fin.ext (by match a with | ⟨0, _⟩ => rfl | ⟨1, _⟩ => rfl)
  rw [e, val_main_v25_apply, Ideal.mulf_def, exp_at, mask_at, mul_ite, mul_one, mul_zero]

/-- The sum of the exponentials of row r. -/
theorem ref_tot_at (x0 : (⟨S4096x512, .f32⟩ : BufTy).Contents (Elt Ideal)) (r : Fin 4096) :
    val_main_v27 (F := Ideal) x0 (ix1 r) = Cert.Spec.tot (val_main_v4 (F := Ideal) x0) r := by
  rw [val_main_v27_apply, val_main_cst_3_apply, Ideal.ofBits_def, Ideal.ofBits_zero_f32, zero_add]
  unfold Cert.Spec.tot
  refine Finset.sum_congr rfl fun k _ => ?_
  have e : idx_main_v27 (ix1 r) k = ix2 r k :=
    funext fun a => Fin.ext (by match a with | ⟨0, _⟩ => rfl | ⟨1, _⟩ => rfl)
  rw [e, exp_at]

/-- The number of positives of row r. -/
theorem ref_cnt_at (x1 : (⟨S4096, .i32⟩ : BufTy).Contents (Elt Ideal)) (r : Fin 4096) :
    val_main_v35 (F := Ideal) x1 (ix1 r) = Cert.Spec.cnt x1 r := by
  rw [val_main_v35_apply, val_main_cst_6_apply, Ideal.ofBits_def, Ideal.ofBits_zero_f32, zero_add]
  unfold Cert.Spec.cnt
  refine Finset.sum_congr rfl fun k _ => ?_
  have e : idx_main_v35 (ix1 r) k = ix2 r k :=
    funext fun a => Fin.ext (by match a with | ⟨0, _⟩ => rfl | ⟨1, _⟩ => rfl)
  rw [e, mask_at]

/-- The same three facts at any index of a row vector: the row is the index's one coordinate. -/
theorem ref_pos (x0 : (⟨S4096x512, .f32⟩ : BufTy).Contents (Elt Ideal))
    (x1 : (⟨S4096, .i32⟩ : BufTy).Contents (Elt Ideal)) (i : S4096.Idx) :
    val_main_v26 (F := Ideal) x0 x1 i = Cert.Spec.pos (val_main_v4 (F := Ideal) x0) x1 (i 0) := by
  obtain ⟨r, rfl⟩ : ∃ r : Fin 4096, i = ix1 r := ⟨i 0, eq_ix1 i⟩
  exact ref_pos_at x0 x1 r

theorem ref_tot (x0 : (⟨S4096x512, .f32⟩ : BufTy).Contents (Elt Ideal)) (i : S4096.Idx) :
    val_main_v27 (F := Ideal) x0 i = Cert.Spec.tot (val_main_v4 (F := Ideal) x0) (i 0) := by
  obtain ⟨r, rfl⟩ : ∃ r : Fin 4096, i = ix1 r := ⟨i 0, eq_ix1 i⟩
  exact ref_tot_at x0 r

theorem ref_cnt (x1 : (⟨S4096, .i32⟩ : BufTy).Contents (Elt Ideal)) (i : S4096.Idx) :
    val_main_v35 (F := Ideal) x1 i = Cert.Spec.cnt x1 (i 0) := by
  obtain ⟨r, rfl⟩ : ∃ r : Fin 4096, i = ix1 r := ⟨i 0, eq_ix1 i⟩
  exact ref_cnt_at x1 r

end Cert.RefSide

end
-- ==== Proof.Tails.lean ====
/-
  The part of the loss that comes after the three row sums.

  Write pos, tot, cnt for the three vectors of row sums (one entry per row of the table). The loss of a row is
      loss r = −log (pos r / (tot r + ε) + ε),          ε the 32-bit float nearest 1e-8,
  a row is valid when cnt r > 0, n is the number of valid rows (a 32-bit integer sum), and the contrastive loss is
      cont = if n > 0 then (∑ r valid, loss r) / float (max n 1) else 0.
  The triplet loss reads the embedding table E and the triplets (a, p, q) only: with a negative index wrapped once by
  the number of rows, and ‖·‖ the root of the sum of squares of a row,
      trip = (∑ r, max (‖E a − E p + δ‖ − ‖E a − E q + δ‖ + 1/2) 0) / 4096,      δ the 32-bit float nearest 1e-6.
  The total is 1 · cont + 0.3 · trip. `contTail` is cont as a function of (pos, tot, cnt), `tripTail` is trip as a
  function of (E, triplets), and `totalOf` the total as a function of (cont, trip). All three are compositions of the
  host's own operations, which are never opened: each program's result is shown to BE the same composition.
-/
import proofs.«101721_j13683765805398_2_alg».proof.Proof.Gen.ReferenceIdeal
import Idealize.ShloMosaic.PureOps.Ideal

noncomputable section

namespace Cert.Tails

open Idealize.ShloMosaic Idealize.SL.Sem
open Cert.ReferenceIdeal Cert.ReferenceIdeal.Gen

/-! ## The contrastive loss from the row sums -/

/-- The loss of each row: `−log (pos / (tot + ε) + ε)`. -/
def lossOf (P T : FVec Ideal S4096 .f32) : FVec Ideal S4096 .f32 :=
  Host.negf (F := Ideal) (Host.log (F := Ideal)
    (addf (F := Ideal)
      (Host.divf (F := Ideal) P
        (addf (F := Ideal) T (broadcastInDim S4096 ![] bcast_S_S4096 (constant (F := Ideal) S_ .f32 0x322BCC77#32))))
      (broadcastInDim S4096 ![] bcast_S_S4096 (constant (F := Ideal) S_ .f32 0x322BCC77#32))))

/-- The rows that have a positive: `cnt > 0`, one bit per row. -/
def validOf (C : FVec Ideal S4096 .f32) : IVec S4096 1 :=
  cmpf (F := Ideal) .ogt C (broadcastInDim S4096 ![] bcast_S_S4096 (constant (F := Ideal) S_ .f32 0x00000000#32))

/-- The number of valid rows: the bits widened to 32-bit words and summed. -/
def countOf (C : FVec Ideal S4096 .f32) : IVec S_ 32 :=
  Host.reduce IntOp.addi (extui 32 (validOf C) natLt_1_32) (constantI S_ 32 0#32) reducesTo_S4096_S_d0 h_S_

/-- The sum of the valid rows' losses (an invalid row counts zero). -/
def lossSumOf (P T C : FVec Ideal S4096 .f32) : FVec Ideal S_ .f32 :=
  Host.reduceAdd (F := Ideal)
    (select (validOf C) (lossOf P T)
      (broadcastInDim S4096 ![] bcast_S_S4096 (constant (F := Ideal) S_ .f32 0x00000000#32)))
    (constant (F := Ideal) S_ .f32 0x00000000#32) reducesTo_S4096_S_d0 h_S_

/-- The contrastive loss from the three row sums: the mean loss of the valid rows, zero when there is none. -/
def contTail (P T C : FVec Ideal S4096 .f32) : FVec Ideal S_ .f32 :=
  select (cmpi .sgt (countOf C) (constantI S_ 32 0#32))
    (Host.divf (F := Ideal) (lossSumOf P T C)
      (sitofp (F := Ideal) .f32 (maxsi (countOf C) (constantI S_ 32 1#32))))
    (constant (F := Ideal) S_ .f32 0x00000000#32)

/-! ## The triplet loss from the table and the triplets -/

/-- A column of row indices flattened to a vector, a negative index wrapped once by the number of rows. -/
def wrapOf (col : IVec S4096x1 32) : IVec S4096 32 :=
  select
    (cmpi .slt (shapeCast _ col shapeCasts_S4096x1_S4096) (broadcastInDim S4096 ![] bcast_S_S4096 (constantI S_ 32 0#32)))
    (addi (shapeCast _ col shapeCasts_S4096x1_S4096) (broadcastInDim S4096 ![] bcast_S_S4096 (constantI S_ 32 4096#32)))
    (shapeCast _ col shapeCasts_S4096x1_S4096)

/-- The table's rows at a column of (wrapped) indices. -/
def rowsOf (E : FVec Ideal S4096x512 .f32) (col : IVec S4096x1 32) : FVec Ideal S4096x512 .f32 :=
  Host.gather gather_S4096x512_S4096x1_S4096x512_1_0_n_n_0_1_1512 E
    (broadcastInDim S4096x1 ![0] bcast_S4096_S4096x1_0 (wrapOf col))

/-- The row norms of `A − B + δ`. -/
def distOf (A B : FVec Ideal S4096x512 .f32) : FVec Ideal S4096 .f32 :=
  Host.sqrt (F := Ideal) (Host.reduceAdd (F := Ideal)
    (mulf (F := Ideal)
      (addf (F := Ideal) (subf (F := Ideal) A B)
        (broadcastInDim S4096x512 ![] bcast_S_S4096x512 (constant (F := Ideal) S_ .f32 0x358637BD#32)))
      (addf (F := Ideal) (subf (F := Ideal) A B)
        (broadcastInDim S4096x512 ![] bcast_S_S4096x512 (constant (F := Ideal) S_ .f32 0x358637BD#32))))
    (constant (F := Ideal) S_ .f32 0x00000000#32) reducesTo_S4096x512_S4096_d1 h_S_)

/-- The mean over the triplets of the hinge of two distance vectors at margin 1/2. -/
def hingeOf (dp dn : FVec Ideal S4096 .f32) : FVec Ideal S_ .f32 :=
  Host.divf (F := Ideal)
    (Host.reduceAdd (F := Ideal)
      (maximumf (F := Ideal)
        (addf (F := Ideal) (subf (F := Ideal) dp dn)
          (broadcastInDim S4096 ![] bcast_S_S4096 (constant (F := Ideal) S_ .f32 0x3F000000#32)))
        (broadcastInDim S4096 ![] bcast_S_S4096 (constant (F := Ideal) S_ .f32 0x00000000#32)))
      (constant (F := Ideal) S_ .f32 0x00000000#32) reducesTo_S4096_S_d0 h_S_)
    (constant (F := Ideal) S_ .f32 0x45800000#32)

/-- The three columns of the triplets: the anchors, the positives, the negatives. -/
def col0 (tr : IVec S4096x3 32) : IVec S4096x1 32 := extractStridedSlice S4096x1 ![0, 0] tr slices_S4096x3_S4096x1_0_0
@[inherit_doc col0]
def col1 (tr : IVec S4096x3 32) : IVec S4096x1 32 := extractStridedSlice S4096x1 ![0, 1] tr slices_S4096x3_S4096x1_0_1
@[inherit_doc col0]
def col2 (tr : IVec S4096x3 32) : IVec S4096x1 32 := extractStridedSlice S4096x1 ![0, 2] tr slices_S4096x3_S4096x1_0_2

/-- The triplet loss: the hinge of the anchor-to-positive and anchor-to-negative distances. -/
def tripTail (E : FVec Ideal S4096x512 .f32) (tr : IVec S4096x3 32) : FVec Ideal S_ .f32 :=
  hingeOf (distOf (rowsOf E (col0 tr)) (rowsOf E (col1 tr))) (distOf (rowsOf E (col0 tr)) (rowsOf E (col2 tr)))

/-! ## The total -/

/-- The total loss from its two parts: `1 · cont + 0.3 · trip` (0.3 as its nearest 32-bit float). -/
def totalOf (cont trip : FVec Ideal S_ .f32) : FVec Ideal S_ .f32 :=
  addf (F := Ideal) (mulf (F := Ideal) (constant (F := Ideal) S_ .f32 0x3F800000#32) cont)
    (mulf (F := Ideal) (constant (F := Ideal) S_ .f32 0x3E99999A#32) trip)

end Cert.Tails

end
-- ==== Proof.TailsKernel.lean ====
/-
  The host operations that follow the kernel's region are the same composition as the reference's.

  After the region the three output arrays hold the row sums pos, tot, cnt as 4096 × 1 columns. The remaining host
  operations flatten each column to a vector of 4096 entries and then compute, exactly as the reference does after
  its own row sums, the contrastive loss `contTail`, the triplet loss `tripTail` (a function of the embedding table
  and the triplets alone) and their weighted sum `totalOf`. The operations are read in three groups, each from an
  arbitrary contents `V` of the buffers: the first group ends at the contrastive loss, the second at the two
  distance vectors, the third at the triplet loss and the total; a group leaves alone the buffers it does not write.
  Composing the three readings gives the three equations; nothing about the operations themselves is used.
-/
import proofs.«101721_j13683765805398_2_alg».proof.Proof.Gen.KernelIdeal.Launch
import proofs.«101721_j13683765805398_2_alg».proof.Proof.Tails
import Idealize.ShloMosaic.Lib.StableHlo.Run
import Idealize.ShloMosaic.Lib.Pipeline.Frame

noncomputable section

namespace Cert.Tails

open Idealize.ShloMosaic Idealize.ShloMosaic.TcCoe Idealize.SL.Sem Idealize.ShloMosaic.StableHlo
open Cert.KernelIdeal Cert.KernelIdeal.Gen

/-- The host operations after the region, stretch by stretch, in program order. -/
abbrev kTailOps : List (List (HloOp Cert.KernelIdeal.τ Cert.KernelIdeal.sig (Elt Ideal))) :=
  [hostOps1, hostOps1_1, hostOps1_2, hostOps1_3, hostOps1_4, hostOps1_5, hostOps1_6, hostOps1_7, hostOps1_8]

/-- The first group: from the three output columns to the contrastive loss. -/
abbrev kA : List (HloOp Cert.KernelIdeal.τ Cert.KernelIdeal.sig (Elt Ideal)) :=
  hostOps1 ++ (hostOps1_1 ++ (hostOps1_2 ++ hostOps1_3))
/-- The second group: from the table and the triplets to the two distance vectors. -/
abbrev kB : List (HloOp Cert.KernelIdeal.τ Cert.KernelIdeal.sig (Elt Ideal)) :=
  hostOps1_4 ++ (hostOps1_5 ++ (hostOps1_6 ++ hostOps1_7))
/-- The third group: the hinge, its mean, and the weighted sum. -/
abbrev kC : List (HloOp Cert.KernelIdeal.τ Cert.KernelIdeal.sig (Elt Ideal)) := hostOps1_8

/-- The stretches in a row are the three groups in a row. -/
theorem kTail_groups : List.flatten kTailOps = kA ++ (kB ++ kC) := by
  simp only [kTailOps, kA, kB, kC, List.flatten_cons, List.flatten_nil, List.append_nil, List.append_assoc]

/-- Reading after all the stretches is reading after the third group, from the contents the second leaves, from those
    the first leaves. -/
theorem after_kTail (W : Valuation τ sig (Elt Ideal)) :
    StableHlo.after (List.flatten kTailOps) W = StableHlo.after kC (StableHlo.after kB (StableHlo.after kA W)) := by
  rw [kTail_groups, StableHlo.after_append, StableHlo.after_append]

/-! ## The first group -/

set_option maxRecDepth 8192 in
set_option maxHeartbeats 2000000 in
theorem kA_v31 (V : Valuation τ sig (Elt Ideal)) :
    StableHlo.after kA V (Proc.devRef .tc main_v31)
      = contTail (shapeCast _ (V (Proc.devRef .tc main_v10_0)) shapeCasts_S4096x1_S4096)
          (shapeCast _ (V (Proc.devRef .tc main_v10_1)) shapeCasts_S4096x1_S4096)
          (shapeCast _ (V (Proc.devRef .tc main_v10_2)) shapeCasts_S4096x1_S4096) := by
  simp only [kA, hostOps1, hostOps1_1, hostOps1_2, hostOps1_3, List.cons_append, List.nil_append]
  after_results_simp
  simp only [TRef.toBuf, TRef.ofBuf, cast_eq, id]
  rfl

set_option maxRecDepth 8192 in
set_option maxHeartbeats 2000000 in
theorem kA_arg0 (V : Valuation τ sig (Elt Ideal)) :
    StableHlo.after kA V (Proc.devRef .tc main_arg0) = V (Proc.devRef .tc main_arg0) := by
  simp only [kA, hostOps1, hostOps1_1, hostOps1_2, hostOps1_3, List.cons_append, List.nil_append]
  after_results_simp

set_option maxRecDepth 8192 in
set_option maxHeartbeats 2000000 in
theorem kA_arg2 (V : Valuation τ sig (Elt Ideal)) :
    StableHlo.after kA V (Proc.devRef .tc main_arg2) = V (Proc.devRef .tc main_arg2) := by
  simp only [kA, hostOps1, hostOps1_1, hostOps1_2, hostOps1_3, List.cons_append, List.nil_append]
  after_results_simp

/-! ## The second group -/

set_option maxRecDepth 8192 in
set_option maxHeartbeats 4000000 in
theorem kB_v62 (V : Valuation τ sig (Elt Ideal)) :
    StableHlo.after kB V (Proc.devRef .tc main_v62)
      = distOf (rowsOf (V (Proc.devRef .tc main_arg0)) (col0 (V (Proc.devRef .tc main_arg2))))
          (rowsOf (V (Proc.devRef .tc main_arg0)) (col1 (V (Proc.devRef .tc main_arg2)))) := by
  simp only [kB, hostOps1_4, hostOps1_5, hostOps1_6, hostOps1_7, List.cons_append, List.nil_append]
  after_results_simp
  simp only [TRef.toBuf, TRef.ofBuf, cast_eq, id]
  rfl

set_option maxRecDepth 8192 in
set_option maxHeartbeats 4000000 in
theorem kB_v66 (V : Valuation τ sig (Elt Ideal)) :
    StableHlo.after kB V (Proc.devRef .tc main_v66)
      = distOf (rowsOf (V (Proc.devRef .tc main_arg0)) (col0 (V (Proc.devRef .tc main_arg2))))
          (rowsOf (V (Proc.devRef .tc main_arg0)) (col2 (V (Proc.devRef .tc main_arg2)))) := by
  simp only [kB, hostOps1_4, hostOps1_5, hostOps1_6, hostOps1_7, List.cons_append, List.nil_append]
  after_results_simp
  simp only [TRef.toBuf, TRef.ofBuf, cast_eq, id]
  rfl

set_option maxRecDepth 8192 in
set_option maxHeartbeats 4000000 in
theorem kB_v31 (V : Valuation τ sig (Elt Ideal)) :
    StableHlo.after kB V (Proc.devRef .tc main_v31) = V (Proc.devRef .tc main_v31) := by
  simp only [kB, hostOps1_4, hostOps1_5, hostOps1_6, hostOps1_7, List.cons_append, List.nil_append]
  after_results_simp

/-! ## The third group -/

set_option maxRecDepth 8192 in
theorem kC_v73 (V : Valuation τ sig (Elt Ideal)) :
    StableHlo.after kC V (Proc.devRef .tc main_v73)
      = hingeOf (V (Proc.devRef .tc main_v62)) (V (Proc.devRef .tc main_v66)) := by
  simp only [kC, hostOps1_8]
  after_results_simp
  rfl

set_option maxRecDepth 8192 in
theorem kC_v76 (V : Valuation τ sig (Elt Ideal)) :
    StableHlo.after kC V (Proc.devRef .tc main_v76)
      = totalOf (V (Proc.devRef .tc main_v31)) (hingeOf (V (Proc.devRef .tc main_v62)) (V (Proc.devRef .tc main_v66))) := by
  simp only [kC, hostOps1_8]
  after_results_simp
  rfl

set_option maxRecDepth 8192 in
theorem kC_v31 (V : Valuation τ sig (Elt Ideal)) :
    StableHlo.after kC V (Proc.devRef .tc main_v31) = V (Proc.devRef .tc main_v31) := by
  simp only [kC, hostOps1_8]
  after_results_simp

/-! ## The three results -/

/-- The contrastive loss the host computes is `contTail` of the three output columns, each flattened to a vector. -/
theorem ker_cont (W : Valuation τ sig (Elt Ideal)) :
    StableHlo.after (List.flatten kTailOps) W (Proc.devRef .tc main_v31)
      = contTail (shapeCast _ (W (Proc.devRef .tc main_v10_0)) shapeCasts_S4096x1_S4096)
          (shapeCast _ (W (Proc.devRef .tc main_v10_1)) shapeCasts_S4096x1_S4096)
          (shapeCast _ (W (Proc.devRef .tc main_v10_2)) shapeCasts_S4096x1_S4096) := by
  rw [after_kTail, kC_v31, kB_v31, kA_v31]

/-- The triplet loss the host computes is `tripTail` of the embedding table and the triplets. -/
theorem ker_tripTail (W : Valuation τ sig (Elt Ideal)) :
    StableHlo.after (List.flatten kTailOps) W (Proc.devRef .tc main_v73)
      = tripTail (W (Proc.devRef .tc main_arg0)) (W (Proc.devRef .tc main_arg2)) := by
  rw [after_kTail, kC_v73, kB_v62, kB_v66, kA_arg0, kA_arg2]
  rfl

/-- The total the host computes is `totalOf` of its contrastive and triplet losses. -/
theorem ker_total (W : Valuation τ sig (Elt Ideal)) :
    StableHlo.after (List.flatten kTailOps) W (Proc.devRef .tc main_v76)
      = totalOf (StableHlo.after (List.flatten kTailOps) W (Proc.devRef .tc main_v31))
          (StableHlo.after (List.flatten kTailOps) W (Proc.devRef .tc main_v73)) := by
  rw [after_kTail, kC_v76, kC_v31, kC_v73]

end Cert.Tails

end
-- ==== Proof.TailsRef.lean ====
/-
  The reference's three results are the tail functions of its own row sums and arguments, and the kernel's triplet
  loss is therefore the reference's.

  Each equation unfolds the reference's stages, one definition per host operation, down to the three row sums (or
  down to the arguments, for the triplet loss) and compares the two compositions as they stand.
-/
import proofs.«101721_j13683765805398_2_alg».proof.Proof.RefRead
import proofs.«101721_j13683765805398_2_alg».proof.Proof.TailsKernel

noncomputable section

namespace Cert.Tails

open Idealize.ShloMosaic Idealize.ShloMosaic.TcCoe Idealize.SL.Sem Idealize.ShloMosaic.StableHlo
open Cert.ReferenceIdeal Cert.ReferenceIdeal.Gen Cert.ReferenceIdeal.Read

/-- The reference's contrastive loss is `contTail` of its own three row sums. -/
theorem ref_cont (x0 : (⟨S4096x512, .f32⟩ : BufTy).Contents (Elt Ideal)) (x1 : (⟨S4096, .i32⟩ : BufTy).Contents (Elt Ideal)) :
    val_main_v46 (F := Ideal) x0 x1
      = contTail (val_main_v26 (F := Ideal) x0 x1) (val_main_v27 (F := Ideal) x0) (val_main_v35 (F := Ideal) x1) := by
  simp only [
    val_main_v46, val_main_v45, val_main_v44, val_main_v43, val_main_v42, val_main_v41, val_main_v40,
    val_main_v39, val_main_v38, val_main_v37, val_main_v36, val_main_v34, val_main_v33, val_main_v32,
    val_main_v31, val_main_v30, val_main_v29, val_main_v28, val_main_call1_v1, val_main_call1_v0,
    val_main_cst_4, val_main_cst_5, val_main_cst_7, val_main_c_8, val_main_c_9, val_main_cst_10,
    val_main_cst_11, val_main_c_12, val_main_cst_13]
  rfl

/-- The reference's triplet loss is `tripTail` of the embedding table and the triplets. -/
theorem ref_trip (x0 : (⟨S4096x512, .f32⟩ : BufTy).Contents (Elt Ideal)) (x2 : (⟨S4096x3, .i32⟩ : BufTy).Contents (Elt Ideal)) :
    val_main_v88 (F := Ideal) x0 x2 = tripTail x0 x2 := by
  simp only [
    val_main_v47, val_main_v48, val_main_c_14, val_main_v49, val_main_v50, val_main_c_15, val_main_v51,
    val_main_v52, val_main_v53, val_main_v54, val_main_v55, val_main_v56, val_main_v57, val_main_c_16,
    val_main_v58, val_main_v59, val_main_c_17, val_main_v60, val_main_v61, val_main_v62, val_main_v63,
    val_main_v64, val_main_v65, val_main_v66, val_main_c_18, val_main_v67, val_main_v68, val_main_c_19,
    val_main_v69, val_main_v70, val_main_v71, val_main_v72, val_main_v73, val_main_v74, val_main_cst_20,
    val_main_v75, val_main_v76, val_main_call3_v0, val_main_call3_cst, val_main_call3_v1, val_main_v77,
    val_main_v78, val_main_cst_21, val_main_v79, val_main_v80, val_main_call4_v0, val_main_call4_cst,
    val_main_call4_v1, val_main_v81, val_main_v82, val_main_cst_22, val_main_v83, val_main_v84,
    val_main_cst_23, val_main_v85, val_main_v86, val_main_cst_24, val_main_v87, val_main_cst_25,
    val_main_v88]
  rfl

/-- The reference's total is `totalOf` of its contrastive and triplet losses. -/
theorem ref_total (x0 : (⟨S4096x512, .f32⟩ : BufTy).Contents (Elt Ideal)) (x1 : (⟨S4096, .i32⟩ : BufTy).Contents (Elt Ideal))
    (x2 : (⟨S4096x3, .i32⟩ : BufTy).Contents (Elt Ideal)) :
    val_main_v91 (F := Ideal) x0 x1 x2 = totalOf (val_main_v46 (F := Ideal) x0 x1) (val_main_v88 (F := Ideal) x0 x2) := by
  simp only [val_main_v91, val_main_v90, val_main_v89, val_main_cst_26, val_main_cst_27]
  rfl

/-- The triplet loss the kernel's host operations compute is the reference's, of the same two arguments. -/
theorem ker_trip (W : Valuation Cert.KernelIdeal.τ Cert.KernelIdeal.sig (Elt Ideal)) :
    StableHlo.after (List.flatten kTailOps) W (Proc.devRef .tc Cert.KernelIdeal.main_v73)
      = val_main_v88 (F := Ideal) (W (Proc.devRef .tc Cert.KernelIdeal.main_arg0))
          (W (Proc.devRef .tc Cert.KernelIdeal.main_arg2)) :=
  (ker_tripTail W).trans (ref_trip _ _).symm

end Cert.Tails

end
-- ==== Proof.KRun.lean ====
/-
  The idealized kernel's run with its three results named. After the region the three output arrays hold the
  specification's row sums of the normalised table and the labels; these are the reference's own three row sums
  (the normalised table is computed by the same host operations in both programs, and the labels are the same
  argument read through a reshape). The host operations after the region are the reference's, so the three results are the
  reference's contrastive loss, triplet loss and total of the same arguments.
-/
import proofs.«101721_j13683765805398_2_alg».proof.Proof.KFinal
import proofs.«101721_j13683765805398_2_alg».proof.Proof.KPre
import proofs.«101721_j13683765805398_2_alg».proof.Proof.RefPos
import proofs.«101721_j13683765805398_2_alg».proof.Proof.TailsRef

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.KernelIdeal.Hand

variable (m : (ℓ : Loc nD τ sig) → Buf (Elt Ideal) ℓ) (ρ : Dev nD → PrngReg)

/-- The three arguments as the reference's stages take them. -/
abbrev a0 (c : Dev nD) : (⟨Cert.ReferenceIdeal.S4096x512, .f32⟩ : BufTy).Contents (Elt Ideal) := m ((c.tc : Thread nD τ).loc main_arg0)
abbrev a1 (c : Dev nD) : (⟨Cert.ReferenceIdeal.S4096, .i32⟩ : BufTy).Contents (Elt Ideal) := m ((c.tc : Thread nD τ).loc main_arg1)
abbrev a2 (c : Dev nD) : (⟨Cert.ReferenceIdeal.S4096x3, .i32⟩ : BufTy).Contents (Elt Ideal) := m ((c.tc : Thread nD τ).loc main_arg2)

/-- The contents the host operations after the region start from: the region's arrays at their final contents, every
    other buffer as the region found it. -/
abbrev Wt (c : Dev nD) : Valuation τ sig (Elt Ideal) :=
  Pipeline.withArrays (cfgs 0).spec c (V0 m c) fun w => (dats m 0 c).arrAt w (cfgs 0).N

theorem Wt_pos (c : Dev nD) : Wt m c (Proc.devRef .tc main_v10_0) = G2 m c :=
  (Pipeline.withArrays_arr spec0 launch0.win.arr_inj c _ _ 2).trans (final2 m c)
theorem Wt_tot (c : Dev nD) : Wt m c (Proc.devRef .tc main_v10_1) = G3 m c :=
  (Pipeline.withArrays_arr spec0 launch0.win.arr_inj c _ _ 3).trans (final3 m c)
theorem Wt_cnt (c : Dev nD) : Wt m c (Proc.devRef .tc main_v10_2) = G4 m c :=
  (Pipeline.withArrays_arr spec0 launch0.win.arr_inj c _ _ 4).trans (final4 m c)
theorem Wt_arg0 (c : Dev nD) : Wt m c (Proc.devRef .tc main_arg0) = m ((c.tc : Thread nD τ).loc main_arg0) :=
  (Pipeline.withArrays_of_ne _ c _ _ main_arg0 (by decide)).trans (Cert.KernelIdeal.KPre.V0_arg0 m c)
theorem Wt_arg2 (c : Dev nD) : Wt m c (Proc.devRef .tc main_arg2) = m ((c.tc : Thread nD τ).loc main_arg2) :=
  (Pipeline.withArrays_of_ne _ c _ _ main_arg2 (by decide)).trans (Cert.KernelIdeal.KPre.V0_arg2 m c)

/-- The labels' row vector is the label argument. -/
theorem lab_eq (c : Dev nD) : Lrow (lab m c) = (a1 m c : Cert.Spec.SV.Idx → BitVec 32) := by
  funext q
  obtain ⟨k, rfl⟩ : ∃ k : Fin 4096, q = ix1 k := ⟨q 0, eq_ix1 q⟩
  exact Cert.KernelIdeal.KPre.V_labels m c k

/-- A [4096, 1] column flattened reads, at row r, the column at (r, 0). -/
theorem flat_apply (x : S4096x1.Idx → EReal) (r : Fin 4096) :
    shapeCast S4096 x shapeCasts_S4096x1_S4096 (ix1 r) = x (ix2 r (0 : Fin 1)) :=
  shapeCast_apply x shapeCasts_S4096x1_S4096 _ _ (by
    rw [Shape.rowMajor_val_two, Shape.rowMajor_val_one]
    show r.val * 1 + 0 = r.val
    omega)

/-- The kernel's three row sums are the reference's. -/
theorem pos_eq (c : Dev nD) :
    shapeCast S4096 (G2 m c) shapeCasts_S4096x1_S4096 = Cert.ReferenceIdeal.Read.val_main_v26 (F := Ideal) (a0 m c) (a1 m c) := by
  funext i
  obtain ⟨r, rfl⟩ : ∃ r : Fin 4096, i = ix1 r := ⟨i 0, eq_ix1 i⟩
  rw [Cert.RefSide.ref_pos_at, flat_apply]
  show Cert.Spec.pos (tab m c : Cert.Spec.ST.Idx → EReal) (Lrow (lab m c)) r = _
  rw [lab_eq, show (tab m c : Cert.Spec.ST.Idx → EReal) = _ from Cert.KernelIdeal.KPre.V_table m c]

theorem tot_eq (c : Dev nD) :
    shapeCast S4096 (G3 m c) shapeCasts_S4096x1_S4096 = Cert.ReferenceIdeal.Read.val_main_v27 (F := Ideal) (a0 m c) := by
  funext i
  obtain ⟨r, rfl⟩ : ∃ r : Fin 4096, i = ix1 r := ⟨i 0, eq_ix1 i⟩
  rw [Cert.RefSide.ref_tot_at, flat_apply]
  show Cert.Spec.tot (tab m c : Cert.Spec.ST.Idx → EReal) r = _
  rw [show (tab m c : Cert.Spec.ST.Idx → EReal) = _ from Cert.KernelIdeal.KPre.V_table m c]

theorem cnt_eq (c : Dev nD) :
    shapeCast S4096 (G4 m c) shapeCasts_S4096x1_S4096 = Cert.ReferenceIdeal.Read.val_main_v35 (F := Ideal) (a1 m c) := by
  funext i
  obtain ⟨r, rfl⟩ : ∃ r : Fin 4096, i = ix1 r := ⟨i 0, eq_ix1 i⟩
  rw [Cert.RefSide.ref_cnt_at, flat_apply]
  show Cert.Spec.cnt (Lrow (lab m c)) r = _
  rw [lab_eq]

/-- The contrastive loss after the host's last operations is the reference's, of the same arguments. -/
theorem cont_eq (c : Dev nD) :
    Pipeline.afterTail₀ cfgs (dats m) 0 (V0 m) tailOps c main_v31 = Cert.ReferenceIdeal.Read.val_main_v46 (F := Ideal) (a0 m c) (a1 m c) := by
  show StableHlo.after (List.flatten Cert.Tails.kTailOps) (Wt m c) (Proc.devRef .tc main_v31) = _
  rw [Cert.Tails.ker_cont, Wt_pos, Wt_tot, Wt_cnt, pos_eq, tot_eq, cnt_eq, ← Cert.Tails.ref_cont]

/-- The triplet loss likewise. -/
theorem trip_eq (c : Dev nD) :
    Pipeline.afterTail₀ cfgs (dats m) 0 (V0 m) tailOps c main_v73 = Cert.ReferenceIdeal.Read.val_main_v88 (F := Ideal) (a0 m c) (a2 m c) := by
  show StableHlo.after (List.flatten Cert.Tails.kTailOps) (Wt m c) (Proc.devRef .tc main_v73) = _
  rw [Cert.Tails.ker_trip, Wt_arg0, Wt_arg2]

/-- And the total. -/
theorem total_eq (c : Dev nD) :
    Pipeline.afterTail₀ cfgs (dats m) 0 (V0 m) tailOps c main_v76 = Cert.ReferenceIdeal.Read.val_main_v91 (F := Ideal) (a0 m c) (a1 m c) (a2 m c) := by
  have h1 := cont_eq m c
  have h2 := trip_eq m c
  show StableHlo.after (List.flatten Cert.Tails.kTailOps) (Wt m c) (Proc.devRef .tc main_v76) = _
  rw [Cert.Tails.ker_total, Cert.Tails.ref_total]
  exact congrArg₂ Cert.Tails.totalOf h1 h2

/-- THE RUN: every weakly fair execution of the idealized kernel's program ends with its three results at the reference's
    total, contrastive loss and triplet loss of the same arguments, and the arguments unchanged. -/
theorem run : θ_run defs (onTc (τ := τ) (main (F := Ideal))) ⟨m, fun _ => 0, ρ⟩ fun r => ∀ c : Dev nD,
      r.2.mem ((c.tc : Thread nD τ).loc main_v76) = Cert.ReferenceIdeal.Read.val_main_v91 (F := Ideal) (a0 m c) (a1 m c) (a2 m c)
      ∧ r.2.mem ((c.tc : Thread nD τ).loc main_v31) = Cert.ReferenceIdeal.Read.val_main_v46 (F := Ideal) (a0 m c) (a1 m c)
      ∧ r.2.mem ((c.tc : Thread nD τ).loc main_v73) = Cert.ReferenceIdeal.Read.val_main_v88 (F := Ideal) (a0 m c) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v76 (Pipeline.mem_restRefs_of main_v76 (by decide) (by decide))).trans (total_eq m c),
     ((h c).2 main_v31 (Pipeline.mem_restRefs_of main_v31 (by decide) (by decide))).trans (cont_eq m c),
     ((h c).2 main_v73 (Pipeline.mem_restRefs_of main_v73 (by decide) (by decide))).trans (trip_eq m c),
     ((h c).2 main_arg0 (Pipeline.mem_restRefs_of main_arg0 (by decide) (by decide))).trans (afterTail_arg m (dats m) c main_arg0 (by decide) (by decide) (by decide)),
     ((h c).2 main_arg1 (Pipeline.mem_restRefs_of main_arg1 (by decide) (by decide))).trans (afterTail_arg m (dats m) c main_arg1 (by decide) (by decide) (by decide)),
     ((h c).2 main_arg2 (Pipeline.mem_restRefs_of main_arg2 (by decide) (by decide))).trans (afterTail_arg m (dats m) c main_arg2 (by decide) (by decide) (by decide))⟩)
    (run_main (F := Ideal) m ρ)

end Cert.KernelIdeal.KVal

end
-- ==== Proof.lean ====
/-
  A contrastive loss over cosine similarities with a triplet loss beside it: the kernel's entry point against its jnp reference.

  The idealized kernel and the idealized reference compute, from the embedding table, the labels and the triplets, the
  same three numbers over the extended reals. Both normalise the table's rows by the same host operations. The
  reference forms the whole 4096 × 4096 matrix exp((E Eᵀ) / T) and sums each row three ways (over the positives of the
  row, over all columns, and the number of positives); the kernel tiles the matrix 8 × 2, forms each 512 × 2048 tile of
  exp((E Eᵀ) · (1/T)) on chip and accumulates the same three sums per row tile over its two column tiles. The scale is
  the one place the two differ in text: the kernel multiplies by a literal that its idealization names as the exact
  reciprocal 134217728 / 9395241 of the reference's divisor 9395241 / 2^27, and a quotient by a nonzero real is the
  product with its reciprocal on every extended real. A mask entry is 0 or 1, so the reference's product with the mask is
  the kernel's selection; sums over the extended reals may be regrouped freely. After the three row sums both programs
  apply the same host operations, which are carried as one function and never opened. No finiteness of the input is
  used: the precondition is not opened.

  The frames of the two kernel programs are the launch theorem for a pipelined region followed by host operations,
  applied to the body's run in its two cases (the first column tile resets the three output blocks, the second
  accumulates into them); the reference's frame is its run with the results dropped.
-/
import proofs.«101721_j13683765805398_2_alg».proof.Defs
import proofs.«101721_j13683765805398_2_alg».proof.Proof.Gen.Kernel
import proofs.«101721_j13683765805398_2_alg».proof.Proof.Gen.KernelIdeal
import proofs.«101721_j13683765805398_2_alg».proof.Proof.Gen.ReferenceIdeal
import proofs.«101721_j13683765805398_2_alg».proof.Proof.Gen.Pre_finite_inputs
import proofs.«101721_j13683765805398_2_alg».proof.Proof.KFrame
import proofs.«101721_j13683765805398_2_alg».proof.Proof.KRun
import proofs.«101721_j13683765805398_2_alg».proof.Proof.RefRun
import Idealize.ShloMosaic.PureOps.IdealRules

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2.2) (Cert.ReferenceIdeal.Value.run (F := Ideal) m ρ)

/-- The one rewrite of the idealization: the kernel's scale literal is named the exact reciprocal of the reference's
    divisor, and the printed constant is that value at the extended reals. -/
theorem preserves : Cert.preserves_Kernel_KernelIdeal :=
  IdealRules.named_const.statement Cert.KernelIdeal.κ "inv_temp" .f32 0x41649249#32 ((134217728 / 9395241 : ℝ) : EReal) rfl

/-- Both programs end at the reference's total, contrastive loss and triplet loss of the shared arguments. -/
theorem algebraic : Cert.algebraic_KernelIdeal_ReferenceIdeal := by
  intro m ρ m' ρ' _ hagree
  refine ⟨fun c => Cert.ReferenceIdeal.Read.val_main_v91 (F := Ideal) (Cert.KernelIdeal.KVal.a0 m c) (Cert.KernelIdeal.KVal.a1 m c) (Cert.KernelIdeal.KVal.a2 m c),
    fun c => Cert.ReferenceIdeal.Read.val_main_v46 (F := Ideal) (Cert.KernelIdeal.KVal.a0 m c) (Cert.KernelIdeal.KVal.a1 m c),
    fun c => Cert.ReferenceIdeal.Read.val_main_v88 (F := Ideal) (Cert.KernelIdeal.KVal.a0 m c) (Cert.KernelIdeal.KVal.a2 m c),
    Cert.KernelIdeal.KVal.run m ρ, ?_⟩
  refine (θ_run Cert.ReferenceIdeal.defs _ _).mono (fun _ h c => ?_) (Cert.ReferenceIdeal.Value.run (F := Ideal) m' ρ')
  obtain ⟨h1, h2, h3, h4, h5, h6⟩ := h c
  obtain ⟨e0, e1, e2⟩ := hagree c
  refine ⟨h1.trans ?_, h2.trans ?_, h3.trans ?_, h4, h5, h6⟩
  · rw [e0, e1, e2]
  · rw [e0, e1]
  · rw [e0, e2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
